-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S384x4 : Shape := ⟨2, ![384, 4]⟩
abbrev S4 : Shape := ⟨1, ![4]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x4 : S_.BroadcastsInDim S384x4 (![] : Fin 0 → Fin S384x4.rank)
  reducesTo_S384x4_S_d0_1 : S384x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg7 : FVec F S128 .f32) (main_arg8 : FVec F S384x4 .f32) (main_arg9 : FVec F S4 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x4 .f32 := Host.absf main_arg8
  let main_cst_14 : FVec F S_ .f32 := constant S_ .f32 0x7F800000#32
  let main_v40 : FVec F S384x4 .f32 := broadcastInDim S384x4 ![] bcast_S_S384x4 main_cst_14
  let main_v41 : IVec S384x4 1 := cmpf .olt main_v39 main_v40
  let main_c_15 : IVec S_ 1 := constantI S_ 1 1#1
  let main_v42 : IVec S_ 1 := (fun x v => Host.reduce IntOp.andi x v reducesTo_S384x4_S_d0_1 h_S_) main_v41 main_c_15
  let main_v43 : IVec S_ 1 := andi main_v38 main_v42
  let main_v44 : FVec F S4 .f32 := Host.absf main_arg9
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S384x4 .f32) (main_arg9 : FVec F S4 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S384x4 .f32) (main_arg9 : FVec F S4 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S384x4 : Shape := ⟨2, ![384, 4]⟩
abbrev S4 : Shape := ⟨1, ![4]⟩
abbrev S128x4 : Shape := ⟨2, ![128, 4]⟩
abbrev S_ : Shape := ⟨0, ![]⟩
abbrev S1x4 : Shape := ⟨2, ![1, 4]⟩
abbrev S1x128 : Shape := ⟨2, ![1, 128]⟩
abbrev S400x10000 : Shape := ⟨2, ![400, 10000]⟩
abbrev S400x128 : Shape := ⟨2, ![400, 128]⟩
abbrev S10000x4 : Shape := ⟨2, ![10000, 4]⟩
abbrev S400x4 : Shape := ⟨2, ![400, 4]⟩
abbrev S400 : Shape := ⟨1, ![400]⟩
abbrev S400x1 : Shape := ⟨2, ![400, 1]⟩

abbrev nBuf : Space → Nat
  | .hbm => 33
  | .vmem => 30
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x4, .f32⟩
  | .hbm, ⟨9, _⟩ => ⟨S4, .f32⟩
  | .hbm, ⟨10, _⟩ => ⟨S128x4, .f32⟩
  | .hbm, ⟨11, _⟩ => ⟨S_, .i32⟩
  | .hbm, ⟨12, _⟩ => ⟨S_, .f32⟩
  | .hbm, ⟨13, _⟩ => ⟨S128x128, .f32⟩
  | .hbm, ⟨14, _⟩ => ⟨S128x4, .f32⟩
  | .hbm, ⟨15, _⟩ => ⟨S_, .i32⟩
  | .hbm, ⟨16, _⟩ => ⟨S_, .f32⟩
  | .hbm, ⟨17, _⟩ => ⟨S128x128, .f32⟩
  | .hbm, ⟨18, _⟩ => ⟨S128x4, .f32⟩
  | .hbm, ⟨19, _⟩ => ⟨S_, .i32⟩
  | .hbm, ⟨20, _⟩ => ⟨S_, .f32⟩
  | .hbm, ⟨21, _⟩ => ⟨S128x128, .f32⟩
  | .hbm, ⟨22, _⟩ => ⟨S1x4, .f32⟩
  | .hbm, ⟨23, _⟩ => ⟨S_, .i32⟩
  | .hbm, ⟨24, _⟩ => ⟨S_, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S10000x128, .bf16⟩
  | .hbm, ⟨30, _⟩ => ⟨S10000x128, .bf16⟩
  | .hbm, ⟨31, _⟩ => ⟨S10000x10000, .bf16⟩
  | .hbm, ⟨32, _⟩ => ⟨S10000x4, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S400x128, .bf16⟩
  | .local _ .vmem, ⟨7, _⟩ => ⟨S400x128, .bf16⟩
  | .local _ .vmem, ⟨8, _⟩ => ⟨S400x128, .bf16⟩
  | .local _ .vmem, ⟨9, _⟩ => ⟨S400x128, .bf16⟩
  | .local _ .vmem, ⟨10, _⟩ => ⟨S400x10000, .bf16⟩
  | .local _ .vmem, ⟨11, _⟩ => ⟨S400x10000, .bf16⟩
  | .local _ .vmem, ⟨12, _⟩ => ⟨S10000x128, .f32⟩
  | .local _ .vmem, ⟨13, _⟩ => ⟨S400x10000, .bf16⟩
  | .local _ .vmem, ⟨14, _⟩ => ⟨S400x10000, .bf16⟩
  | .local _ .vmem, ⟨15, _⟩ => ⟨S10000x128, .bf16⟩
  | .local _ .vmem, ⟨16, _⟩ => ⟨S400x128, .bf16⟩
  | .local _ .vmem, ⟨17, _⟩ => ⟨S400x128, .bf16⟩
  | .local _ .vmem, ⟨18, _⟩ => ⟨S1x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S400x4, .f32⟩
  | .local _ .vmem, ⟨26, _⟩ => ⟨S400x4, .f32⟩
  | .local _ .vmem, ⟨27, _⟩ => ⟨S10000x128, .f32⟩
  | .local _ .vmem, ⟨28, _⟩ => ⟨S10000x128, .f32⟩
  | .local _ .vmem, ⟨29, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_call2_v0 : Ref sig .tc := ⟨.hbm, 20, rfl⟩
abbrev main_v5 : Ref sig .tc := ⟨.hbm, 21, rfl⟩
abbrev main_v6 : Ref sig .tc := ⟨.hbm, 22, rfl⟩
abbrev main_c_2 : Ref sig .tc := ⟨.hbm, 23, rfl⟩
abbrev main_call3_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev main_v11_2 : Ref sig .tc := ⟨.hbm, 31, rfl⟩
abbrev main_v12 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg10_1 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x10000 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 25], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg1 : BitVec 32 := BitVec.ofNat 32 (i 1).val
  let c400_i32 : BitVec 32 := 400#32
  let v31 : BitVec 32 := Scalar.muli arg1 c400_i32
  let v32 : Index := Scalar.indexCast v31
  let c0_17 : Index := 0#32
  ![v32.toNat, 0]
def k1_cond3 (i : grid1.Coords) : BitVec 1 :=
  let arg0 : BitVec 32 := BitVec.ofNat 32 (i 0).val
  let c1_i32_3 : BitVec 32 := 1#32
  let v8 : BitVec 1 := Scalar.cmpi .eq arg0 c1_i32_3
  let v9 : BitVec 32 := Scalar.extui v8
  let c0_i32_4 : BitVec 32 := 0#32
  let v10 : BitVec 1 := Scalar.cmpi .ne v9 c0_i32_4
  v10

def k1_off2 (i : grid1.Coords) : Fin 2 → Nat :=
  let arg1 : BitVec 32 := BitVec.ofNat 32 (i 1).val
  let c400_i32 : BitVec 32 := 400#32
  let v22 : BitVec 32 := Scalar.muli arg1 c400_i32
  let v23 : Index := Scalar.indexCast v22
  let c0_13 : Index := 0#32
  ![v23.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S400x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S400x4 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

class Facts₀ : Prop where
  slices_S384x4_S128x4_0_0 : S384x4.Slices ![0, 0] S128x4
  pads_S128x4_S128x128_000_01240 : S128x4.Pads (![0, 0] : Fin 2 → Nat) ![0, 124] ![0, 0] S128x128
  h_S_ : 0 < S_.numel
  slices_S384x4_S128x4_128_0 : S384x4.Slices ![128, 0] S128x4
  slices_S384x4_S128x4_256_0 : S384x4.Slices ![256, 0] S128x4
  shapeCasts_S4_S1x4 : S4.ShapeCasts S1x4
  pads_S1x4_S1x128_000_01240 : S1x4.Pads (![0, 0] : Fin 2 → Nat) ![0, 124] ![0, 0] S1x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S400x10000_S400x10000 : S400x10000.ShapeCasts S400x10000
  shapeCasts_S128x128_S128x128 : S128x128.ShapeCasts S128x128
  shapeCasts_S400x128_S400x128 : S400x128.ShapeCasts S400x128
  packedbf16_S10000x128_S10000x128_0_0 : (Rect.unit (s := S10000x128) ![0, 0] S10000x128.size inb_S10000x128_S10000x128_0_0).PackedRows (EltTy.packing .bf16)
  iota_S400x128_d1_w32 : S400x128.Iotas .tc 32 [1]
  reduces_S400x128_S400 : S400x128.Reduces [1] S400
  shapeCasts_S400_S400x1 : S400.ShapeCasts S400x1
  broadcasts_S400x1_S400x128 : S400x1.Broadcasts S400x128
  slices_S400x128_o0_0_S400x4 : S400x128.Slices ![0, 0] S400x4
  inb_S400x4_S400x4_0_0 : ∀ a, (![0, 0] : Fin 2 → Nat) a + S400x4.size a ≤ S400x4.size a
  h_S400x4 : 0 < S400x4.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .bf16 = 32 ∨ (Rect.block (s := S10000x128) S400x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .bf16 = 32 ∨ (Rect.block (s := S10000x128) S400x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x10000.size a ≤ S10000x10000.size a
  hwx0_7 : ∀ i : grid0.Coords, EltTy.bits .bf16 = 32 ∨ (Rect.block (s := S10000x10000) S400x10000.size (cc0_transform_7 i) (hinb0_7 i)).WholeWords (EltTy.packing .bf16)
  hrank1 : 0 < grid1.rank
  k1_off1_inb : ∀ i : grid1.Coords, ∀ (k1_h1 : k1_cond1 i = 1#1), ∀ a, (k1_off1 i) a + S400x128.size a ≤ S10000x128.size a
  k1_off2_inb : ∀ i : grid1.Coords, ∀ (k1_h3 : k1_cond3 i = 1#1), ∀ a, (k1_off2 i) a + S400x128.size a ≤ S10000x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .bf16 = 32 ∨ (Rect.block (s := S10000x128) S400x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S400x4.size a ≤ S10000x4.size a
  hwx1_10 : ∀ i : grid1.Coords, EltTy.bits .f32 = 32 ∨ (Rect.block (s := S10000x4) S400x4.size (cc1_transform_10 i) (hinb1_10 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11_0) S400x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_1) S400x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11_2) S400x10000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v11_2) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11_0) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v10) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v7) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v12) S400x4.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond3 i == 1#1) | ⟨_ + 11, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S384x4 : Shape := ⟨2, ![384, 4]⟩
abbrev S4 : Shape := ⟨1, ![4]⟩
abbrev S1x128 : Shape := ⟨2, ![1, 128]⟩
abbrev S_ : Shape := ⟨0, ![]⟩
abbrev S10000x384 : Shape := ⟨2, ![10000, 384]⟩
abbrev S10000x4 : Shape := ⟨2, ![10000, 4]⟩
abbrev S1x4 : Shape := ⟨2, ![1, 4]⟩
abbrev S10000 : Shape := ⟨1, ![10000]⟩
abbrev S10000x1 : Shape := ⟨2, ![10000, 1]⟩

abbrev nBuf : Space → Nat
  | .hbm => 51
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x4, .f32⟩
  | .hbm, ⟨9, _⟩ => ⟨S4, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S10000x384, .f32⟩
  | .hbm, ⟨32, _⟩ => ⟨S10000x4, .f32⟩
  | .hbm, ⟨33, _⟩ => ⟨S1x4, .f32⟩
  | .hbm, ⟨34, _⟩ => ⟨S10000x4, .f32⟩
  | .hbm, ⟨35, _⟩ => ⟨S10000x4, .f32⟩
  | .hbm, ⟨36, _⟩ => ⟨S_, .f32⟩
  | .hbm, ⟨37, _⟩ => ⟨S10000, .f32⟩
  | .hbm, ⟨38, _⟩ => ⟨S_, .f32⟩
  | .hbm, ⟨39, _⟩ => ⟨S10000, .f32⟩
  | .hbm, ⟨40, _⟩ => ⟨S10000, .f32⟩
  | .hbm, ⟨41, _⟩ => ⟨S10000x1, .f32⟩
  | .hbm, ⟨42, _⟩ => ⟨S10000x4, .f32⟩
  | .hbm, ⟨43, _⟩ => ⟨S10000x4, .f32⟩
  | .hbm, ⟨44, _⟩ => ⟨S10000x4, .f32⟩
  | .hbm, ⟨45, _⟩ => ⟨S_, .f32⟩
  | .hbm, ⟨46, _⟩ => ⟨S10000, .f32⟩
  | .hbm, ⟨47, _⟩ => ⟨S10000x1, .f32⟩
  | .hbm, ⟨48, _⟩ => ⟨S10000x1, .f32⟩
  | .hbm, ⟨49, _⟩ => ⟨S10000x4, .f32⟩
  | .hbm, ⟨50, _⟩ => ⟨S10000x4, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call2_cst : Ref sig .tc := ⟨.hbm, 36, rfl⟩
abbrev main_call2_v0 : Ref sig .tc := ⟨.hbm, 37, rfl⟩
abbrev main_call2_cst_0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_cst_1 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_v22 : Ref sig .tc := ⟨.hbm, 50, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  concatenates_S10000x128_S10000x128_S10000x128_S10000x384_d1 : Shape.Concatenates [S10000x128, S10000x128, S10000x128] S10000x384 1
  bcast_S4_S1x4_1 : S4.BroadcastsInDim S1x4 (![1] : Fin 1 → Fin S1x4.rank)
  bcast_S1x4_S10000x4_0_1 : S1x4.BroadcastsInDim S10000x4 (![0, 1] : Fin 2 → Fin S10000x4.rank)
  reducesTo_S10000x4_S10000_d1 : S10000x4.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x4_0_1 : S10000x1.BroadcastsInDim S10000x4 (![0, 1] : Fin 2 → Fin S10000x4.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x384_S384x4_S10000x4_1_0_0_1_n_n_wf : DotDims.WF S10000x384 S384x4 S10000x4 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x384_S384x4_S10000x4_1_0_0_1_n_n : DotDims S10000x384 S384x4 S10000x4 where
  lhsContracting := [1]
  rhsContracting := [0]
  lhsNonContracting := [0]
  rhsNonContracting := [1]
  lhsBatch := []
  rhsBatch := []
  wf := dot_S10000x384_S384x4_S10000x4_1_0_0_1_n_n_wf

class Facts : Prop extends Facts₀ where

variable [Facts]
-- ==== Proof.Spec.lean ====
/-
  The mathematics of the certificate, free of any program: a three-layer graph convolution over a dense
  adjacency matrix followed by a linear head and a row-wise log-softmax, on the extended reals.

    x1 = max (adj · (x · W1) + b1) 0          x2 = max (adj · (x1 · W2) + b2) 0
    x3 = adj · (x2 · W3) + b3
    logits = [x1 | x2 | x3] · linW + linb      out = logits − M − log Σ exp (logits − M)

  Two spellings of the logits are stated. The "joined" one multiplies the 384-wide concatenation by `linW`
  in one sum. The "folded" one splits `linW` into three row blocks LW1, LW2, LW3 and pushes LW3 through the
  third layer: (adj · u + b3) · LW3 = adj · (u · LW3) + b3 · LW3. The two agree when every entry is finite
  (distributivity fails at the infinities). The shift `M` of the log-softmax is free: any finite shift gives
  the same value, which is why a masked row maximum that also sees a large negative fill is as good as the
  true row maximum.
-/
import Idealize.ShloMosaic.PureOps.Ideal
import Idealize.ShloMosaic.Lib.ValueIdx

noncomputable section

namespace Cert.Gcn

open Idealize.ShloMosaic

/-- A matrix product on the extended reals. -/
def mm {a k b : ℕ} (A : Fin a → Fin k → EReal) (B : Fin k → Fin b → EReal) (i : Fin a) (j : Fin b) : EReal :=
  ∑ q : Fin k, A i q * B q j

/-- One graph-convolution layer with its rectifier: `max (adj · S + b) 0`. -/
def conv {n h : ℕ} (adj : Fin n → Fin n → EReal) (S : Fin n → Fin h → EReal) (b : Fin h → EReal)
    (i : Fin n) (j : Fin h) : EReal :=
  max (mm adj S i j + b j) 0

/-- The first hidden layer. -/
def x1 (x : Fin 10000 → Fin 128 → EReal) (adj : Fin 10000 → Fin 10000 → EReal) (W1 : Fin 128 → Fin 128 → EReal)
    (b1 : Fin 128 → EReal) : Fin 10000 → Fin 128 → EReal :=
  conv adj (mm x W1) b1

/-- The second hidden layer. -/
def x2 (x : Fin 10000 → Fin 128 → EReal) (adj : Fin 10000 → Fin 10000 → EReal) (W1 : Fin 128 → Fin 128 → EReal)
    (b1 : Fin 128 → EReal) (W2 : Fin 128 → Fin 128 → EReal) (b2 : Fin 128 → EReal) : Fin 10000 → Fin 128 → EReal :=
  conv adj (mm (x1 x adj W1 b1) W2) b2

/-- Row block `r` (of three) of the head's 384 × 4 weight matrix. -/
def lwBlock (linW : Fin 384 → Fin 4 → EReal) (r : Fin 3) (q : Fin 128) (c : Fin 4) : EReal :=
  linW ⟨128 * r.val + q.val, by omega⟩ c

/-- The joined logits: the third layer `x3 = adj · (x2 · W3) + b3` without a rectifier, the three layers side by
    side as one 384-wide row, times `linW`, plus `linb`. -/
def logitsJoined (X1 X2 : Fin 10000 → Fin 128 → EReal) (adj : Fin 10000 → Fin 10000 → EReal)
    (W3 : Fin 128 → Fin 128 → EReal) (b3 : Fin 128 → EReal) (linW : Fin 384 → Fin 4 → EReal) (linb : Fin 4 → EReal)
    (i : Fin 10000) (c : Fin 4) : EReal :=
  (∑ q : Fin 384,
      (if h1 : q.val < 128 then X1 i ⟨q.val, h1⟩
       else if h2 : q.val < 256 then X2 i ⟨q.val - 128, by omega⟩
       else mm adj (mm X2 W3) i ⟨q.val - 256, by omega⟩ + b3 ⟨q.val - 256, by omega⟩) * linW q c)
    + linb c

/-- The folded logits: `adj · ((x2 · W3) · LW3) + (x1 · LW1 + x2 · LW2) + b3 · LW3 + linb`, associated as written. -/
def logitsFolded (X1 X2 : Fin 10000 → Fin 128 → EReal) (adj : Fin 10000 → Fin 10000 → EReal)
    (W3 : Fin 128 → Fin 128 → EReal) (b3 : Fin 128 → EReal) (linW : Fin 384 → Fin 4 → EReal) (linb : Fin 4 → EReal)
    (i : Fin 10000) (c : Fin 4) : EReal :=
  ((mm adj (mm (mm X2 W3) (lwBlock linW 2)) i c + (mm X1 (lwBlock linW 0) i c + mm X2 (lwBlock linW 1) i c))
      + ∑ k : Fin 128, b3 k * lwBlock linW 2 k c)
    + linb c

/-- A row's log-softmax computed with the shift `M`. -/
def lsm (l : Fin 4 → EReal) (M : EReal) (c : Fin 4) : EReal :=
  (l c - M) - Ideal.log (∑ c' : Fin 4, Ideal.exp (l c' - M))

/-- An extended real that is a real number. -/
def IsReal (v : EReal) : Prop := ∃ r : ℝ, v = (r : EReal)

/-- A rank-2 array of extended reals read by row and column. -/
def cur2 {a b : ℕ} (A : (⟨2, ![a, b]⟩ : Shape).Idx → EReal) (i : Fin a) (j : Fin b) : EReal := A (ValueIdx.ix2 i j)

/-- A rank-1 array of extended reals read by position. -/
def cur1 {a : ℕ} (A : (⟨1, ![a]⟩ : Shape).Idx → EReal) (i : Fin a) : EReal := A (ValueIdx.ix1 i)

end Cert.Gcn

end
-- ==== Proof.RefValue.lean ====
import proofs.«143550_g111669150054_cont_sun_m_211_32_alg».proof.Proof.RefRead
import proofs.«143550_g111669150054_cont_sun_m_211_32_alg».proof.Proof.Spec

/-!
  The reference program's result, read index by index on the extended reals, is the "joined" form of the
  specification: three graph-convolution layers, their concatenation times the head's weight plus its bias, and a
  row-wise log-softmax whose shift is the row maximum as the program computes it.
-/

noncomputable section

namespace Cert.Gcn.Ref

open Cert.ReferenceIdeal Idealize.ShloMosaic ValueIdx Cert.Gcn
open Cert.ReferenceIdeal.Gen Idealize.ShloMosaic.TcCoe Idealize.SL.Sem Idealize.ShloMosaic.StableHlo

/-- The argument arrays of a memory, read by row and column. -/
abbrev aX (m : (ℓ : Loc nD τ sig) → Buf (Elt Ideal) ℓ) (d : Dev nD) : Fin 10000 → Fin 128 → EReal :=
  cur2 (m ((d.tc : Thread nD τ).loc main_arg0))
abbrev aAdj (m : (ℓ : Loc nD τ sig) → Buf (Elt Ideal) ℓ) (d : Dev nD) : Fin 10000 → Fin 10000 → EReal :=
  cur2 (m ((d.tc : Thread nD τ).loc main_arg1))
abbrev aW1 (m : (ℓ : Loc nD τ sig) → Buf (Elt Ideal) ℓ) (d : Dev nD) : Fin 128 → Fin 128 → EReal :=
  cur2 (m ((d.tc : Thread nD τ).loc main_arg2))
abbrev aB1 (m : (ℓ : Loc nD τ sig) → Buf (Elt Ideal) ℓ) (d : Dev nD) : Fin 128 → EReal :=
  cur1 (m ((d.tc : Thread nD τ).loc main_arg3))
abbrev aW2 (m : (ℓ : Loc nD τ sig) → Buf (Elt Ideal) ℓ) (d : Dev nD) : Fin 128 → Fin 128 → EReal :=
  cur2 (m ((d.tc : Thread nD τ).loc main_arg4))
abbrev aB2 (m : (ℓ : Loc nD τ sig) → Buf (Elt Ideal) ℓ) (d : Dev nD) : Fin 128 → EReal :=
  cur1 (m ((d.tc : Thread nD τ).loc main_arg5))
abbrev aW3 (m : (ℓ : Loc nD τ sig) → Buf (Elt Ideal) ℓ) (d : Dev nD) : Fin 128 → Fin 128 → EReal :=
  cur2 (m ((d.tc : Thread nD τ).loc main_arg6))
abbrev aB3 (m : (ℓ : Loc nD τ sig) → Buf (Elt Ideal) ℓ) (d : Dev nD) : Fin 128 → EReal :=
  cur1 (m ((d.tc : Thread nD τ).loc main_arg7))
abbrev aLinW (m : (ℓ : Loc nD τ sig) → Buf (Elt Ideal) ℓ) (d : Dev nD) : Fin 384 → Fin 4 → EReal :=
  cur2 (m ((d.tc : Thread nD τ).loc main_arg8))
abbrev aLinB (m : (ℓ : Loc nD τ sig) → Buf (Elt Ideal) ℓ) (d : Dev nD) : Fin 4 → EReal :=
  cur1 (m ((d.tc : Thread nD τ).loc main_arg9))

/-- The shift the reference subtracts from a row of logits: the maximum of the bottom element with the fold of
    `max` over the row started from the bottom element. -/
def rowShift (l : Fin 4 → EReal) : EReal := max ⊥ ((Finset.univ : Finset (Fin 4)).fold max ⊥ l)

/-- A fold of `max` from the bottom element over a nonempty set of positions is the row's entry at one of them. -/
theorem fold_max_mem (l : Fin 4 → EReal) (s : Finset (Fin 4)) (hs : s.Nonempty) : ∃ c, s.fold max ⊥ l = l c := by
  induction hs using Finset.Nonempty.cons_induction with
  | singleton a => exact ⟨a, by rw [Finset.fold_singleton]; exact max_eq_left bot_le⟩
  | cons a s ha hs ih =>
    obtain ⟨c, hc⟩ := ih
    rw [Finset.fold_cons, hc]
    rcases max_choice (l a) (l c) with h | h
    · exact ⟨a, h⟩
    · exact ⟨c, h⟩

theorem rowShift_real (l : Fin 4 → EReal) (hl : ∀ c, IsReal (l c)) : IsReal (rowShift l) := by
  obtain ⟨c, hc⟩ := fold_max_mem l Finset.univ Finset.univ_nonempty
  unfold rowShift
  rw [hc, max_eq_right bot_le]
  exact hl c

/-! ## The stages of the reference program at a row-and-column index -/

/-- Contents of a rank-2 f32 array. -/
abbrev C2 (a b : ℕ) := (⟨⟨2, ![a, b]⟩, .f32⟩ : BufTy).Contents (Elt Ideal)
/-- Contents of a rank-1 f32 array. -/
abbrev C1 (a : ℕ) := (⟨⟨1, ![a]⟩, .f32⟩ : BufTy).Contents (Elt Ideal)

theorem v0_at (a0 : C2 10000 128) (a2 : C2 128 128) (i : Fin 10000) (j : Fin 128) :
    Read.val_main_v0 (F := Ideal) a0 a2 (ix2 i j) = mm (cur2 a0) (cur2 a2) i j := by
  rw [Read.val_main_v0_apply]
  unfold mm cur2
  refine Finset.sum_congr rfl fun k _ => ?_
  rw [show Read.lidx_main_v0 (ix2 i j) k = ix2 i k from funext fun a => Fin.ext (by match a with | ⟨0, _⟩ => rfl | ⟨1, _⟩ => rfl),
      show Read.ridx_main_v0 (ix2 i j) k = ix2 k j from funext fun a => Fin.ext (by match a with | ⟨0, _⟩ => rfl | ⟨1, _⟩ => rfl)]

theorem ofBits_ninf_f32 : Ideal.ofBits .f32 0xFF800000#32 = (⊥ : EReal) := by simp [Ideal.ofBits, Ideal.ieee]

theorem v1_at (a0 : C2 10000 128) (a1 : C2 10000 10000) (a2 : C2 128 128) (i : Fin 10000) (j : Fin 128) :
    Read.val_main_v1 (F := Ideal) a0 a1 a2 (ix2 i j) = mm (cur2 a1) (mm (cur2 a0) (cur2 a2)) i j := by
  rw [Read.val_main_v1_apply]
  show _ = ∑ q : Fin 10000, cur2 a1 i q * mm (cur2 a0) (cur2 a2) q j
  refine Finset.sum_congr rfl fun k _ => ?_
  rw [show Read.lidx_main_v1 (ix2 i j) k = ix2 i k from funext fun a => Fin.ext (by match a with | ⟨0, _⟩ => rfl | ⟨1, _⟩ => rfl),
      show Read.ridx_main_v1 (ix2 i j) k = ix2 k j from funext fun a => Fin.ext (by match a with | ⟨0, _⟩ => rfl | ⟨1, _⟩ => rfl), v0_at]
  rfl

theorem v3_at (a3 : C1 128) (i : Fin 10000) (j : Fin 128) :
    Read.val_main_v3 (F := Ideal) a3 (ix2 i j) = cur1 a3 j := by
  rw [Read.val_main_v3_apply, Read.val_main_v2_apply]
  exact congrArg a3 (funext fun a => Fin.ext (by match a with | ⟨0, _⟩ => rfl))

theorem call0_v0_at (i : S10000x128.Idx) : Read.val_main_call0_v0 (F := Ideal) i = 0 := by
  rw [Read.val_main_call0_v0_apply, Read.val_main_call0_cst_apply, Ideal.ofBits_def, Ideal.ofBits_zero_f32]

theorem v5_at (a0 : C2 10000 128) (a1 : C2 10000 10000) (a2 : C2 128 128) (a3 : C1 128) (i : Fin 10000) (j : Fin 128) :
    Read.val_main_v5 (F := Ideal) a0 a1 a2 a3 (ix2 i j) = x1 (cur2 a0) (cur2 a1) (cur2 a2) (cur1 a3) i j := by
  rw [Read.val_main_v5_apply, Read.val_main_v4_apply, v1_at, v3_at, call0_v0_at]
  rfl

theorem v6_at (a0 : C2 10000 128) (a1 : C2 10000 10000) (a2 : C2 128 128) (a3 : C1 128) (a4 : C2 128 128) (i : Fin 10000) (j : Fin 128) :
    Read.val_main_v6 (F := Ideal) a0 a1 a2 a3 a4 (ix2 i j) = mm (x1 (cur2 a0) (cur2 a1) (cur2 a2) (cur1 a3)) (cur2 a4) i j := by
  rw [Read.val_main_v6_apply]
  show _ = ∑ q : Fin 128, (x1 (cur2 a0) (cur2 a1) (cur2 a2) (cur1 a3)) i q * cur2 a4 q j
  refine Finset.sum_congr rfl fun k _ => ?_
  rw [show Read.lidx_main_v6 (ix2 i j) k = ix2 i k from funext fun a => Fin.ext (by match a with | ⟨0, _⟩ => rfl | ⟨1, _⟩ => rfl),
      show Read.ridx_main_v6 (ix2 i j) k = ix2 k j from funext fun a => Fin.ext (by match a with | ⟨0, _⟩ => rfl | ⟨1, _⟩ => rfl), v5_at]
  rfl

theorem v7_at (a0 : C2 10000 128) (a1 : C2 10000 10000) (a2 : C2 128 128) (a3 : C1 128) (a4 : C2 128 128) (i : Fin 10000) (j : Fin 128) :
    Read.val_main_v7 (F := Ideal) a0 a1 a2 a3 a4 (ix2 i j) = mm (cur2 a1) (mm (x1 (cur2 a0) (cur2 a1) (cur2 a2) (cur1 a3)) (cur2 a4)) i j := by
  rw [Read.val_main_v7_apply]
  show _ = ∑ q : Fin 10000, cur2 a1 i q * mm (x1 (cur2 a0) (cur2 a1) (cur2 a2) (cur1 a3)) (cur2 a4) q j
  refine Finset.sum_congr rfl fun k _ => ?_
  rw [show Read.lidx_main_v7 (ix2 i j) k = ix2 i k from funext fun a => Fin.ext (by match a with | ⟨0, _⟩ => rfl | ⟨1, _⟩ => rfl),
      show Read.ridx_main_v7 (ix2 i j) k = ix2 k j from funext fun a => Fin.ext (by match a with | ⟨0, _⟩ => rfl | ⟨1, _⟩ => rfl), v6_at]
  rfl

theorem v9_at (a5 : C1 128) (i : Fin 10000) (j : Fin 128) :
    Read.val_main_v9 (F := Ideal) a5 (ix2 i j) = cur1 a5 j := by
  rw [Read.val_main_v9_apply, Read.val_main_v8_apply]
  exact congrArg a5 (funext fun a => Fin.ext (by match a with | ⟨0, _⟩ => rfl))

theorem call1_v0_at (i : S10000x128.Idx) : Read.val_main_call1_v0 (F := Ideal) i = 0 := by
  rw [Read.val_main_call1_v0_apply, Read.val_main_call1_cst_apply, Ideal.ofBits_def, Ideal.ofBits_zero_f32]

theorem v11_at (a0 : C2 10000 128) (a1 : C2 10000 10000) (a2 : C2 128 128) (a3 : C1 128) (a4 : C2 128 128) (a5 : C1 128) (i : Fin 10000) (j : Fin 128) :
    Read.val_main_v11 (F := Ideal) a0 a1 a2 a3 a4 a5 (ix2 i j) = (x2 (cur2 a0) (cur2 a1) (cur2 a2) (cur1 a3) (cur2 a4) (cur1 a5)) i j := by
  rw [Read.val_main_v11_apply, Read.val_main_v10_apply, v7_at, v9_at, call1_v0_at]
  rfl

theorem v12_at (a0 : C2 10000 128) (a1 : C2 10000 10000) (a2 : C2 128 128) (a3 : C1 128) (a4 : C2 128 128) (a5 : C1 128) (a6 : C2 128 128) (i : Fin 10000) (j : Fin 128) :
    Read.val_main_v12 (F := Ideal) a0 a1 a2 a3 a4 a5 a6 (ix2 i j) = mm (x2 (cur2 a0) (cur2 a1) (cur2 a2) (cur1 a3) (cur2 a4) (cur1 a5)) (cur2 a6) i j := by
  rw [Read.val_main_v12_apply]
  show _ = ∑ q : Fin 128, (x2 (cur2 a0) (cur2 a1) (cur2 a2) (cur1 a3) (cur2 a4) (cur1 a5)) i q * cur2 a6 q j
  refine Finset.sum_congr rfl fun k _ => ?_
  rw [show Read.lidx_main_v12 (ix2 i j) k = ix2 i k from funext fun a => Fin.ext (by match a with | ⟨0, _⟩ => rfl | ⟨1, _⟩ => rfl),
      show Read.ridx_main_v12 (ix2 i j) k = ix2 k j from funext fun a => Fin.ext (by match a with | ⟨0, _⟩ => rfl | ⟨1, _⟩ => rfl), v11_at]
  rfl

theorem v13_at (a0 : C2 10000 128) (a1 : C2 10000 10000) (a2 : C2 128 128) (a3 : C1 128) (a4 : C2 128 128) (a5 : C1 128) (a6 : C2 128 128) (i : Fin 10000) (j : Fin 128) :
    Read.val_main_v13 (F := Ideal) a0 a1 a2 a3 a4 a5 a6 (ix2 i j) = mm (cur2 a1) (mm (x2 (cur2 a0) (cur2 a1) (cur2 a2) (cur1 a3) (cur2 a4) (cur1 a5)) (cur2 a6)) i j := by
  rw [Read.val_main_v13_apply]
  show _ = ∑ q : Fin 10000, cur2 a1 i q * mm (x2 (cur2 a0) (cur2 a1) (cur2 a2) (cur1 a3) (cur2 a4) (cur1 a5)) (cur2 a6) q j
  refine Finset.sum_congr rfl fun k _ => ?_
  rw [show Read.lidx_main_v13 (ix2 i j) k = ix2 i k from funext fun a => Fin.ext (by match a with | ⟨0, _⟩ => rfl | ⟨1, _⟩ => rfl),
      show Read.ridx_main_v13 (ix2 i j) k = ix2 k j from funext fun a => Fin.ext (by match a with | ⟨0, _⟩ => rfl | ⟨1, _⟩ => rfl), v12_at]
  rfl

theorem v15_at (a7 : C1 128) (i : Fin 10000) (j : Fin 128) :
    Read.val_main_v15 (F := Ideal) a7 (ix2 i j) = cur1 a7 j := by
  rw [Read.val_main_v15_apply, Read.val_main_v14_apply]
  exact congrArg a7 (funext fun a => Fin.ext (by match a with | ⟨0, _⟩ => rfl))

theorem v16_at (a0 : C2 10000 128) (a1 : C2 10000 10000) (a2 : C2 128 128) (a3 : C1 128) (a4 : C2 128 128) (a5 : C1 128) (a6 : C2 128 128) (a7 : C1 128) (i : Fin 10000) (j : Fin 128) :
    Read.val_main_v16 (F := Ideal) a0 a1 a2 a3 a4 a5 a6 a7 (ix2 i j)
      = mm (cur2 a1) (mm (x2 (cur2 a0) (cur2 a1) (cur2 a2) (cur1 a3) (cur2 a4) (cur1 a5)) (cur2 a6)) i j + cur1 a7 j := by
  rw [Read.val_main_v16_apply, v13_at, v15_at]
  rfl

/-- The concatenation at row `i`, joined column `q`: the layer whose span of 128 columns holds `q`. -/
theorem v17_at (a0 : C2 10000 128) (a1 : C2 10000 10000) (a2 : C2 128 128) (a3 : C1 128) (a4 : C2 128 128) (a5 : C1 128) (a6 : C2 128 128) (a7 : C1 128) (i : Fin 10000) (q : Fin 384) :
    Read.val_main_v17 (F := Ideal) a0 a1 a2 a3 a4 a5 a6 a7 (ix2 i q)
      = if h1 : q.val < 128 then (x1 (cur2 a0) (cur2 a1) (cur2 a2) (cur1 a3)) i ⟨q.val, h1⟩
        else if h2 : q.val < 256 then (x2 (cur2 a0) (cur2 a1) (cur2 a2) (cur1 a3) (cur2 a4) (cur1 a5)) i ⟨q.val - 128, by omega⟩
        else mm (cur2 a1) (mm (x2 (cur2 a0) (cur2 a1) (cur2 a2) (cur1 a3) (cur2 a4) (cur1 a5)) (cur2 a6)) i ⟨q.val - 256, by omega⟩ + cur1 a7 ⟨q.val - 256, by omega⟩ := by
  unfold Read.val_main_v17
  by_cases h1 : q.val < 128
  · rw [dif_pos h1, ← v5_at]
    refine concatenate_apply_piece 1 _ _ (ix2 i q) 0 (by show 0 < 3; omega) S10000x128 _ rfl rfl 0 rfl (ix2 i ⟨q.val, h1⟩) ?_ ?_
    · intro b hb; match b with | ⟨0, _⟩ => rfl | ⟨1, _⟩ => exact absurd rfl hb
    · show 0 + q.val = q.val; omega
  · by_cases h2 : q.val < 256
    · rw [dif_neg h1, dif_pos h2, ← v11_at]
      refine concatenate_apply_piece 1 _ _ (ix2 i q) 1 (by show 1 < 3; omega) S10000x128 _ rfl rfl 128 rfl (ix2 i ⟨q.val - 128, by omega⟩) ?_ ?_
      · intro b hb; match b with | ⟨0, _⟩ => rfl | ⟨1, _⟩ => exact absurd rfl hb
      · show 128 + (q.val - 128) = q.val; omega
    · rw [dif_neg h1, dif_neg h2, ← v16_at]
      refine concatenate_apply_piece 1 _ _ (ix2 i q) 2 (by show 2 < 3; omega) S10000x128 _ rfl rfl 256 rfl (ix2 i ⟨q.val - 256, by omega⟩) ?_ ?_
      · intro b hb; match b with | ⟨0, _⟩ => rfl | ⟨1, _⟩ => exact absurd rfl hb
      · show 256 + (q.val - 256) = q.val; omega

theorem v18_at (a0 : C2 10000 128) (a1 : C2 10000 10000) (a2 : C2 128 128) (a3 : C1 128) (a4 : C2 128 128) (a5 : C1 128) (a6 : C2 128 128) (a7 : C1 128) (a8 : C2 384 4) (i : Fin 10000) (c : Fin 4) :
    Read.val_main_v18 (F := Ideal) a0 a1 a2 a3 a4 a5 a6 a7 a8 (ix2 i c)
      = ∑ q : Fin 384,
          (if h1 : q.val < 128 then (x1 (cur2 a0) (cur2 a1) (cur2 a2) (cur1 a3)) i ⟨q.val, h1⟩
           else if h2 : q.val < 256 then (x2 (cur2 a0) (cur2 a1) (cur2 a2) (cur1 a3) (cur2 a4) (cur1 a5)) i ⟨q.val - 128, by omega⟩
           else mm (cur2 a1) (mm (x2 (cur2 a0) (cur2 a1) (cur2 a2) (cur1 a3) (cur2 a4) (cur1 a5)) (cur2 a6)) i ⟨q.val - 256, by omega⟩ + cur1 a7 ⟨q.val - 256, by omega⟩)
            * cur2 a8 q c := by
  rw [Read.val_main_v18_apply]
  refine Finset.sum_congr rfl fun k _ => ?_
  rw [show Read.lidx_main_v18 (ix2 i c) k = ix2 i k from funext fun a => Fin.ext (by match a with | ⟨0, _⟩ => rfl | ⟨1, _⟩ => rfl),
      show Read.ridx_main_v18 (ix2 i c) k = ix2 k c from funext fun a => Fin.ext (by match a with | ⟨0, _⟩ => rfl | ⟨1, _⟩ => rfl), v17_at]
  rfl

theorem v20_at (a9 : C1 4) (i : Fin 10000) (c : Fin 4) :
    Read.val_main_v20 (F := Ideal) a9 (ix2 i c) = cur1 a9 c := by
  rw [Read.val_main_v20_apply, Read.val_main_v19_apply]
  exact congrArg a9 (funext fun a => Fin.ext (by match a with | ⟨0, _⟩ => rfl))

/-- The logits: the head's sum over the 384 joined columns plus its bias. -/
theorem v21_at (a0 : C2 10000 128) (a1 : C2 10000 10000) (a2 : C2 128 128) (a3 : C1 128) (a4 : C2 128 128) (a5 : C1 128) (a6 : C2 128 128) (a7 : C1 128) (a8 : C2 384 4) (a9 : C1 4) (i : Fin 10000) (c : Fin 4) :
    Read.val_main_v21 (F := Ideal) a0 a1 a2 a3 a4 a5 a6 a7 a8 a9 (ix2 i c) = (logitsJoined (x1 (cur2 a0) (cur2 a1) (cur2 a2) (cur1 a3)) (x2 (cur2 a0) (cur2 a1) (cur2 a2) (cur1 a3) (cur2 a4) (cur1 a5)) (cur2 a1) (cur2 a6) (cur1 a7) (cur2 a8) (cur1 a9) i) c := by
  rw [Read.val_main_v21_apply, v18_at, v20_at]
  rfl

/-! ## The log-softmax -/

theorem call2_v0_at (a0 : C2 10000 128) (a1 : C2 10000 10000) (a2 : C2 128 128) (a3 : C1 128) (a4 : C2 128 128) (a5 : C1 128) (a6 : C2 128 128) (a7 : C1 128) (a8 : C2 384 4) (a9 : C1 4) (i : Fin 10000) :
    Read.val_main_call2_v0 (F := Ideal) a0 a1 a2 a3 a4 a5 a6 a7 a8 a9 (ix1 i) = (Finset.univ : Finset (Fin 4)).fold max ⊥ (logitsJoined (x1 (cur2 a0) (cur2 a1) (cur2 a2) (cur1 a3)) (x2 (cur2 a0) (cur2 a1) (cur2 a2) (cur1 a3) (cur2 a4) (cur1 a5)) (cur2 a1) (cur2 a6) (cur1 a7) (cur2 a8) (cur1 a9) i) := by
  unfold Read.val_main_call2_v0
  rw [Host.reduce_eq_fold_single FloatOps.maximumf _ _ reducesTo_S10000x4_S10000_d1 (by decide) h_S_,
    Read.val_main_call2_cst_apply, Ideal.ofBits_def, ofBits_ninf_f32]
  show (Finset.univ : Finset (Fin 4)).fold max ⊥ _ = _
  refine Finset.fold_congr fun k _ => ?_
  refine Eq.trans ?_ (v21_at a0 a1 a2 a3 a4 a5 a6 a7 a8 a9 i k)
  exact congrArg (Read.val_main_v21 (F := Ideal) a0 a1 a2 a3 a4 a5 a6 a7 a8 a9) (funext fun a => Fin.ext (by match a with | ⟨0, _⟩ => rfl | ⟨1, _⟩ => rfl))

theorem call2_v1_at (i : S10000.Idx) : Read.val_main_call2_v1 (F := Ideal) i = ⊥ := by
  rw [Read.val_main_call2_v1_apply, Read.val_main_call2_cst_0_apply, Ideal.ofBits_def, ofBits_ninf_f32]

theorem call2_v2_at (a0 : C2 10000 128) (a1 : C2 10000 10000) (a2 : C2 128 128) (a3 : C1 128) (a4 : C2 128 128) (a5 : C1 128) (a6 : C2 128 128) (a7 : C1 128) (a8 : C2 384 4) (a9 : C1 4) (i : Fin 10000) :
    Read.val_main_call2_v2 (F := Ideal) a0 a1 a2 a3 a4 a5 a6 a7 a8 a9 (ix1 i) = (rowShift (logitsJoined (x1 (cur2 a0) (cur2 a1) (cur2 a2) (cur1 a3)) (x2 (cur2 a0) (cur2 a1) (cur2 a2) (cur1 a3) (cur2 a4) (cur1 a5)) (cur2 a1) (cur2 a6) (cur1 a7) (cur2 a8) (cur1 a9) i)) := by
  rw [Read.val_main_call2_v2_apply, call2_v1_at, call2_v0_at]
  rfl

theorem call2_v4_at (a0 : C2 10000 128) (a1 : C2 10000 10000) (a2 : C2 128 128) (a3 : C1 128) (a4 : C2 128 128) (a5 : C1 128) (a6 : C2 128 128) (a7 : C1 128) (a8 : C2 384 4) (a9 : C1 4) (i : Fin 10000) (c : Fin 4) :
    Read.val_main_call2_v4 (F := Ideal) a0 a1 a2 a3 a4 a5 a6 a7 a8 a9 (ix2 i c) = (rowShift (logitsJoined (x1 (cur2 a0) (cur2 a1) (cur2 a2) (cur1 a3)) (x2 (cur2 a0) (cur2 a1) (cur2 a2) (cur1 a3) (cur2 a4) (cur1 a5)) (cur2 a1) (cur2 a6) (cur1 a7) (cur2 a8) (cur1 a9) i)) := by
  rw [Read.val_main_call2_v4_apply, Read.val_main_call2_v3_apply,
    show Read.idx_main_call2_v3 (Read.idx_main_call2_v4 (ix2 i c)) = ix1 i from funext fun a => Fin.ext (by match a with | ⟨0, _⟩ => rfl), call2_v2_at]

theorem call2_v5_at (a0 : C2 10000 128) (a1 : C2 10000 10000) (a2 : C2 128 128) (a3 : C1 128) (a4 : C2 128 128) (a5 : C1 128) (a6 : C2 128 128) (a7 : C1 128) (a8 : C2 384 4) (a9 : C1 4) (i : Fin 10000) (c : Fin 4) :
    Read.val_main_call2_v5 (F := Ideal) a0 a1 a2 a3 a4 a5 a6 a7 a8 a9 (ix2 i c) = (logitsJoined (x1 (cur2 a0) (cur2 a1) (cur2 a2) (cur1 a3)) (x2 (cur2 a0) (cur2 a1) (cur2 a2) (cur1 a3) (cur2 a4) (cur1 a5)) (cur2 a1) (cur2 a6) (cur1 a7) (cur2 a8) (cur1 a9) i) c - (rowShift (logitsJoined (x1 (cur2 a0) (cur2 a1) (cur2 a2) (cur1 a3)) (x2 (cur2 a0) (cur2 a1) (cur2 a2) (cur1 a3) (cur2 a4) (cur1 a5)) (cur2 a1) (cur2 a6) (cur1 a7) (cur2 a8) (cur1 a9) i)) := by
  rw [Read.val_main_call2_v5_apply, v21_at, call2_v4_at]
  rfl

theorem call2_v6_at (a0 : C2 10000 128) (a1 : C2 10000 10000) (a2 : C2 128 128) (a3 : C1 128) (a4 : C2 128 128) (a5 : C1 128) (a6 : C2 128 128) (a7 : C1 128) (a8 : C2 384 4) (a9 : C1 4) (i : Fin 10000) (c : Fin 4) :
    Read.val_main_call2_v6 (F := Ideal) a0 a1 a2 a3 a4 a5 a6 a7 a8 a9 (ix2 i c) = Ideal.exp ((logitsJoined (x1 (cur2 a0) (cur2 a1) (cur2 a2) (cur1 a3)) (x2 (cur2 a0) (cur2 a1) (cur2 a2) (cur1 a3) (cur2 a4) (cur1 a5)) (cur2 a1) (cur2 a6) (cur1 a7) (cur2 a8) (cur1 a9) i) c - (rowShift (logitsJoined (x1 (cur2 a0) (cur2 a1) (cur2 a2) (cur1 a3)) (x2 (cur2 a0) (cur2 a1) (cur2 a2) (cur1 a3) (cur2 a4) (cur1 a5)) (cur2 a1) (cur2 a6) (cur1 a7) (cur2 a8) (cur1 a9) i))) := by
  rw [Read.val_main_call2_v6_apply, call2_v5_at]
  rfl

theorem call2_v7_at (a0 : C2 10000 128) (a1 : C2 10000 10000) (a2 : C2 128 128) (a3 : C1 128) (a4 : C2 128 128) (a5 : C1 128) (a6 : C2 128 128) (a7 : C1 128) (a8 : C2 384 4) (a9 : C1 4) (i : Fin 10000) :
    Read.val_main_call2_v7 (F := Ideal) a0 a1 a2 a3 a4 a5 a6 a7 a8 a9 (ix1 i) = ∑ c' : Fin 4, Ideal.exp ((logitsJoined (x1 (cur2 a0) (cur2 a1) (cur2 a2) (cur1 a3)) (x2 (cur2 a0) (cur2 a1) (cur2 a2) (cur1 a3) (cur2 a4) (cur1 a5)) (cur2 a1) (cur2 a6) (cur1 a7) (cur2 a8) (cur1 a9) i) c' - (rowShift (logitsJoined (x1 (cur2 a0) (cur2 a1) (cur2 a2) (cur1 a3)) (x2 (cur2 a0) (cur2 a1) (cur2 a2) (cur1 a3) (cur2 a4) (cur1 a5)) (cur2 a1) (cur2 a6) (cur1 a7) (cur2 a8) (cur1 a9) i))) := by
  rw [Read.val_main_call2_v7_apply, Read.val_main_call2_cst_1_apply, Ideal.ofBits_def, Ideal.ofBits_zero_f32, zero_add]
  refine Finset.sum_congr rfl fun k _ => ?_
  rw [show Read.idx_main_call2_v7 (ix1 i) k = ix2 i k from funext fun a => Fin.ext (by match a with | ⟨0, _⟩ => rfl | ⟨1, _⟩ => rfl), call2_v6_at]

theorem call2_v10_at (a0 : C2 10000 128) (a1 : C2 10000 10000) (a2 : C2 128 128) (a3 : C1 128) (a4 : C2 128 128) (a5 : C1 128) (a6 : C2 128 128) (a7 : C1 128) (a8 : C2 384 4) (a9 : C1 4) (i : Fin 10000) (c : Fin 4) :
    Read.val_main_call2_v10 (F := Ideal) a0 a1 a2 a3 a4 a5 a6 a7 a8 a9 (ix2 i c) = Ideal.log (∑ c' : Fin 4, Ideal.exp ((logitsJoined (x1 (cur2 a0) (cur2 a1) (cur2 a2) (cur1 a3)) (x2 (cur2 a0) (cur2 a1) (cur2 a2) (cur1 a3) (cur2 a4) (cur1 a5)) (cur2 a1) (cur2 a6) (cur1 a7) (cur2 a8) (cur1 a9) i) c' - (rowShift (logitsJoined (x1 (cur2 a0) (cur2 a1) (cur2 a2) (cur1 a3)) (x2 (cur2 a0) (cur2 a1) (cur2 a2) (cur1 a3) (cur2 a4) (cur1 a5)) (cur2 a1) (cur2 a6) (cur1 a7) (cur2 a8) (cur1 a9) i)))) := by
  rw [Read.val_main_call2_v10_apply, Read.val_main_call2_v9_apply, Read.val_main_call2_v8_apply,
    show Read.idx_main_call2_v8 (Read.idx_main_call2_v10 (ix2 i c)) = ix1 i from funext fun a => Fin.ext (by match a with | ⟨0, _⟩ => rfl), call2_v7_at]
  rfl

theorem v22_at (a0 : C2 10000 128) (a1 : C2 10000 10000) (a2 : C2 128 128) (a3 : C1 128) (a4 : C2 128 128) (a5 : C1 128) (a6 : C2 128 128) (a7 : C1 128) (a8 : C2 384 4) (a9 : C1 4) (i : Fin 10000) (c : Fin 4) :
    Read.val_main_v22 (F := Ideal) a0 a1 a2 a3 a4 a5 a6 a7 a8 a9 (ix2 i c) = lsm (logitsJoined (x1 (cur2 a0) (cur2 a1) (cur2 a2) (cur1 a3)) (x2 (cur2 a0) (cur2 a1) (cur2 a2) (cur1 a3) (cur2 a4) (cur1 a5)) (cur2 a1) (cur2 a6) (cur1 a7) (cur2 a8) (cur1 a9) i) (rowShift (logitsJoined (x1 (cur2 a0) (cur2 a1) (cur2 a2) (cur1 a3)) (x2 (cur2 a0) (cur2 a1) (cur2 a2) (cur1 a3) (cur2 a4) (cur1 a5)) (cur2 a1) (cur2 a6) (cur1 a7) (cur2 a8) (cur1 a9) i)) c := by
  rw [Read.val_main_v22_apply, call2_v5_at, call2_v10_at]
  rfl

/-! ## The result -/

/-- The reference's result at row `i`, class `c`. -/
theorem result_eq (m : (ℓ : Loc nD τ sig) → Buf (Elt Ideal) ℓ) (d : Dev nD) (i : Fin 10000) (c : Fin 4) :
    Cert.ReferenceIdeal.Value.res_main_v22 (F := Ideal) m d (ix2 i c)
      = lsm (logitsJoined (x1 (aX m d) (aAdj m d) (aW1 m d) (aB1 m d))
              (x2 (aX m d) (aAdj m d) (aW1 m d) (aB1 m d) (aW2 m d) (aB2 m d)) (aAdj m d) (aW3 m d) (aB3 m d)
              (aLinW m d) (aLinB m d) i)
            (rowShift (logitsJoined (x1 (aX m d) (aAdj m d) (aW1 m d) (aB1 m d))
              (x2 (aX m d) (aAdj m d) (aW1 m d) (aB1 m d) (aW2 m d) (aB2 m d)) (aAdj m d) (aW3 m d) (aB3 m d)
              (aLinW m d) (aLinB m d) i)) c :=
  (congrFun (Read.val_main_v22_eq m d) (ix2 i c)).trans (v22_at _ _ _ _ _ _ _ _ _ _ i c)

end Cert.Gcn.Ref

end
-- ==== Proof.K.Body0.lean ====
/-
  The first kernel's body, run once per control case on whole staging memrefs.

  The body keeps `s1 = x · W1` in a scratch array: it is computed at the grid's first point only and read at every
  point. At each point it stores three blocks: the adjacency block narrowed (its copy), `max (adjblock · s1 + b1) 0`
  (a block of the first hidden layer), and that block times W2. Each store covers its whole staging buffer, so what
  a buffer holds afterwards is the one stored value.
-/
import proofs.«143550_g111669150054_cont_sun_m_211_32_alg».proof.Proof.Gen.Kernel.Launch
import proofs.«143550_g111669150054_cont_sun_m_211_32_alg».proof.Proof.Gen.Kernel.Skeleton
import proofs.«143550_g111669150054_cont_sun_m_211_32_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rX : Rect S10000x128 := Rect.unit (s := S10000x128) ![0, 0] S10000x128.size inb_S10000x128_S10000x128_0_0
abbrev rA : Rect S400x10000 := Rect.unit (s := S400x10000) ![0, 0] S400x10000.size inb_S400x10000_S400x10000_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rO : Rect S400x128 := Rect.unit (s := S400x128) ![0, 0] S400x128.size inb_S400x128_S400x128_0_0

/-! ## What the body leaves in each buffer, from what it loads -/

/-- The scratch after the first point: `x · W1`. -/
def outS (x : Vec F S10000x128 .f32) (w1 : Vec F S128x128 .f32) : Vec F S10000x128 .f32 :=
  View.canon [⟨rX, k0_pay1 (View.ld x rX) (View.ld w1 rW)⟩]

/-- The adjacency block's narrowed copy. -/
def outA (a : Vec F S400x10000 .f32) : Vec F S400x10000 .bf16 :=
  View.canon [⟨rA, k0_pay2 (View.ld a rA)⟩]

/-- The block of the first hidden layer, from the adjacency block, the scratch and the bias row. -/
def outH (a : Vec F S400x10000 .f32) (s : Vec F S10000x128 .f32) (b : Vec F S1x128 .f32) : Vec F S400x128 .bf16 :=
  View.canon [⟨rO, k0_pay4 (View.ld a rA) (View.ld s rX) (View.ld b rB)⟩]

/-- That block times W2. -/
def outP (a : Vec F S400x10000 .f32) (s : Vec F S10000x128 .f32) (b : Vec F S1x128 .f32) (w2 : Vec F S128x128 .f32) : Vec F S400x128 .bf16 :=
  View.canon [⟨rO, k0_pay5 (View.ld a rA) (View.ld s rX) (View.ld b rB) (View.ld w2 rW)⟩]

theorem coverS (p : Vec F S10000x128 .f32) (y : S10000x128.Idx) :
    ∃ pc ∈ ([⟨rX, p⟩] : List (View.Piece (Elt F) S10000x128 .f32)), y ∈ pc.1.set :=
  View.cover_of_tiled [⟨rX, p⟩] S10000x128.size (by rfl) y
theorem coverA (p : Vec F S400x10000 .bf16) (y : S400x10000.Idx) :
    ∃ pc ∈ ([⟨rA, p⟩] : List (View.Piece (Elt F) S400x10000 .bf16)), y ∈ pc.1.set :=
  View.cover_of_tiled [⟨rA, p⟩] S400x10000.size (by rfl) y
theorem coverO (p : Vec F S400x128 .bf16) (y : S400x128.Idx) :
    ∃ pc ∈ ([⟨rO, p⟩] : List (View.Piece (Elt F) S400x128 .bf16)), y ∈ pc.1.set :=
  View.cover_of_tiled [⟨rO, p⟩] S400x128.size (by rfl) y

/-- The condition of the body's one `scf.if`: the grid's first point. -/
abbrev cond0 (i : grid0.Coords) : Prop :=
  (Scalar.cmpi .ne (Scalar.extui (Scalar.cmpi .eq (BitVec.ofNat 32 (i 0).val) 0#32)) 0#32) = 1#1

set_option maxHeartbeats 4000000 in
/-- After the first point: the scratch holds `s` and is only read. -/
theorem sound_kernel0_B (c : Dev nD) (E : Set ℕ) (i : grid0.Coords) (hc : ¬cond0 i)
    (arg1 : Memref sig .tc .vmem S10000x128 .f32) (harg1 : arg1.IsWhole) (arg2 : Memref sig .tc .vmem S400x10000 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S400x128 .bf16) (harg6 : arg6.IsWhole)
    (arg7 : Memref sig .tc .vmem S400x128 .bf16) (harg7 : arg7.IsWhole) (arg8 : Memref sig .tc .vmem S400x10000 .bf16) (harg8 : arg8.IsWhole)
    (arg9 : Memref sig .tc .vmem S10000x128 .f32) (harg9 : arg9.IsWhole)
    (x : Vec F S10000x128 .f32) (a : Vec F S400x10000 .f32) (w1 : Vec F S128x128 .f32) (b : Vec F S1x128 .f32) (w2 : Vec F S128x128 .f32)
    (s : Vec F S10000x128 .f32) (K : PUnit → sProp 𝕄) :
    iprop(owns (c : Thread nD τ) arg1 fullShare x ∗ owns (c : Thread nD τ) arg2 fullShare a ∗ owns (c : Thread nD τ) arg3 fullShare w1
        ∗ owns (c : Thread nD τ) arg4 fullShare b ∗ owns (c : Thread nD τ) arg5 fullShare w2
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s
        ∗ (iprop(owns (c : Thread nD τ) arg1 fullShare x ∗ owns (c : Thread nD τ) arg2 fullShare a ∗ owns (c : Thread nD τ) arg3 fullShare w1
            ∗ owns (c : Thread nD τ) arg4 fullShare b ∗ owns (c : Thread nD τ) arg5 fullShare w2
            ∗ owns (c : Thread nD τ) arg6 fullShare (outH a s b) ∗ owns (c : Thread nD τ) arg7 fullShare (outP a s b w2)
            ∗ owns (c : Thread nD τ) arg8 fullShare (outA a) ∗ owns (c : Thread nD τ) arg9 fullShare s) -∗ K ⟨⟩))
      ⊢ wp frame (wpE (defs₀ (F := F)) Variants.none c none) E
          (cc0__p1_body i arg1 harg1 arg2 harg2 arg3 harg3 arg4 harg4 arg5 harg5 arg6 harg6 arg7 harg7 arg8 harg8 arg9 harg9) K := by
  simp only [cc0__p1_body_eq_skeleton]; unfold cc0__p1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  subst hf1; subst hf2; subst hf3; subst hf4; subst hf5; subst hf9
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO _)
  isplitl [H7]
  · iexists _; isplitr
    swap; · iexact H7
    ipureintro
    exact View.read_writes_eq_canon _ _ _ (coverO _)
  isplitl [H8]
  · iexists _; isplitr
    swap; · iexact H8
    ipureintro
    exact View.read_writes_eq_canon _ _ _ (coverA _)
  iexists f9; isplitr; · ipureintro; rfl
  iexact H9

set_option maxHeartbeats 4000000 in
/-- At the first point: the scratch, at anything, is stored whole with `x · W1` and then read. -/
theorem sound_kernel0_A (c : Dev nD) (E : Set ℕ) (i : grid0.Coords) (hc : cond0 i)
    (arg1 : Memref sig .tc .vmem S10000x128 .f32) (harg1 : arg1.IsWhole) (arg2 : Memref sig .tc .vmem S400x10000 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S400x128 .bf16) (harg6 : arg6.IsWhole)
    (arg7 : Memref sig .tc .vmem S400x128 .bf16) (harg7 : arg7.IsWhole) (arg8 : Memref sig .tc .vmem S400x10000 .bf16) (harg8 : arg8.IsWhole)
    (arg9 : Memref sig .tc .vmem S10000x128 .f32) (harg9 : arg9.IsWhole)
    (x : Vec F S10000x128 .f32) (a : Vec F S400x10000 .f32) (w1 : Vec F S128x128 .f32) (b : Vec F S1x128 .f32) (w2 : Vec F S128x128 .f32)
    (K : PUnit → sProp 𝕄) :
    iprop(owns (c : Thread nD τ) arg1 fullShare x ∗ owns (c : Thread nD τ) arg2 fullShare a ∗ owns (c : Thread nD τ) arg3 fullShare w1
        ∗ owns (c : Thread nD τ) arg4 fullShare b ∗ owns (c : Thread nD τ) arg5 fullShare w2
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg1 fullShare x ∗ owns (c : Thread nD τ) arg2 fullShare a ∗ owns (c : Thread nD τ) arg3 fullShare w1
            ∗ owns (c : Thread nD τ) arg4 fullShare b ∗ owns (c : Thread nD τ) arg5 fullShare w2
            ∗ owns (c : Thread nD τ) arg6 fullShare (outH a (outS x w1) b) ∗ owns (c : Thread nD τ) arg7 fullShare (outP a (outS x w1) b w2)
            ∗ owns (c : Thread nD τ) arg8 fullShare (outA a) ∗ owns (c : Thread nD τ) arg9 fullShare (outS x w1)) -∗ K ⟨⟩))
      ⊢ wp frame (wpE (defs₀ (F := F)) Variants.none c none) E
          (cc0__p1_body i arg1 harg1 arg2 harg2 arg3 harg3 arg4 harg4 arg5 harg5 arg6 harg6 arg7 harg7 arg8 harg8 arg9 harg9) K := by
  simp only [cc0__p1_body_eq_skeleton]; unfold cc0__p1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf1; subst hf2; subst hf3; subst hf4; subst hf5
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    refine (View.read_writes_eq_canon _ _ _ (coverO _)).trans ?_
    rw [View.readCov_eq_canon']
    rfl
  isplitl [H7]
  · iexists _; isplitr
    swap; · iexact H7
    ipureintro
    sl_unfold_run_names
    refine (View.read_writes_eq_canon _ _ _ (coverO _)).trans ?_
    rw [View.readCov_eq_canon']
    rfl
  isplitl [H8]
  · iexists _; isplitr
    swap; · iexact H8
    ipureintro
    exact View.read_writes_eq_canon _ _ _ (coverA _)
  iexists _; isplitr
  swap; · iexact H9
  ipureintro
  sl_unfold_run_names
  exact View.read_writes_eq_canon _ _ _ (coverS _)

end Cert.Kernel.Hand

end
-- ==== Proof.K.Frame0.lean ====
/-
  The first kernel as a pipeline: its proof data and its body obligation, at the contents `V` the region is
  entered with.

  The scratch holds `s1 = x · W1` from the first grid point on (windows 0 and 2 stage the whole arrays `x` and `W1`,
  so their blocks are the arrays at every point). What the body leaves in each output's staging buffer at point `t`
  is therefore a fixed function of the entry arrays: the narrowed adjacency block, the block of the first hidden
  layer, and that block times W2. The region invariant is the launch's before the first point and afterwards the
  scratch at `s1` beside every other scoped buffer at anything.
-/
import proofs.«143550_g111669150054_cont_sun_m_211_32_alg».proof.Proof.Gen.Kernel.Launch
import proofs.«143550_g111669150054_cont_sun_m_211_32_alg».proof.Proof.Gen.Kernel.Skeleton
import proofs.«143550_g111669150054_cont_sun_m_211_32_alg».proof.Proof.Gen.Kernel.Points
import proofs.«143550_g111669150054_cont_sun_m_211_32_alg».proof.Proof.K.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
abbrev t00 : Fin cfg0.N := ⟨0, by decide⟩

/-- The scratch operand: a whole scoped buffer of the kernel's own. -/
abbrev scM0 : Memref sig .tc .vmem S10000x128 .f32 := Memref.whole cc0_scratch0

/-- `s1 = x · W1`, as the first point computes it from the two whole-array blocks. -/
def S1 (c : Dev nD) : Vec F S10000x128 .f32 := outS (iblk0 V c 0 t00) (iblk0 V c 2 t00)

/-- The body's condition holds at the first point only. -/
theorem hcond0 : ∀ t : Fin cfg0.N, cond0 (grid0.coords t) ↔ t.val = 0 :=
  (by decide +kernel : ∀ t : Fin grid0.N, cond0 (grid0.coords t) ↔ t.val = 0)

/-- Every scoped buffer that is neither a staging buffer of this call nor its scratch, at anything. -/
abbrev restBut0 (c : Dev nD) : sProp 𝕄 :=
  Pipeline.scopedRestBut (Ix := Unit) (Name := ℕ) (U := UR sig nD τ) (Lvl := ℕ) (Val := Elt F) spec0 c [cc0_scratch0]

theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f)) ∗ restBut0 c) :=
  Pipeline.scopedRest_split_of_list spec0 c [cc0_scratch0] (by decide) (by decide)

/-- The launch's invariant with the scratch as a memref owned at some contents. -/
theorem PhiA0_eq (c : Dev nD) :
    (Pipeline.ΦA spec0 c : sProp 𝕄)
      = iprop(iprop(iprop((∃ d, owns (c : Thread nD τ) scM0 fullShare d)) ∗ restBut0 c) ∗ (∃ r, prngReg c r)) := by
  unfold Pipeline.ΦA; rw [scopedRest0_split]; simp only [scM0, owns_whole]; try rfl

/-- The region invariant before position `n`. -/
def Phi0 (c : Dev nD) : ℕ → sProp 𝕄
  | 0 => Pipeline.ΦA spec0 c
  | _ + 1 => iprop(iprop(owns (c : Thread nD τ) scM0 fullShare (S1 V c) ∗ restBut0 c) ∗ (∃ r, prngReg c r))

theorem Phi0_pos (c : Dev nD) (n : ℕ) (hn : n ≠ 0) :
    Phi0 V c n = iprop(iprop(owns (c : Thread nD τ) scM0 fullShare (S1 V c) ∗ restBut0 c) ∗ (∃ r, prngReg c r)) := by
  cases n with
  | zero => exact absurd rfl hn
  | succ n => rfl

/-- The proof data of the pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outH (iblk0 V c 1 t) (S1 V c) (iblk0 V c 3 t)
    | ⟨6, _⟩ => outP (iblk0 V c 1 t) (S1 V c) (iblk0 V c 3 t) (iblk0 V c 4 t)
    | ⟨7, _⟩ => outA (iblk0 V c 1 t)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outH (iblk0 V c 1 t) (S1 V c) (iblk0 V c 3 t) := by dsimp only [dat0]
theorem after0_6 (c : Dev nD) (t : Fin cfg0.N) : (dat0 V c).after 6 t = outP (iblk0 V c 1 t) (S1 V c) (iblk0 V c 3 t) (iblk0 V c 4 t) := by dsimp only [dat0]
theorem after0_7 (c : Dev nD) (t : Fin cfg0.N) : (dat0 V c).after 7 t = outA (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: at the first the scratch comes from the launch's invariant at anything and goes back at
    `s1`; afterwards it comes at `s1` and goes back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, after0_6, after0_7]
  rw [show (dat0 V c).Φ t.succ = Phi0 V c (t.val + 1) from rfl,
    show (dat0 V c).Φ t.castSucc = Phi0 V c t.val from rfl]
  rw [Phi0_pos V c (t.val + 1) (Nat.succ_ne_zero _)]
  by_cases hz : t.val = 0
  · have hc : cond0 (grid0.coords t) := (hcond0 t).mpr hz
    obtain rfl : t = t00 := Fin.ext hz
    rw [show Phi0 V c (t00 : Fin cfg0.N).val = Pipeline.ΦA spec0 c from rfl, PhiA0_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_A c Set.univ (grid0.coords t00) hc _ _ _ _ _ _ _ _ _ _ _ _ _ _ _ _ _ _
      (iblk0 V c 0 t00) (iblk0 V c 1 t00) (iblk0 V c 2 t00) (iblk0 V c 3 t00) (iblk0 V c 4 t00) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc : ¬cond0 (grid0.coords t) := fun h => hz ((hcond0 t).mp h)
    rw [Phi0_pos V c t.val hz]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_B c Set.univ (grid0.coords t) hc _ _ _ _ _ _ _ _ _ _ _ _ _ _ _ _ _ _
      (iblk0 V c 0 t) (iblk0 V c 1 t) (iblk0 V c 2 t) (iblk0 V c 3 t) (iblk0 V c 4 t) (S1 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := Idealize.SL.BI.Entails.refl _

/-- After the last point the invariant gives the launch's back: the scratch's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last]; have : cfg0.N = 25 := N_0; omega), PhiA0_eq]
  iintro ⟨⟨HS, Hrest⟩, Hg⟩
  isplitl [HS Hrest]
  · isplitl [HS]; · iexists _; iexact HS
    iexact Hrest
  iexact Hg

end Region0

end Cert.Kernel.Hand

end
-- ==== Proof.K.Body1.lean ====
/-
  The second kernel's body, run once per control case on whole staging memrefs.

  The grid is two passes over the 25 row blocks. In the first pass point `i` stores two 400-row slabs, at rows
  400·i … 400·i+399: into the scratch `t3` the block `((max (adjblock · s2 + b2) 0) · W3) · LW3`, and into the scratch
  `p12` the block `x1block · LW1 + (max (adjblock · s2 + b2) 0) · LW2`. At the second pass's first point the whole of `t3`
  is narrowed into a third scratch; at every point of the second pass the body reads that scratch whole and its own
  slab of `p12` and stores the 400 × 4 block of log-softmax values. A slab store is described by what the scratch
  reads afterwards: the stored block on the slab's rows, what it held elsewhere.
-/
import proofs.«143550_g111669150054_cont_sun_m_211_32_alg».proof.Proof.Gen.Kernel.Launch
import proofs.«143550_g111669150054_cont_sun_m_211_32_alg».proof.Proof.Gen.Kernel.Skeleton
import proofs.«143550_g111669150054_cont_sun_m_211_32_alg».proof.Proof.Gen.Kernel.Points
import proofs.«143550_g111669150054_cont_sun_m_211_32_alg».proof.Proof.K.Body0
import Idealize.ShloMosaic.Lib.WritesUnit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rO4 : Rect S400x4 := Rect.unit (s := S400x4) ![0, 0] S400x4.size inb_S400x4_S400x4_0_0

/-- The three conditions of the body, from the grid coordinates: the first pass; the second pass's first point;
    the second pass. -/
abbrev condP (i : grid1.Coords) : Prop := k1_cond1 i = 1#1
abbrev condQ (i : grid1.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
abbrev condR (i : grid1.Coords) : Prop := k1_cond3 i = 1#1

/-- The block the first pass stores into `t3`. -/
def payT3 (a : Vec F S400x10000 .bf16) (s2 : Vec F S10000x128 .bf16) (b2 : Vec F S1x128 .f32) (w3 : Vec F S128x128 .f32)
    (lw3 : Vec F S128x128 .f32) : Vec F S400x128 .f32 :=
  k1_pay4 (View.ld a rA) (View.ld s2 rX) (View.ld b2 rB) (View.ld w3 rW) (View.ld lw3 rW)

/-- The block the first pass stores into `p12`. -/
def payP12 (a : Vec F S400x10000 .bf16) (s2 : Vec F S10000x128 .bf16) (x1b : Vec F S400x128 .bf16) (b2 : Vec F S1x128 .f32)
    (lw1 : Vec F S128x128 .f32) (lw2 : Vec F S128x128 .f32) : Vec F S400x128 .f32 :=
  k1_pay1 (k1_pay5 (View.ld x1b rO) (View.ld lw1 rW)) (k1_pay6 (View.ld a rA) (View.ld s2 rX) (View.ld b2 rB)) (k1_pay7 (View.ld lw2 rW))
    (constant S400x128 .f32 0x00000000#32)

/-- `g'` is `g` with the 400 rows from row `o` replaced by the block `p`. -/
def SlabUpd (g g' : Vec F S10000x128 .f32) (o : ℕ) (p : Vec F S400x128 .f32) : Prop :=
  (∀ (y : S10000x128.Idx) (x : S400x128.Idx), (y (0 : Fin 2)).val = o + (x (0 : Fin 2)).val → (y (1 : Fin 2)).val = (x (1 : Fin 2)).val → g' y = p x)
  ∧ (∀ y : S10000x128.Idx, ((y (0 : Fin 2)).val < o ∨ o + 400 ≤ (y (0 : Fin 2)).val) → g' y = g y)

/-- `t3` narrowed, whole. -/
def outS16 (g13 : Vec F S10000x128 .f32) : Vec F S10000x128 .bf16 :=
  View.canon [⟨rX, k1_pay2 (View.ld g13 rX)⟩]

/-- The slab of a scratch the second pass reads at its point. -/
def slabOf (i : grid1.Coords) (hR : condR i) (g : Vec F S10000x128 .f32) : Vec F S400x128 .f32 :=
  View.ld g (Rect.unit (s := S10000x128) (k1_off2 i) S400x128.size (k1_off2_inb i hR))

/-- The output block of the second pass. -/
def outO (a : Vec F S400x10000 .bf16) (s16 : Vec F S10000x128 .bf16) (b3 : Vec F S1x128 .f32) (lw3 : Vec F S128x128 .f32)
    (p12 : Vec F S400x128 .f32) (lb : Vec F S1x128 .f32) : Vec F S400x4 .f32 :=
  View.canon [⟨rO4, k1_pay8 (View.ld a rA) (View.ld s16 rX) (View.ld b3 rB) (View.ld lw3 rW) p12 (View.ld lb rB)⟩]

theorem coverX16 (p : Vec F S10000x128 .bf16) (y : S10000x128.Idx) :
    ∃ pc ∈ ([⟨rX, p⟩] : List (View.Piece (Elt F) S10000x128 .bf16)), y ∈ pc.1.set :=
  View.cover_of_tiled [⟨rX, p⟩] S10000x128.size (by rfl) y
theorem coverO4 (p : Vec F S400x4 .f32) (y : S400x4.Idx) :
    ∃ pc ∈ ([⟨rO4, p⟩] : List (View.Piece (Elt F) S400x4 .f32)), y ∈ pc.1.set :=
  View.cover_of_tiled [⟨rO4, p⟩] S400x4.size (by rfl) y

set_option maxHeartbeats 4000000 in
/-- The first pass: the output's buffer is not touched; the two slabs are stored. -/
theorem sound_kernel1_P (c : Dev nD) (E : Set ℕ) (i : grid1.Coords) (hP : condP i) (hQ : ¬condQ i) (hR : ¬condR i)
    (arg2 : Memref sig .tc .vmem S400x10000 .bf16) (harg2 : arg2.IsWhole) (arg3 : Memref sig .tc .vmem S10000x128 .bf16) (harg3 : arg3.IsWhole)
    (arg4 : Memref sig .tc .vmem S400x128 .bf16) (harg4 : arg4.IsWhole) (arg5 : Memref sig .tc .vmem S1x128 .f32) (harg5 : arg5.IsWhole)
    (arg6 : Memref sig .tc .vmem S128x128 .f32) (harg6 : arg6.IsWhole) (arg7 : Memref sig .tc .vmem S128x128 .f32) (harg7 : arg7.IsWhole)
    (arg8 : Memref sig .tc .vmem S128x128 .f32) (harg8 : arg8.IsWhole) (arg9 : Memref sig .tc .vmem S128x128 .f32) (harg9 : arg9.IsWhole)
    (arg10 : Memref sig .tc .vmem S1x128 .f32) (harg10 : arg10.IsWhole) (arg11 : Memref sig .tc .vmem S1x128 .f32) (harg11 : arg11.IsWhole)
    (arg12 : Memref sig .tc .vmem S400x4 .f32) (harg12 : arg12.IsWhole) (arg13 : Memref sig .tc .vmem S10000x128 .f32) (harg13 : arg13.IsWhole)
    (arg14 : Memref sig .tc .vmem S10000x128 .f32) (harg14 : arg14.IsWhole) (arg15 : Memref sig .tc .vmem S10000x128 .bf16) (harg15 : arg15.IsWhole)
    (a : Vec F S400x10000 .bf16) (s2 : Vec F S10000x128 .bf16) (x1b : Vec F S400x128 .bf16) (b2 : Vec F S1x128 .f32) (w3 : Vec F S128x128 .f32)
    (lw1 : Vec F S128x128 .f32) (lw2 : Vec F S128x128 .f32) (lw3 : Vec F S128x128 .f32) (b3 : Vec F S1x128 .f32) (lb : Vec F S1x128 .f32) (o12 : Vec F S400x4 .f32) (g13 g14 : Vec F S10000x128 .f32) (g15 : Vec F S10000x128 .bf16) (K : PUnit → sProp 𝕄) :
    iprop(owns (c : Thread nD τ) arg2 fullShare a ∗ owns (c : Thread nD τ) arg3 fullShare s2 ∗ owns (c : Thread nD τ) arg4 fullShare x1b
        ∗ owns (c : Thread nD τ) arg5 fullShare b2 ∗ owns (c : Thread nD τ) arg6 fullShare w3 ∗ owns (c : Thread nD τ) arg7 fullShare lw1
        ∗ owns (c : Thread nD τ) arg8 fullShare lw2 ∗ owns (c : Thread nD τ) arg9 fullShare lw3 ∗ owns (c : Thread nD τ) arg10 fullShare b3
        ∗ owns (c : Thread nD τ) arg11 fullShare lb
        ∗ owns (c : Thread nD τ) arg12 fullShare o12 ∗ owns (c : Thread nD τ) arg13 fullShare g13 ∗ owns (c : Thread nD τ) arg14 fullShare g14 ∗ owns (c : Thread nD τ) arg15 fullShare g15
        ∗ (iprop(owns (c : Thread nD τ) arg2 fullShare a ∗ owns (c : Thread nD τ) arg3 fullShare s2 ∗ owns (c : Thread nD τ) arg4 fullShare x1b
        ∗ owns (c : Thread nD τ) arg5 fullShare b2 ∗ owns (c : Thread nD τ) arg6 fullShare w3 ∗ owns (c : Thread nD τ) arg7 fullShare lw1
        ∗ owns (c : Thread nD τ) arg8 fullShare lw2 ∗ owns (c : Thread nD τ) arg9 fullShare lw3 ∗ owns (c : Thread nD τ) arg10 fullShare b3
        ∗ owns (c : Thread nD τ) arg11 fullShare lb
            ∗ owns (c : Thread nD τ) arg12 fullShare o12
            ∗ (∃ g13', owns (c : Thread nD τ) arg13 fullShare g13' ∗ ⌜SlabUpd g13 g13' (400 * (i 1).val) (payT3 a s2 b2 w3 lw3)⌝)
            ∗ (∃ g14', owns (c : Thread nD τ) arg14 fullShare g14' ∗ ⌜SlabUpd g14 g14' (400 * (i 1).val) (payP12 a s2 x1b b2 lw1 lw2)⌝)
            ∗ owns (c : Thread nD τ) arg15 fullShare g15) -∗ K ⟨⟩))
      ⊢ wp frame (wpE (defs₀ (F := F)) Variants.none c none) E (cc1__p23_body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__p23_body_eq_skeleton]; unfold cc1__p23_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  subst hf2; subst hf3; subst hf4; subst hf5; subst hf6; subst hf7; subst hf8; subst hf9; subst hf10; subst hf11; subst hf12; subst hf13; subst hf14; subst hf15
  sl_exec (disch := first | exact hP | exact hQ | exact hR)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitl [H13]
    · iexists _; isplitr
      swap; · iexact H13
      ipureintro; rfl
    ipureintro
    exact ⟨fun y x h0 h1 => View.read_writes_cons_rows_of_mem arg13.view f13 _ _ [] y x (k1_off1_eq i) h0 h1,
      fun y h => View.read_writes_cons_rows_of_not_mem arg13.view f13 _ _ [] y (k1_off1_eq i) rfl h⟩
  isplitl [H14]
  · iexists _; isplitl [H14]
    · iexists _; isplitr
      swap; · iexact H14
      ipureintro; rfl
    ipureintro
    exact ⟨fun y x h0 h1 => View.read_writes_cons_rows_of_mem arg14.view f14 _ _ [] y x (k1_off1_eq i) h0 h1,
      fun y h => View.read_writes_cons_rows_of_not_mem arg14.view f14 _ _ [] y (k1_off1_eq i) rfl h⟩
  iexists f15; isplitr; · ipureintro; rfl
  iexact H15

set_option maxHeartbeats 4000000 in
/-- The second pass's first point: `t3` is narrowed whole into the third scratch, then read. -/
theorem sound_kernel1_Q (c : Dev nD) (E : Set ℕ) (i : grid1.Coords) (hP : ¬condP i) (hQ : condQ i) (hR : condR i)
    (arg2 : Memref sig .tc .vmem S400x10000 .bf16) (harg2 : arg2.IsWhole) (arg3 : Memref sig .tc .vmem S10000x128 .bf16) (harg3 : arg3.IsWhole)
    (arg4 : Memref sig .tc .vmem S400x128 .bf16) (harg4 : arg4.IsWhole) (arg5 : Memref sig .tc .vmem S1x128 .f32) (harg5 : arg5.IsWhole)
    (arg6 : Memref sig .tc .vmem S128x128 .f32) (harg6 : arg6.IsWhole) (arg7 : Memref sig .tc .vmem S128x128 .f32) (harg7 : arg7.IsWhole)
    (arg8 : Memref sig .tc .vmem S128x128 .f32) (harg8 : arg8.IsWhole) (arg9 : Memref sig .tc .vmem S128x128 .f32) (harg9 : arg9.IsWhole)
    (arg10 : Memref sig .tc .vmem S1x128 .f32) (harg10 : arg10.IsWhole) (arg11 : Memref sig .tc .vmem S1x128 .f32) (harg11 : arg11.IsWhole)
    (arg12 : Memref sig .tc .vmem S400x4 .f32) (harg12 : arg12.IsWhole) (arg13 : Memref sig .tc .vmem S10000x128 .f32) (harg13 : arg13.IsWhole)
    (arg14 : Memref sig .tc .vmem S10000x128 .f32) (harg14 : arg14.IsWhole) (arg15 : Memref sig .tc .vmem S10000x128 .bf16) (harg15 : arg15.IsWhole)
    (a : Vec F S400x10000 .bf16) (s2 : Vec F S10000x128 .bf16) (x1b : Vec F S400x128 .bf16) (b2 : Vec F S1x128 .f32) (w3 : Vec F S128x128 .f32)
    (lw1 : Vec F S128x128 .f32) (lw2 : Vec F S128x128 .f32) (lw3 : Vec F S128x128 .f32) (b3 : Vec F S1x128 .f32) (lb : Vec F S1x128 .f32) (g13 g14 : Vec F S10000x128 .f32) (K : PUnit → sProp 𝕄) :
    iprop(owns (c : Thread nD τ) arg2 fullShare a ∗ owns (c : Thread nD τ) arg3 fullShare s2 ∗ owns (c : Thread nD τ) arg4 fullShare x1b
        ∗ owns (c : Thread nD τ) arg5 fullShare b2 ∗ owns (c : Thread nD τ) arg6 fullShare w3 ∗ owns (c : Thread nD τ) arg7 fullShare lw1
        ∗ owns (c : Thread nD τ) arg8 fullShare lw2 ∗ owns (c : Thread nD τ) arg9 fullShare lw3 ∗ owns (c : Thread nD τ) arg10 fullShare b3
        ∗ owns (c : Thread nD τ) arg11 fullShare lb
        ∗ (∃ d, owns (c : Thread nD τ) arg12 fullShare d) ∗ owns (c : Thread nD τ) arg13 fullShare g13 ∗ owns (c : Thread nD τ) arg14 fullShare g14 ∗ (∃ d, owns (c : Thread nD τ) arg15 fullShare d)
        ∗ (iprop(owns (c : Thread nD τ) arg2 fullShare a ∗ owns (c : Thread nD τ) arg3 fullShare s2 ∗ owns (c : Thread nD τ) arg4 fullShare x1b
        ∗ owns (c : Thread nD τ) arg5 fullShare b2 ∗ owns (c : Thread nD τ) arg6 fullShare w3 ∗ owns (c : Thread nD τ) arg7 fullShare lw1
        ∗ owns (c : Thread nD τ) arg8 fullShare lw2 ∗ owns (c : Thread nD τ) arg9 fullShare lw3 ∗ owns (c : Thread nD τ) arg10 fullShare b3
        ∗ owns (c : Thread nD τ) arg11 fullShare lb
            ∗ owns (c : Thread nD τ) arg12 fullShare (outO a (outS16 g13) b3 lw3 (slabOf i hR g14) lb)
            ∗ owns (c : Thread nD τ) arg13 fullShare g13 ∗ owns (c : Thread nD τ) arg14 fullShare g14
            ∗ owns (c : Thread nD τ) arg15 fullShare (outS16 g13)) -∗ K ⟨⟩))
      ⊢ wp frame (wpE (defs₀ (F := F)) Variants.none c none) E (cc1__p23_body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__p23_body_eq_skeleton]; unfold cc1__p23_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%d15, %f15, -, H15⟩, Hk⟩
  subst hf2; subst hf3; subst hf4; subst hf5; subst hf6; subst hf7; subst hf8; subst hf9; subst hf10; subst hf11; subst hf13; subst hf14
  sl_exec (disch := first | exact hP | exact hQ | exact hR)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (coverO4 _)).trans ?_
    rw [View.readCov_eq_canon']
    rfl
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (coverX16 _)

set_option maxHeartbeats 4000000 in
/-- The rest of the second pass: the three scratch arrays are only read. -/
theorem sound_kernel1_R (c : Dev nD) (E : Set ℕ) (i : grid1.Coords) (hP : ¬condP i) (hQ : ¬condQ i) (hR : condR i)
    (arg2 : Memref sig .tc .vmem S400x10000 .bf16) (harg2 : arg2.IsWhole) (arg3 : Memref sig .tc .vmem S10000x128 .bf16) (harg3 : arg3.IsWhole)
    (arg4 : Memref sig .tc .vmem S400x128 .bf16) (harg4 : arg4.IsWhole) (arg5 : Memref sig .tc .vmem S1x128 .f32) (harg5 : arg5.IsWhole)
    (arg6 : Memref sig .tc .vmem S128x128 .f32) (harg6 : arg6.IsWhole) (arg7 : Memref sig .tc .vmem S128x128 .f32) (harg7 : arg7.IsWhole)
    (arg8 : Memref sig .tc .vmem S128x128 .f32) (harg8 : arg8.IsWhole) (arg9 : Memref sig .tc .vmem S128x128 .f32) (harg9 : arg9.IsWhole)
    (arg10 : Memref sig .tc .vmem S1x128 .f32) (harg10 : arg10.IsWhole) (arg11 : Memref sig .tc .vmem S1x128 .f32) (harg11 : arg11.IsWhole)
    (arg12 : Memref sig .tc .vmem S400x4 .f32) (harg12 : arg12.IsWhole) (arg13 : Memref sig .tc .vmem S10000x128 .f32) (harg13 : arg13.IsWhole)
    (arg14 : Memref sig .tc .vmem S10000x128 .f32) (harg14 : arg14.IsWhole) (arg15 : Memref sig .tc .vmem S10000x128 .bf16) (harg15 : arg15.IsWhole)
    (a : Vec F S400x10000 .bf16) (s2 : Vec F S10000x128 .bf16) (x1b : Vec F S400x128 .bf16) (b2 : Vec F S1x128 .f32) (w3 : Vec F S128x128 .f32)
    (lw1 : Vec F S128x128 .f32) (lw2 : Vec F S128x128 .f32) (lw3 : Vec F S128x128 .f32) (b3 : Vec F S1x128 .f32) (lb : Vec F S1x128 .f32) (g13 g14 : Vec F S10000x128 .f32) (s16 : Vec F S10000x128 .bf16) (K : PUnit → sProp 𝕄) :
    iprop(owns (c : Thread nD τ) arg2 fullShare a ∗ owns (c : Thread nD τ) arg3 fullShare s2 ∗ owns (c : Thread nD τ) arg4 fullShare x1b
        ∗ owns (c : Thread nD τ) arg5 fullShare b2 ∗ owns (c : Thread nD τ) arg6 fullShare w3 ∗ owns (c : Thread nD τ) arg7 fullShare lw1
        ∗ owns (c : Thread nD τ) arg8 fullShare lw2 ∗ owns (c : Thread nD τ) arg9 fullShare lw3 ∗ owns (c : Thread nD τ) arg10 fullShare b3
        ∗ owns (c : Thread nD τ) arg11 fullShare lb
        ∗ (∃ d, owns (c : Thread nD τ) arg12 fullShare d) ∗ owns (c : Thread nD τ) arg13 fullShare g13 ∗ owns (c : Thread nD τ) arg14 fullShare g14 ∗ owns (c : Thread nD τ) arg15 fullShare s16
        ∗ (iprop(owns (c : Thread nD τ) arg2 fullShare a ∗ owns (c : Thread nD τ) arg3 fullShare s2 ∗ owns (c : Thread nD τ) arg4 fullShare x1b
        ∗ owns (c : Thread nD τ) arg5 fullShare b2 ∗ owns (c : Thread nD τ) arg6 fullShare w3 ∗ owns (c : Thread nD τ) arg7 fullShare lw1
        ∗ owns (c : Thread nD τ) arg8 fullShare lw2 ∗ owns (c : Thread nD τ) arg9 fullShare lw3 ∗ owns (c : Thread nD τ) arg10 fullShare b3
        ∗ owns (c : Thread nD τ) arg11 fullShare lb
            ∗ owns (c : Thread nD τ) arg12 fullShare (outO a s16 b3 lw3 (slabOf i hR g14) lb)
            ∗ owns (c : Thread nD τ) arg13 fullShare g13 ∗ owns (c : Thread nD τ) arg14 fullShare g14
            ∗ owns (c : Thread nD τ) arg15 fullShare s16) -∗ K ⟨⟩))
      ⊢ wp frame (wpE (defs₀ (F := F)) Variants.none c none) E (cc1__p23_body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__p23_body_eq_skeleton]; unfold cc1__p23_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, Hk⟩
  subst hf2; subst hf3; subst hf4; subst hf5; subst hf6; subst hf7; subst hf8; subst hf9; subst hf10; subst hf11; subst hf13; subst hf14; subst hf15
  sl_exec (disch := first | exact hP | exact hQ | exact hR)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (coverO4 _)
  isplitl [H13]
  · iexists f13; isplitr; · ipureintro; rfl
    iexact H13
  isplitl [H14]
  · iexists f14; isplitr; · ipureintro; rfl
    iexact H14
  iexists f15; isplitr; · ipureintro; rfl
  iexact H15

end Cert.Kernel.Hand

end
-- ==== Proof.K.Frame1.lean ====
/-
  The second kernel as a pipeline: its proof data and its body obligation, at the contents `V` the region is
  entered with.

  The grid's 50 points are two passes over the 25 row blocks: point `t < 25` is block `t` of the first pass, point
  `25 + i` block `i` of the second. The first pass fills the scratch arrays `t3` and `p12` slab by slab, so after
  `n` points their rows below `400·n` are known — the blocks `T3blk`, `P12blk` of the entry arrays — and the rest is
  not. After the whole pass both are known everywhere: `T3full`, `P12full`. The second pass narrows `t3` once
  (`S16`) and stores, per point, the output block as a function of the entry arrays alone (`OutBlk`). The output
  window is idle through the first pass and is not written back there. The region invariant says exactly this of
  the three scratch arrays, beside every other scoped buffer at anything.
-/
import proofs.«143550_g111669150054_cont_sun_m_211_32_alg».proof.Proof.Gen.Kernel.Launch
import proofs.«143550_g111669150054_cont_sun_m_211_32_alg».proof.Proof.Gen.Kernel.Skeleton
import proofs.«143550_g111669150054_cont_sun_m_211_32_alg».proof.Proof.Gen.Kernel.Points
import proofs.«143550_g111669150054_cont_sun_m_211_32_alg».proof.Proof.K.Body1
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- The three scratch operands: whole scoped buffers of the kernel's own. -/
abbrev sc13 : Memref sig .tc .vmem S10000x128 .f32 := Memref.whole cc1_scratch0
abbrev sc14 : Memref sig .tc .vmem S10000x128 .f32 := Memref.whole cc1_scratch1
abbrev sc15 : Memref sig .tc .vmem S10000x128 .bf16 := Memref.whole cc1_scratch2

/-! ## The body's conditions and the output window's idle points, decided over the grid -/

theorem hcondP : ∀ t : Fin cfg1.N, condP (grid1.coords t) ↔ t.val < 25 :=
  (by decide +kernel : ∀ t : Fin grid1.N, condP (grid1.coords t) ↔ t.val < 25)
theorem hcondQ : ∀ t : Fin cfg1.N, condQ (grid1.coords t) ↔ t.val = 25 :=
  (by decide +kernel : ∀ t : Fin grid1.N, condQ (grid1.coords t) ↔ t.val = 25)
theorem hcondR : ∀ t : Fin cfg1.N, condR (grid1.coords t) ↔ 25 ≤ t.val :=
  (by decide +kernel : ∀ t : Fin grid1.N, condR (grid1.coords t) ↔ 25 ≤ t.val)
/-- The row block of a point. -/
theorem hcoord1 : ∀ t : Fin cfg1.N, ((grid1.coords t) 1).val = t.val % 25 :=
  (by decide +kernel : ∀ t : Fin grid1.N, ((grid1.coords t) 1).val = t.val % 25)
theorem idleAt1_10 : ∀ t : Fin cfg1.N, ¬condR (grid1.coords t) → cfg1.idle 10 (grid1.coords t) = true := by decide +kernel
theorem noFlush1_10 : ∀ t : Fin cfg1.N, ¬condR (grid1.coords t) → (cfg1.win 10).flush t = false := by decide +kernel
theorem liveAt1_10 : ∀ t : Fin cfg1.N, condR (grid1.coords t) → cfg1.idle 10 (grid1.coords t) = false := by decide +kernel

/-! ## What the scratch arrays hold, as functions of the entry arrays -/

/-- The block point `t` of the first pass stores into `t3`, -/
def T3blk (c : Dev nD) (t : Fin cfg1.N) : Vec F S400x128 .f32 :=
  payT3 (iblk1 V c 0 t) (iblk1 V c 1 t) (iblk1 V c 3 t) (iblk1 V c 4 t) (iblk1 V c 7 t)
/-- and into `p12`. -/
def P12blk (c : Dev nD) (t : Fin cfg1.N) : Vec F S400x128 .f32 :=
  payP12 (iblk1 V c 0 t) (iblk1 V c 1 t) (iblk1 V c 2 t) (iblk1 V c 3 t) (iblk1 V c 5 t) (iblk1 V c 6 t)

/-- The point of the first pass whose slab holds row `y 0`, -/
def ptOf (y : S10000x128.Idx) : Fin cfg1.N :=
  ⟨(y (0 : Fin 2)).val / 400, by
    have h : (y (0 : Fin 2)).val < 10000 := (y (0 : Fin 2)).isLt
    have hN : cfg1.N = 50 := N_1
    omega⟩
/-- and the index's position inside that slab. -/
def locOf (y : S10000x128.Idx) : S400x128.Idx :=
  ValueIdx.ix2 (⟨(y (0 : Fin 2)).val % 400, Nat.mod_lt _ (by norm_num)⟩ : Fin 400) (⟨(y (1 : Fin 2)).val, (y (1 : Fin 2)).isLt⟩ : Fin 128)

/-- `t3` after the first pass, `p12` after the first pass, and `t3` narrowed. -/
def T3full (c : Dev nD) : Vec F S10000x128 .f32 := fun y => T3blk V c (ptOf y) (locOf y)
def P12full (c : Dev nD) : Vec F S10000x128 .f32 := fun y => P12blk V c (ptOf y) (locOf y)
def S16 (c : Dev nD) : Vec F S10000x128 .bf16 := outS16 (T3full V c)

/-- What is known of the three scratch arrays before position `k`. -/
def Inv1 (c : Dev nD) (k : ℕ) (g13 g14 : Vec F S10000x128 .f32) (g15 : Vec F S10000x128 .bf16) : Prop :=
  (∀ y : S10000x128.Idx, (y (0 : Fin 2)).val < 400 * k → g13 y = T3full V c y ∧ g14 y = P12full V c y) ∧ (26 ≤ k → g15 = S16 V c)

/-- The output block of a point of the second pass (nothing is stored at a point of the first). -/
def OutBlk (c : Dev nD) (t : Fin cfg1.N) : Vec F S400x4 .f32 :=
  if hR : condR (grid1.coords t) then
    outO (iblk1 V c 0 t) (S16 V c) (iblk1 V c 8 t) (iblk1 V c 7 t) (slabOf (grid1.coords t) hR (P12full V c)) (iblk1 V c 9 t)
  else View.canon []

theorem inv_zero (c : Dev nD) (g13 g14 : Vec F S10000x128 .f32) (g15 : Vec F S10000x128 .bf16) : Inv1 V c 0 g13 g14 g15 :=
  ⟨fun y hy => absurd hy (by omega), fun h => absurd h (by omega)⟩

/-- A point of the first pass extends the known rows by its slab. -/
theorem inv_step_P (c : Dev nD) (t : Fin cfg1.N) (hp : t.val < 25) {g13 g14 g13' g14' : Vec F S10000x128 .f32} {g15 : Vec F S10000x128 .bf16}
    (hinv : Inv1 V c t.val g13 g14 g15)
    (h13 : SlabUpd g13 g13' (400 * ((grid1.coords t) 1).val) (T3blk V c t))
    (h14 : SlabUpd g14 g14' (400 * ((grid1.coords t) 1).val) (P12blk V c t)) :
    Inv1 V c (t.val + 1) g13' g14' g15 := by
  have hi : ((grid1.coords t) 1).val = t.val := by rw [hcoord1 t]; exact Nat.mod_eq_of_lt hp
  rw [hi] at h13 h14
  refine ⟨fun y hy => ?_, fun h => absurd h (by omega)⟩
  by_cases hlt : (y (0 : Fin 2)).val < 400 * t.val
  · rw [h13.2 y (Or.inl hlt), h14.2 y (Or.inl hlt)]; exact hinv.1 y hlt
  · have hpt : ptOf y = t := Fin.ext (by show (y (0 : Fin 2)).val / 400 = t.val; omega)
    have hx0 : (y (0 : Fin 2)).val = 400 * t.val + ((locOf y) (0 : Fin 2)).val := by
      show (y (0 : Fin 2)).val = 400 * t.val + (y (0 : Fin 2)).val % 400; omega
    have hx1 : (y (1 : Fin 2)).val = ((locOf y) (1 : Fin 2)).val := rfl
    rw [h13.1 y (locOf y) hx0 hx1, h14.1 y (locOf y) hx0 hx1]
    unfold T3full P12full; rw [hpt]; exact ⟨rfl, rfl⟩

/-- After the first pass the two arrays are known whole. -/
theorem inv_full (c : Dev nD) {k : ℕ} (hk : 25 ≤ k) {g13 g14 : Vec F S10000x128 .f32} {g15 : Vec F S10000x128 .bf16}
    (hinv : Inv1 V c k g13 g14 g15) : g13 = T3full V c ∧ g14 = P12full V c := by
  have hy : ∀ y : S10000x128.Idx, (y (0 : Fin 2)).val < 400 * k := fun y => by
    have h : (y (0 : Fin 2)).val < 10000 := (y (0 : Fin 2)).isLt
    omega
  exact ⟨funext fun y => (hinv.1 y (hy y)).1, funext fun y => (hinv.1 y (hy y)).2⟩

/-! ## The region invariant -/

/-- Every scoped buffer that is neither a staging buffer of this call nor one of its scratch arrays, at anything. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))
          ∗ restBut1 c) :=
  Pipeline.scopedRest_split_of_list spec1 c [cc1_scratch0, cc1_scratch1, cc1_scratch2] (by decide) (by decide)

/-- The launch's invariant with the scratch arrays as memrefs owned at some contents. -/
theorem PhiA1_eq (c : Dev nD) :
    (Pipeline.ΦA spec1 c : sProp 𝕄)
      = iprop(iprop(iprop((∃ d, owns (c : Thread nD τ) sc13 fullShare d) ∗ (∃ d, owns (c : Thread nD τ) sc14 fullShare d) ∗ (∃ d, owns (c : Thread nD τ) sc15 fullShare d)) ∗ restBut1 c) ∗ (∃ r, prngReg c r)) := by
  unfold Pipeline.ΦA; rw [scopedRest1_split]; simp only [sc13, sc14, sc15, owns_whole]; try rfl

/-- The scratch arrays at contents of which `Inv1 … k` holds, beside the rest. -/
def PhiK (c : Dev nD) (k : ℕ) : sProp 𝕄 :=
  iprop(iprop(iprop(∃ g13 g14 g15, owns (c : Thread nD τ) sc13 fullShare g13 ∗ owns (c : Thread nD τ) sc14 fullShare g14 ∗ owns (c : Thread nD τ) sc15 fullShare g15 ∗ ⌜Inv1 V c k g13 g14 g15⌝) ∗ restBut1 c) ∗ (∃ r, prngReg c r))

/-- The region invariant before position `n`: the launch's before the first point, then `PhiK`. -/
def Phi1 (c : Dev nD) : ℕ → sProp 𝕄
  | 0 => Pipeline.ΦA spec1 c
  | n + 1 => PhiK V c (n + 1)

/-- Before any position the invariant gives the scratch arrays at contents of which `Inv1` holds. -/
theorem Phi1_to_K (c : Dev nD) (n : ℕ) : Phi1 V c n ⊢ PhiK V c n := by
  cases n with
  | zero =>
    rw [show Phi1 V c 0 = Pipeline.ΦA spec1 c from rfl, PhiA1_eq]; unfold PhiK
    iintro ⟨⟨⟨⟨%d13, H13⟩, ⟨%d14, H14⟩, ⟨%d15, H15⟩⟩, Hrest⟩, Hg⟩
    isplitl [H13 H14 H15 Hrest]
    · isplitl [H13 H14 H15]
      · iexists d13, d14, d15
        isplitl [H13]; · iexact H13
        isplitl [H14]; · iexact H14
        isplitl [H15]; · iexact H15
        ipureintro; exact inv_zero V c d13 d14 d15
      iexact Hrest
    iexact Hg
  | succ n => exact Idealize.SL.BI.Entails.refl _

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => OutBlk V c t
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = OutBlk V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns: the output window's buffer as it was found at a point of the first pass. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ (dat1 V c).leavesExact 10 t)

set_option maxHeartbeats 8000000 in
/-- The body at any point, by its three cases. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl,
    after1_0, after1_1, after1_2, after1_3, after1_4, after1_5, after1_6, after1_7, after1_8, after1_9]
  rw [show (dat1 V c).Φ t.succ = PhiK V c (t.val + 1) from rfl,
    show (dat1 V c).Φ t.castSucc = Phi1 V c t.val from rfl]
  refine (sep_mono (Phi1_to_K V c t.val) .rfl).trans ?_
  unfold PhiK
  by_cases hp : t.val < 25
  · have hP : condP (grid1.coords t) := (hcondP t).mpr hp
    have hQ : ¬condQ (grid1.coords t) := fun h => by have := (hcondQ t).mp h; omega
    have hR : ¬condR (grid1.coords t) := fun h => by have := (hcondR t).mp h; omega
    rw [Dat.leavesExact_idle (dat1 V c) 10 t (idleAt1_10 t hR) (noFlush1_10 t hR)]
    iintro ⟨⟨⟨⟨%g13, %g14, %g15, HS13, HS14, HS15, %hinv⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1_P c Set.univ (grid1.coords t) hP hQ hR _ _ _ _ _ _ _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((dat1 V c).before 10 t d10) g13 g14 g15 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS13]; · iexact HS13
    isplitl [HS14]; · iexact HS14
    isplitl [HS15]; · iexact HS15
    iintro ⟨H0, H1, H2, H3, H4, H5, H6, H7, H8, H9, H10, ⟨%g13', HS13, %h13⟩, ⟨%g14', HS14, %h14⟩, HS15⟩
    isplitl [HS13 HS14 HS15 Hrest Hg]
    · isplitl [HS13 HS14 HS15 Hrest]
      · isplitl [HS13 HS14 HS15]
        · iexists g13', g14', g15
          isplitl [HS13]; · iexact HS13
          isplitl [HS14]; · iexact HS14
          isplitl [HS15]; · iexact HS15
          ipureintro; exact inv_step_P V c t hp hinv h13 h14
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · have hP : ¬condP (grid1.coords t) := fun h => hp ((hcondP t).mp h)
    have hR : condR (grid1.coords t) := (hcondR t).mpr (by omega)
    rw [show (dat1 V c).leavesExact 10 t = owns (c : Thread nD τ) (st1_10 t) fullShare ((dat1 V c).after 10 t) from by
      unfold Dat.leavesExact; rw [liveAt1_10 t hR], after1_10]
    rw [show OutBlk V c t = outO (iblk1 V c 0 t) (S16 V c) (iblk1 V c 8 t) (iblk1 V c 7 t) (slabOf (grid1.coords t) hR (P12full V c)) (iblk1 V c 9 t) from dif_pos hR]
    by_cases hq : t.val = 25
    · have hQ : condQ (grid1.coords t) := (hcondQ t).mpr hq
      iintro ⟨⟨⟨⟨%g13, %g14, %g15, HS13, HS14, HS15, %hinv⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      obtain ⟨rfl, rfl⟩ := inv_full V c (by omega : 25 ≤ t.val) hinv
      iapply (sound_kernel1_Q c Set.univ (grid1.coords t) hP hQ hR _ _ _ _ _ _ _ _ _ _ _ _ _ _ _ _ _ _ _ _ _ _ _ _ _ _ _ _
        (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (T3full V c) (P12full V c) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS13]; · iexact HS13
      isplitl [HS14]; · iexact HS14
      isplitl [HS15]; · iexists _; iexact HS15
      iintro ⟨H0, H1, H2, H3, H4, H5, H6, H7, H8, H9, H10, HS13, HS14, HS15⟩
      isplitl [HS13 HS14 HS15 Hrest Hg]
      · isplitl [HS13 HS14 HS15 Hrest]
        · isplitl [HS13 HS14 HS15]
          · iexists (T3full V c), (P12full V c), (S16 V c)
            isplitl [HS13]; · iexact HS13
            isplitl [HS14]; · iexact HS14
            isplitl [HS15]; · iexact HS15
            ipureintro; exact ⟨fun y _ => ⟨rfl, rfl⟩, fun _ => rfl⟩
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hQ : ¬condQ (grid1.coords t) := fun h => hq ((hcondQ t).mp h)
      iintro ⟨⟨⟨⟨%g13, %g14, %g15, HS13, HS14, HS15, %hinv⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      obtain ⟨rfl, rfl⟩ := inv_full V c (by omega : 25 ≤ t.val) hinv
      obtain rfl : g15 = S16 V c := hinv.2 (by omega)
      iapply (sound_kernel1_R c Set.univ (grid1.coords t) hP hQ hR _ _ _ _ _ _ _ _ _ _ _ _ _ _ _ _ _ _ _ _ _ _ _ _ _ _ _ _
        (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (T3full V c) (P12full V c) (S16 V c) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS13]; · iexact HS13
      isplitl [HS14]; · iexact HS14
      isplitl [HS15]; · iexact HS15
      iintro ⟨H0, H1, H2, H3, H4, H5, H6, H7, H8, H9, H10, HS13, HS14, HS15⟩
      isplitl [HS13 HS14 HS15 Hrest Hg]
      · isplitl [HS13 HS14 HS15 Hrest]
        · isplitl [HS13 HS14 HS15]
          · iexists (T3full V c), (P12full V c), (S16 V c)
            isplitl [HS13]; · iexact HS13
            isplitl [HS14]; · iexact HS14
            isplitl [HS15]; · iexact HS15
            ipureintro; exact ⟨fun y _ => ⟨rfl, rfl⟩, fun _ => rfl⟩
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := Idealize.SL.BI.Entails.refl _

/-- After the last point the invariant gives the launch's back: what the scratch arrays hold is forgotten. -/
theorem hout1 (c : Dev nD) : (dat1 V c).Φ (Fin.last cfg1.N) ⊢ Pipeline.ΦA spec1 c := by
  have h : (dat1 V c).Φ (Fin.last cfg1.N) ⊢ PhiK V c (Fin.last cfg1.N).val := by
    rw [show (dat1 V c).Φ (Fin.last cfg1.N) = Phi1 V c (Fin.last cfg1.N).val from rfl]
    exact Phi1_to_K V c _
  refine h.trans ?_
  rw [PhiA1_eq]; unfold PhiK
  iintro ⟨⟨⟨%g13, %g14, %g15, HS13, HS14, HS15, -⟩, Hrest⟩, Hg⟩
  isplitl [HS13 HS14 HS15 Hrest]
  · isplitl [HS13 HS14 HS15]
    · isplitl [HS13]; · iexists _; iexact HS13
      isplitl [HS14]; · iexists _; iexact HS14
      iexists _; iexact HS15
    iexact Hrest
  iexact Hg

end Region1

end Cert.Kernel.Hand

end
-- ==== Proof.K.Frame.lean ====
/-
  The two kernels put together: the buffers' contents at each boundary of the program, the proof data of both
  pipelines, each region as a segment of the program entered from every unscoped buffer at the boundary's contents,
  and the frame: every execution terminates and the argument arrays end as launched.

  The first region changes three arrays (its outputs: the first hidden layer, that layer times W2, and the narrowed
  adjacency matrix); the second changes one (the result). What each leaves there is what its pipeline's write-backs
  leave (`Dat.arrAt … N`); every other buffer is as the region found it.
-/
import proofs.«143550_g111669150054_cont_sun_m_211_32_alg».proof.Proof.Gen.Kernel.Launch
import proofs.«143550_g111669150054_cont_sun_m_211_32_alg».proof.Proof.Gen.Kernel.Skeleton
import proofs.«143550_g111669150054_cont_sun_m_211_32_alg».proof.Proof.Gen.Kernel.Points
import proofs.«143550_g111669150054_cont_sun_m_211_32_alg».proof.Proof.K.Frame0
import proofs.«143550_g111669150054_cont_sun_m_211_32_alg».proof.Proof.K.Frame1
import proofs.«143550_g111669150054_cont_sun_m_211_32_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ) (ρ : Dev nD → PrngReg)

/-! ## The contents at the regions' boundaries -/

/-- What the first region is entered with, read at the TensorCore's references. -/
abbrev E0 : (c : Dev nD) → (b : Ref sig .tc) → Buf (Elt F) ((c : Thread nD τ).loc b) := fun c b => V9 m c b
/-- The buffers after the first region: its arrays at what the pipeline leaves. -/
def X0 (c : Dev nD) : Valuation τ sig (Elt F) :=
  Pipeline.withArrays spec0 c (V9 m c) fun w => (dat0 (E0 m) c).arrAt w cfg0.N
/-- The first region's outputs, as the unknowns of the generated boundary contents. -/
def outsA : Outs (F := F) := fun _ r c => X0 m c r
/-- What the second region is entered with. -/
abbrev E1 : (c : Dev nD) → (b : Ref sig .tc) → Buf (Elt F) ((c : Thread nD τ).loc b) := fun c b => V10 m (outsA m) c b
/-- The buffers after the second region. -/
def X1 (c : Dev nD) : Valuation τ sig (Elt F) :=
  Pipeline.withArrays spec1 c (V10 m (outsA m) c) fun w => (dat1 (E1 m) c).arrAt w cfg1.N
/-- Both regions' outputs. -/
def outs : Outs (F := F) := fun J r c => match J with
  | 10 => X0 m c r
  | _ => X1 m c r

theorem V10_outs (c : Dev nD) : V10 m (outs m) c = V10 m (outsA m) c := rfl

theorem V10_v11_0 (c : Dev nD) : V10 m (outs m) c main_v11_0 = X0 m c main_v11_0 := by
  simp only [V10, Function.update_of_ne (StableHlo.devRef_ne_of_ne (by decide) : (Proc.devRef .tc main_v11_0 : DevRef τ sig) ≠ Proc.devRef .tc main_v11_2),
    Function.update_of_ne (StableHlo.devRef_ne_of_ne (by decide) : (Proc.devRef .tc main_v11_0 : DevRef τ sig) ≠ Proc.devRef .tc main_v11_1), Function.update_self]
  rfl
theorem V10_v11_1 (c : Dev nD) : V10 m (outs m) c main_v11_1 = X0 m c main_v11_1 := by
  simp only [V10, Function.update_of_ne (StableHlo.devRef_ne_of_ne (by decide) : (Proc.devRef .tc main_v11_1 : DevRef τ sig) ≠ Proc.devRef .tc main_v11_2), Function.update_self]
  rfl
theorem V10_v11_2 (c : Dev nD) : V10 m (outs m) c main_v11_2 = X0 m c main_v11_2 := by
  simp only [V10, Function.update_self]
  rfl
theorem V11_v12 (c : Dev nD) : V11 m (outs m) c main_v12 = X1 m c main_v12 := by
  simp only [V11, Function.update_self]
  rfl

theorem X0_arr (c : Dev nD) (w : Fin cfg0.W) : X0 m c (Proc.devRef .tc (Pipeline.arrRef spec0 w)) = (dat0 (E0 m) c).arrAt w cfg0.N := by
  unfold X0; exact Pipeline.withArrays_arr spec0 launch0.win.arr_inj c _ _ w
theorem X1_arr (c : Dev nD) (w : Fin cfg1.W) : X1 m c (Proc.devRef .tc (Pipeline.arrRef spec1 w)) = (dat1 (E1 m) c).arrAt w cfg1.N := by
  unfold X1; exact Pipeline.withArrays_arr spec1 launch1.win.arr_inj c _ _ w

set_option maxHeartbeats 4000000 in
/-- After the first region each of its arrays holds what the pipeline leaves, -/
theorem hF0 (c : Dev nD) (w : Fin cfg0.W) : (dat0 (E0 m) c).arrAt w cfg0.N = V10 m (outs m) c (Pipeline.arrRef spec0 w) :=
  match w with
  | ⟨0, _⟩ => (((dat0 (E0 m) c).arrAt_in 0 rfl _).trans (A_eq0 (E0 m) c 0)).trans (V10_of m (outs m) c main_arg0 (by decide)).symm
  | ⟨1, _⟩ => (((dat0 (E0 m) c).arrAt_in 1 rfl _).trans (A_eq0 (E0 m) c 1)).trans (V10_of m (outs m) c main_arg1 (by decide)).symm
  | ⟨2, _⟩ => (((dat0 (E0 m) c).arrAt_in 2 rfl _).trans (A_eq0 (E0 m) c 2)).trans (V10_of m (outs m) c main_arg2 (by decide)).symm
  | ⟨3, _⟩ => (((dat0 (E0 m) c).arrAt_in 3 rfl _).trans (A_eq0 (E0 m) c 3)).trans (V10_of m (outs m) c main_v8 (by decide)).symm
  | ⟨4, _⟩ => (((dat0 (E0 m) c).arrAt_in 4 rfl _).trans (A_eq0 (E0 m) c 4)).trans (V10_of m (outs m) c main_arg4 (by decide)).symm
  | ⟨5, _⟩ => (X0_arr m c 5).symm.trans (V10_v11_0 m c).symm
  | ⟨6, _⟩ => (X0_arr m c 6).symm.trans (V10_v11_1 m c).symm
  | ⟨7, _⟩ => (X0_arr m c 7).symm.trans (V10_v11_2 m c).symm
/-- and every other buffer what it held at entry. -/
theorem hrest0 (c : Dev nD) : ∀ b, b ∉ Finset.univ.image (Pipeline.arrRef spec0) → V10 m (outs m) c b = V9 m c b :=
  fun b hb => V10_of m (outs m) c b fun hmem => by
    simp only [List.mem_cons, List.mem_nil_iff, or_false] at hmem
    rcases hmem with rfl | rfl | rfl
    · exact hb (Finset.mem_image.mpr ⟨5, Finset.mem_univ _, rfl⟩)
    · exact hb (Finset.mem_image.mpr ⟨6, Finset.mem_univ _, rfl⟩)
    · exact hb (Finset.mem_image.mpr ⟨7, Finset.mem_univ _, rfl⟩)

set_option maxHeartbeats 4000000 in
/-- After the second region each of its arrays holds what the pipeline leaves, -/
theorem hF1 (c : Dev nD) (w : Fin cfg1.W) : (dat1 (E1 m) c).arrAt w cfg1.N = V11 m (outs m) c (Pipeline.arrRef spec1 w) :=
  match w with
  | ⟨0, _⟩ => (((dat1 (E1 m) c).arrAt_in 0 rfl _).trans (A_eq1 (E1 m) c 0)).trans (V11_of m (outs m) c main_v11_2 (by decide)).symm
  | ⟨1, _⟩ => (((dat1 (E1 m) c).arrAt_in 1 rfl _).trans (A_eq1 (E1 m) c 1)).trans (V11_of m (outs m) c main_v11_1 (by decide)).symm
  | ⟨2, _⟩ => (((dat1 (E1 m) c).arrAt_in 2 rfl _).trans (A_eq1 (E1 m) c 2)).trans (V11_of m (outs m) c main_v11_0 (by decide)).symm
  | ⟨3, _⟩ => (((dat1 (E1 m) c).arrAt_in 3 rfl _).trans (A_eq1 (E1 m) c 3)).trans (V11_of m (outs m) c main_v9 (by decide)).symm
  | ⟨4, _⟩ => (((dat1 (E1 m) c).arrAt_in 4 rfl _).trans (A_eq1 (E1 m) c 4)).trans (V11_of m (outs m) c main_arg6 (by decide)).symm
  | ⟨5, _⟩ => (((dat1 (E1 m) c).arrAt_in 5 rfl _).trans (A_eq1 (E1 m) c 5)).trans (V11_of m (outs m) c main_v1 (by decide)).symm
  | ⟨6, _⟩ => (((dat1 (E1 m) c).arrAt_in 6 rfl _).trans (A_eq1 (E1 m) c 6)).trans (V11_of m (outs m) c main_v3 (by decide)).symm
  | ⟨7, _⟩ => (((dat1 (E1 m) c).arrAt_in 7 rfl _).trans (A_eq1 (E1 m) c 7)).trans (V11_of m (outs m) c main_v5 (by decide)).symm
  | ⟨8, _⟩ => (((dat1 (E1 m) c).arrAt_in 8 rfl _).trans (A_eq1 (E1 m) c 8)).trans (V11_of m (outs m) c main_v10 (by decide)).symm
  | ⟨9, _⟩ => (((dat1 (E1 m) c).arrAt_in 9 rfl _).trans (A_eq1 (E1 m) c 9)).trans (V11_of m (outs m) c main_v7 (by decide)).symm
  | ⟨10, _⟩ => (X1_arr m c 10).symm.trans (V11_v12 m c).symm
/-- and every other buffer what it held at entry. -/
theorem hrest1 (c : Dev nD) : ∀ b, b ∉ Finset.univ.image (Pipeline.arrRef spec1) → V11 m (outs m) c b = V10 m (outsA m) c b :=
  fun b hb => V11_of m (outs m) c b fun hmem => by
    simp only [List.mem_cons, List.mem_nil_iff, or_false] at hmem
    subst hmem
    exact hb (Finset.mem_image.mpr ⟨10, Finset.mem_univ _, rfl⟩)

/-! ## The proof data family and the thread state -/

/-- Both pipelines' proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev Rr (c : Dev nD) : sProp 𝕄 := iprop((∃ r, prngReg c r) ∗ ∃ W, owes (c : Thread nD τ) (0 : CellTallies nD τ sig Unit) W)

/-! ## The regions as segments -/

set_option backward.isDefEq.respectTransparency.types false in
/-- The first region: entered from every unscoped buffer at the contents after the host operations, left with its
    three output arrays at what the pipeline leaves. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V9 m c) ∗ Rr c)
  post c := iprop(StableHlo.held (c : Thread nD τ) (Pipeline.ucRefs τ sig) (V10 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => (V10 m (outs m) c) b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from there, left with the result array at what the pipeline leaves. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V10 m (outsA m) c) ∗ Rr c)
  post c := iprop(StableHlo.held (c : Thread nD τ) (Pipeline.ucRefs τ sig) (V11 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => (V11 m (outs m) c) b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄))) ∗ levAts L lv)
    ⊢ (|={Set.univ}=> bigSep Finset.univ (fun c : Dev nD => Rr (F := F) c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : Rr (F := F) c ⊢ (iprop(∃ W, owes (c : Thread nD τ) (0 : CellTallies nD τ sig Unit) W) : sProp 𝕄) := by
  iintro ⟨-, HO⟩; iexact HO

set_option backward.isDefEq.respectTransparency.types false in
/-- THE FRAME: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m emb₁ () 𝒱₀ L lv (fun _ _ => rfl) ρ (outs m) (pdats m) (fun _ => 0) (fun _ => (BI.emp : sProp 𝕄))
    (initOf (Pipeline.cells cfgs cellOf_inj) (Pipeline.launchToks cfgs cellOf_inj)) hu₀
    (fun _ c => Rr c) (hE0 ρ) hE2
    (reg0 m) (fun _ => .rfl) (fun _ => .rfl) (reg1 m) (fun c => by rw [V10_outs m c]; exact .rfl) (fun _ => .rfl)

end Cert.Kernel.Hand

end
-- ==== Proof.KI.Body0.lean ====
/-
  The first kernel's body, run once per control case on whole staging memrefs.

  The body keeps `s1 = x · W1` in a scratch array: it is computed at the grid's first point only and read at every
  point. At each point it stores three blocks: the adjacency block narrowed (its copy), `max (adjblock · s1 + b1) 0`
  (a block of the first hidden layer), and that block times W2. Each store covers its whole staging buffer, so what
  a buffer holds afterwards is the one stored value.
-/
import proofs.«143550_g111669150054_cont_sun_m_211_32_alg».proof.Proof.Gen.KernelIdeal.Launch
import proofs.«143550_g111669150054_cont_sun_m_211_32_alg».proof.Proof.Gen.KernelIdeal.Skeleton
import proofs.«143550_g111669150054_cont_sun_m_211_32_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rX : Rect S10000x128 := Rect.unit (s := S10000x128) ![0, 0] S10000x128.size inb_S10000x128_S10000x128_0_0
abbrev rA : Rect S400x10000 := Rect.unit (s := S400x10000) ![0, 0] S400x10000.size inb_S400x10000_S400x10000_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rO : Rect S400x128 := Rect.unit (s := S400x128) ![0, 0] S400x128.size inb_S400x128_S400x128_0_0

/-! ## What the body leaves in each buffer, from what it loads -/

/-- The scratch after the first point: `x · W1`. -/
def outS (x : Vec F S10000x128 .f32) (w1 : Vec F S128x128 .f32) : Vec F S10000x128 .f32 :=
  View.canon [⟨rX, k0_pay1 (View.ld x rX) (View.ld w1 rW)⟩]

/-- The adjacency block's narrowed copy. -/
def outA (a : Vec F S400x10000 .f32) : Vec F S400x10000 .bf16 :=
  View.canon [⟨rA, k0_pay2 (View.ld a rA)⟩]

/-- The block of the first hidden layer, from the adjacency block, the scratch and the bias row. -/
def outH (a : Vec F S400x10000 .f32) (s : Vec F S10000x128 .f32) (b : Vec F S1x128 .f32) : Vec F S400x128 .bf16 :=
  View.canon [⟨rO, k0_pay4 (View.ld a rA) (View.ld s rX) (View.ld b rB)⟩]

/-- That block times W2. -/
def outP (a : Vec F S400x10000 .f32) (s : Vec F S10000x128 .f32) (b : Vec F S1x128 .f32) (w2 : Vec F S128x128 .f32) : Vec F S400x128 .bf16 :=
  View.canon [⟨rO, k0_pay5 (View.ld a rA) (View.ld s rX) (View.ld b rB) (View.ld w2 rW)⟩]

theorem coverS (p : Vec F S10000x128 .f32) (y : S10000x128.Idx) :
    ∃ pc ∈ ([⟨rX, p⟩] : List (View.Piece (Elt F) S10000x128 .f32)), y ∈ pc.1.set :=
  View.cover_of_tiled [⟨rX, p⟩] S10000x128.size (by rfl) y
theorem coverA (p : Vec F S400x10000 .bf16) (y : S400x10000.Idx) :
    ∃ pc ∈ ([⟨rA, p⟩] : List (View.Piece (Elt F) S400x10000 .bf16)), y ∈ pc.1.set :=
  View.cover_of_tiled [⟨rA, p⟩] S400x10000.size (by rfl) y
theorem coverO (p : Vec F S400x128 .bf16) (y : S400x128.Idx) :
    ∃ pc ∈ ([⟨rO, p⟩] : List (View.Piece (Elt F) S400x128 .bf16)), y ∈ pc.1.set :=
  View.cover_of_tiled [⟨rO, p⟩] S400x128.size (by rfl) y

/-- The condition of the body's one `scf.if`: the grid's first point. -/
abbrev cond0 (i : grid0.Coords) : Prop :=
  (Scalar.cmpi .ne (Scalar.extui (Scalar.cmpi .eq (BitVec.ofNat 32 (i 0).val) 0#32)) 0#32) = 1#1

set_option maxHeartbeats 4000000 in
/-- After the first point: the scratch holds `s` and is only read. -/
theorem sound_kernel0_B (c : Dev nD) (E : Set ℕ) (i : grid0.Coords) (hc : ¬cond0 i)
    (arg1 : Memref sig .tc .vmem S10000x128 .f32) (harg1 : arg1.IsWhole) (arg2 : Memref sig .tc .vmem S400x10000 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S400x128 .bf16) (harg6 : arg6.IsWhole)
    (arg7 : Memref sig .tc .vmem S400x128 .bf16) (harg7 : arg7.IsWhole) (arg8 : Memref sig .tc .vmem S400x10000 .bf16) (harg8 : arg8.IsWhole)
    (arg9 : Memref sig .tc .vmem S10000x128 .f32) (harg9 : arg9.IsWhole)
    (x : Vec F S10000x128 .f32) (a : Vec F S400x10000 .f32) (w1 : Vec F S128x128 .f32) (b : Vec F S1x128 .f32) (w2 : Vec F S128x128 .f32)
    (s : Vec F S10000x128 .f32) (K : PUnit → sProp 𝕄) :
    iprop(owns (c : Thread nD τ) arg1 fullShare x ∗ owns (c : Thread nD τ) arg2 fullShare a ∗ owns (c : Thread nD τ) arg3 fullShare w1
        ∗ owns (c : Thread nD τ) arg4 fullShare b ∗ owns (c : Thread nD τ) arg5 fullShare w2
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s
        ∗ (iprop(owns (c : Thread nD τ) arg1 fullShare x ∗ owns (c : Thread nD τ) arg2 fullShare a ∗ owns (c : Thread nD τ) arg3 fullShare w1
            ∗ owns (c : Thread nD τ) arg4 fullShare b ∗ owns (c : Thread nD τ) arg5 fullShare w2
            ∗ owns (c : Thread nD τ) arg6 fullShare (outH a s b) ∗ owns (c : Thread nD τ) arg7 fullShare (outP a s b w2)
            ∗ owns (c : Thread nD τ) arg8 fullShare (outA a) ∗ owns (c : Thread nD τ) arg9 fullShare s) -∗ K ⟨⟩))
      ⊢ wp frame (wpE (defs₀ (F := F)) Variants.none c none) E
          (cc0__p1_body i arg1 harg1 arg2 harg2 arg3 harg3 arg4 harg4 arg5 harg5 arg6 harg6 arg7 harg7 arg8 harg8 arg9 harg9) K := by
  simp only [cc0__p1_body_eq_skeleton]; unfold cc0__p1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  subst hf1; subst hf2; subst hf3; subst hf4; subst hf5; subst hf9
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO _)
  isplitl [H7]
  · iexists _; isplitr
    swap; · iexact H7
    ipureintro
    exact View.read_writes_eq_canon _ _ _ (coverO _)
  isplitl [H8]
  · iexists _; isplitr
    swap; · iexact H8
    ipureintro
    exact View.read_writes_eq_canon _ _ _ (coverA _)
  iexists f9; isplitr; · ipureintro; rfl
  iexact H9

set_option maxHeartbeats 4000000 in
/-- At the first point: the scratch, at anything, is stored whole with `x · W1` and then read. -/
theorem sound_kernel0_A (c : Dev nD) (E : Set ℕ) (i : grid0.Coords) (hc : cond0 i)
    (arg1 : Memref sig .tc .vmem S10000x128 .f32) (harg1 : arg1.IsWhole) (arg2 : Memref sig .tc .vmem S400x10000 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S400x128 .bf16) (harg6 : arg6.IsWhole)
    (arg7 : Memref sig .tc .vmem S400x128 .bf16) (harg7 : arg7.IsWhole) (arg8 : Memref sig .tc .vmem S400x10000 .bf16) (harg8 : arg8.IsWhole)
    (arg9 : Memref sig .tc .vmem S10000x128 .f32) (harg9 : arg9.IsWhole)
    (x : Vec F S10000x128 .f32) (a : Vec F S400x10000 .f32) (w1 : Vec F S128x128 .f32) (b : Vec F S1x128 .f32) (w2 : Vec F S128x128 .f32)
    (K : PUnit → sProp 𝕄) :
    iprop(owns (c : Thread nD τ) arg1 fullShare x ∗ owns (c : Thread nD τ) arg2 fullShare a ∗ owns (c : Thread nD τ) arg3 fullShare w1
        ∗ owns (c : Thread nD τ) arg4 fullShare b ∗ owns (c : Thread nD τ) arg5 fullShare w2
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg1 fullShare x ∗ owns (c : Thread nD τ) arg2 fullShare a ∗ owns (c : Thread nD τ) arg3 fullShare w1
            ∗ owns (c : Thread nD τ) arg4 fullShare b ∗ owns (c : Thread nD τ) arg5 fullShare w2
            ∗ owns (c : Thread nD τ) arg6 fullShare (outH a (outS x w1) b) ∗ owns (c : Thread nD τ) arg7 fullShare (outP a (outS x w1) b w2)
            ∗ owns (c : Thread nD τ) arg8 fullShare (outA a) ∗ owns (c : Thread nD τ) arg9 fullShare (outS x w1)) -∗ K ⟨⟩))
      ⊢ wp frame (wpE (defs₀ (F := F)) Variants.none c none) E
          (cc0__p1_body i arg1 harg1 arg2 harg2 arg3 harg3 arg4 harg4 arg5 harg5 arg6 harg6 arg7 harg7 arg8 harg8 arg9 harg9) K := by
  simp only [cc0__p1_body_eq_skeleton]; unfold cc0__p1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf1; subst hf2; subst hf3; subst hf4; subst hf5
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    refine (View.read_writes_eq_canon _ _ _ (coverO _)).trans ?_
    rw [View.readCov_eq_canon']
    rfl
  isplitl [H7]
  · iexists _; isplitr
    swap; · iexact H7
    ipureintro
    sl_unfold_run_names
    refine (View.read_writes_eq_canon _ _ _ (coverO _)).trans ?_
    rw [View.readCov_eq_canon']
    rfl
  isplitl [H8]
  · iexists _; isplitr
    swap; · iexact H8
    ipureintro
    exact View.read_writes_eq_canon _ _ _ (coverA _)
  iexists _; isplitr
  swap; · iexact H9
  ipureintro
  sl_unfold_run_names
  exact View.read_writes_eq_canon _ _ _ (coverS _)

end Cert.KernelIdeal.Hand

end
-- ==== Proof.KI.Frame0.lean ====
/-
  The first kernel as a pipeline: its proof data and its body obligation, at the contents `V` the region is
  entered with.

  The scratch holds `s1 = x · W1` from the first grid point on (windows 0 and 2 stage the whole arrays `x` and `W1`,
  so their blocks are the arrays at every point). What the body leaves in each output's staging buffer at point `t`
  is therefore a fixed function of the entry arrays: the narrowed adjacency block, the block of the first hidden
  layer, and that block times W2. The region invariant is the launch's before the first point and afterwards the
  scratch at `s1` beside every other scoped buffer at anything.
-/
import proofs.«143550_g111669150054_cont_sun_m_211_32_alg».proof.Proof.Gen.KernelIdeal.Launch
import proofs.«143550_g111669150054_cont_sun_m_211_32_alg».proof.Proof.Gen.KernelIdeal.Skeleton
import proofs.«143550_g111669150054_cont_sun_m_211_32_alg».proof.Proof.Gen.KernelIdeal.Points
import proofs.«143550_g111669150054_cont_sun_m_211_32_alg».proof.Proof.KI.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
abbrev t00 : Fin cfg0.N := ⟨0, by decide⟩

/-- The scratch operand: a whole scoped buffer of the kernel's own. -/
abbrev scM0 : Memref sig .tc .vmem S10000x128 .f32 := Memref.whole cc0_scratch0

/-- `s1 = x · W1`, as the first point computes it from the two whole-array blocks. -/
def S1 (c : Dev nD) : Vec F S10000x128 .f32 := outS (iblk0 V c 0 t00) (iblk0 V c 2 t00)

/-- The body's condition holds at the first point only. -/
theorem hcond0 : ∀ t : Fin cfg0.N, cond0 (grid0.coords t) ↔ t.val = 0 :=
  (by decide +kernel : ∀ t : Fin grid0.N, cond0 (grid0.coords t) ↔ t.val = 0)

/-- Every scoped buffer that is neither a staging buffer of this call nor its scratch, at anything. -/
abbrev restBut0 (c : Dev nD) : sProp 𝕄 :=
  Pipeline.scopedRestBut (Ix := Unit) (Name := ℕ) (U := UR sig nD τ) (Lvl := ℕ) (Val := Elt F) spec0 c [cc0_scratch0]

theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f)) ∗ restBut0 c) :=
  Pipeline.scopedRest_split_of_list spec0 c [cc0_scratch0] (by decide) (by decide)

/-- The launch's invariant with the scratch as a memref owned at some contents. -/
theorem PhiA0_eq (c : Dev nD) :
    (Pipeline.ΦA spec0 c : sProp 𝕄)
      = iprop(iprop(iprop((∃ d, owns (c : Thread nD τ) scM0 fullShare d)) ∗ restBut0 c) ∗ (∃ r, prngReg c r)) := by
  unfold Pipeline.ΦA; rw [scopedRest0_split]; simp only [scM0, owns_whole]; try rfl

/-- The region invariant before position `n`. -/
def Phi0 (c : Dev nD) : ℕ → sProp 𝕄
  | 0 => Pipeline.ΦA spec0 c
  | _ + 1 => iprop(iprop(owns (c : Thread nD τ) scM0 fullShare (S1 V c) ∗ restBut0 c) ∗ (∃ r, prngReg c r))

theorem Phi0_pos (c : Dev nD) (n : ℕ) (hn : n ≠ 0) :
    Phi0 V c n = iprop(iprop(owns (c : Thread nD τ) scM0 fullShare (S1 V c) ∗ restBut0 c) ∗ (∃ r, prngReg c r)) := by
  cases n with
  | zero => exact absurd rfl hn
  | succ n => rfl

/-- The proof data of the pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outH (iblk0 V c 1 t) (S1 V c) (iblk0 V c 3 t)
    | ⟨6, _⟩ => outP (iblk0 V c 1 t) (S1 V c) (iblk0 V c 3 t) (iblk0 V c 4 t)
    | ⟨7, _⟩ => outA (iblk0 V c 1 t)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outH (iblk0 V c 1 t) (S1 V c) (iblk0 V c 3 t) := by dsimp only [dat0]
theorem after0_6 (c : Dev nD) (t : Fin cfg0.N) : (dat0 V c).after 6 t = outP (iblk0 V c 1 t) (S1 V c) (iblk0 V c 3 t) (iblk0 V c 4 t) := by dsimp only [dat0]
theorem after0_7 (c : Dev nD) (t : Fin cfg0.N) : (dat0 V c).after 7 t = outA (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: at the first the scratch comes from the launch's invariant at anything and goes back at
    `s1`; afterwards it comes at `s1` and goes back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, after0_6, after0_7]
  rw [show (dat0 V c).Φ t.succ = Phi0 V c (t.val + 1) from rfl,
    show (dat0 V c).Φ t.castSucc = Phi0 V c t.val from rfl]
  rw [Phi0_pos V c (t.val + 1) (Nat.succ_ne_zero _)]
  by_cases hz : t.val = 0
  · have hc : cond0 (grid0.coords t) := (hcond0 t).mpr hz
    obtain rfl : t = t00 := Fin.ext hz
    rw [show Phi0 V c (t00 : Fin cfg0.N).val = Pipeline.ΦA spec0 c from rfl, PhiA0_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_A c Set.univ (grid0.coords t00) hc _ _ _ _ _ _ _ _ _ _ _ _ _ _ _ _ _ _
      (iblk0 V c 0 t00) (iblk0 V c 1 t00) (iblk0 V c 2 t00) (iblk0 V c 3 t00) (iblk0 V c 4 t00) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc : ¬cond0 (grid0.coords t) := fun h => hz ((hcond0 t).mp h)
    rw [Phi0_pos V c t.val hz]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_B c Set.univ (grid0.coords t) hc _ _ _ _ _ _ _ _ _ _ _ _ _ _ _ _ _ _
      (iblk0 V c 0 t) (iblk0 V c 1 t) (iblk0 V c 2 t) (iblk0 V c 3 t) (iblk0 V c 4 t) (S1 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := Idealize.SL.BI.Entails.refl _

/-- After the last point the invariant gives the launch's back: the scratch's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last]; have : cfg0.N = 25 := N_0; omega), PhiA0_eq]
  iintro ⟨⟨HS, Hrest⟩, Hg⟩
  isplitl [HS Hrest]
  · isplitl [HS]; · iexists _; iexact HS
    iexact Hrest
  iexact Hg

end Region0

end Cert.KernelIdeal.Hand

end
-- ==== Proof.KI.Body1.lean ====
/-
  The second kernel's body, run once per control case on whole staging memrefs.

  The grid is two passes over the 25 row blocks. In the first pass point `i` stores two 400-row slabs, at rows
  400·i … 400·i+399: into the scratch `t3` the block `((max (adjblock · s2 + b2) 0) · W3) · LW3`, and into the scratch
  `p12` the block `x1block · LW1 + (max (adjblock · s2 + b2) 0) · LW2`. At the second pass's first point the whole of `t3`
  is narrowed into a third scratch; at every point of the second pass the body reads that scratch whole and its own
  slab of `p12` and stores the 400 × 4 block of log-softmax values. A slab store is described by what the scratch
  reads afterwards: the stored block on the slab's rows, what it held elsewhere.
-/
import proofs.«143550_g111669150054_cont_sun_m_211_32_alg».proof.Proof.Gen.KernelIdeal.Launch
import proofs.«143550_g111669150054_cont_sun_m_211_32_alg».proof.Proof.Gen.KernelIdeal.Skeleton
import proofs.«143550_g111669150054_cont_sun_m_211_32_alg».proof.Proof.Gen.KernelIdeal.Points
import proofs.«143550_g111669150054_cont_sun_m_211_32_alg».proof.Proof.KI.Body0
import Idealize.ShloMosaic.Lib.WritesUnit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rO4 : Rect S400x4 := Rect.unit (s := S400x4) ![0, 0] S400x4.size inb_S400x4_S400x4_0_0

/-- The three conditions of the body, from the grid coordinates: the first pass; the second pass's first point;
    the second pass. -/
abbrev condP (i : grid1.Coords) : Prop := k1_cond1 i = 1#1
abbrev condQ (i : grid1.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
abbrev condR (i : grid1.Coords) : Prop := k1_cond3 i = 1#1

/-- The block the first pass stores into `t3`. -/
def payT3 (a : Vec F S400x10000 .bf16) (s2 : Vec F S10000x128 .bf16) (b2 : Vec F S1x128 .f32) (w3 : Vec F S128x128 .f32)
    (lw3 : Vec F S128x128 .f32) : Vec F S400x128 .f32 :=
  k1_pay4 (View.ld a rA) (View.ld s2 rX) (View.ld b2 rB) (View.ld w3 rW) (View.ld lw3 rW)

/-- The block the first pass stores into `p12`. -/
def payP12 (a : Vec F S400x10000 .bf16) (s2 : Vec F S10000x128 .bf16) (x1b : Vec F S400x128 .bf16) (b2 : Vec F S1x128 .f32)
    (lw1 : Vec F S128x128 .f32) (lw2 : Vec F S128x128 .f32) : Vec F S400x128 .f32 :=
  k1_pay1 (k1_pay5 (View.ld x1b rO) (View.ld lw1 rW)) (k1_pay6 (View.ld a rA) (View.ld s2 rX) (View.ld b2 rB)) (k1_pay7 (View.ld lw2 rW))
    (constant S400x128 .f32 0x00000000#32)

/-- `g'` is `g` with the 400 rows from row `o` replaced by the block `p`. -/
def SlabUpd (g g' : Vec F S10000x128 .f32) (o : ℕ) (p : Vec F S400x128 .f32) : Prop :=
  (∀ (y : S10000x128.Idx) (x : S400x128.Idx), (y (0 : Fin 2)).val = o + (x (0 : Fin 2)).val → (y (1 : Fin 2)).val = (x (1 : Fin 2)).val → g' y = p x)
  ∧ (∀ y : S10000x128.Idx, ((y (0 : Fin 2)).val < o ∨ o + 400 ≤ (y (0 : Fin 2)).val) → g' y = g y)

/-- `t3` narrowed, whole. -/
def outS16 (g13 : Vec F S10000x128 .f32) : Vec F S10000x128 .bf16 :=
  View.canon [⟨rX, k1_pay2 (View.ld g13 rX)⟩]

/-- The slab of a scratch the second pass reads at its point. -/
def slabOf (i : grid1.Coords) (hR : condR i) (g : Vec F S10000x128 .f32) : Vec F S400x128 .f32 :=
  View.ld g (Rect.unit (s := S10000x128) (k1_off2 i) S400x128.size (k1_off2_inb i hR))

/-- The output block of the second pass. -/
def outO (a : Vec F S400x10000 .bf16) (s16 : Vec F S10000x128 .bf16) (b3 : Vec F S1x128 .f32) (lw3 : Vec F S128x128 .f32)
    (p12 : Vec F S400x128 .f32) (lb : Vec F S1x128 .f32) : Vec F S400x4 .f32 :=
  View.canon [⟨rO4, k1_pay8 (View.ld a rA) (View.ld s16 rX) (View.ld b3 rB) (View.ld lw3 rW) p12 (View.ld lb rB)⟩]

theorem coverX16 (p : Vec F S10000x128 .bf16) (y : S10000x128.Idx) :
    ∃ pc ∈ ([⟨rX, p⟩] : List (View.Piece (Elt F) S10000x128 .bf16)), y ∈ pc.1.set :=
  View.cover_of_tiled [⟨rX, p⟩] S10000x128.size (by rfl) y
theorem coverO4 (p : Vec F S400x4 .f32) (y : S400x4.Idx) :
    ∃ pc ∈ ([⟨rO4, p⟩] : List (View.Piece (Elt F) S400x4 .f32)), y ∈ pc.1.set :=
  View.cover_of_tiled [⟨rO4, p⟩] S400x4.size (by rfl) y

set_option maxHeartbeats 4000000 in
/-- The first pass: the output's buffer is not touched; the two slabs are stored. -/
theorem sound_kernel1_P (c : Dev nD) (E : Set ℕ) (i : grid1.Coords) (hP : condP i) (hQ : ¬condQ i) (hR : ¬condR i)
    (arg2 : Memref sig .tc .vmem S400x10000 .bf16) (harg2 : arg2.IsWhole) (arg3 : Memref sig .tc .vmem S10000x128 .bf16) (harg3 : arg3.IsWhole)
    (arg4 : Memref sig .tc .vmem S400x128 .bf16) (harg4 : arg4.IsWhole) (arg5 : Memref sig .tc .vmem S1x128 .f32) (harg5 : arg5.IsWhole)
    (arg6 : Memref sig .tc .vmem S128x128 .f32) (harg6 : arg6.IsWhole) (arg7 : Memref sig .tc .vmem S128x128 .f32) (harg7 : arg7.IsWhole)
    (arg8 : Memref sig .tc .vmem S128x128 .f32) (harg8 : arg8.IsWhole) (arg9 : Memref sig .tc .vmem S128x128 .f32) (harg9 : arg9.IsWhole)
    (arg10 : Memref sig .tc .vmem S1x128 .f32) (harg10 : arg10.IsWhole) (arg11 : Memref sig .tc .vmem S1x128 .f32) (harg11 : arg11.IsWhole)
    (arg12 : Memref sig .tc .vmem S400x4 .f32) (harg12 : arg12.IsWhole) (arg13 : Memref sig .tc .vmem S10000x128 .f32) (harg13 : arg13.IsWhole)
    (arg14 : Memref sig .tc .vmem S10000x128 .f32) (harg14 : arg14.IsWhole) (arg15 : Memref sig .tc .vmem S10000x128 .bf16) (harg15 : arg15.IsWhole)
    (a : Vec F S400x10000 .bf16) (s2 : Vec F S10000x128 .bf16) (x1b : Vec F S400x128 .bf16) (b2 : Vec F S1x128 .f32) (w3 : Vec F S128x128 .f32)
    (lw1 : Vec F S128x128 .f32) (lw2 : Vec F S128x128 .f32) (lw3 : Vec F S128x128 .f32) (b3 : Vec F S1x128 .f32) (lb : Vec F S1x128 .f32) (o12 : Vec F S400x4 .f32) (g13 g14 : Vec F S10000x128 .f32) (g15 : Vec F S10000x128 .bf16) (K : PUnit → sProp 𝕄) :
    iprop(owns (c : Thread nD τ) arg2 fullShare a ∗ owns (c : Thread nD τ) arg3 fullShare s2 ∗ owns (c : Thread nD τ) arg4 fullShare x1b
        ∗ owns (c : Thread nD τ) arg5 fullShare b2 ∗ owns (c : Thread nD τ) arg6 fullShare w3 ∗ owns (c : Thread nD τ) arg7 fullShare lw1
        ∗ owns (c : Thread nD τ) arg8 fullShare lw2 ∗ owns (c : Thread nD τ) arg9 fullShare lw3 ∗ owns (c : Thread nD τ) arg10 fullShare b3
        ∗ owns (c : Thread nD τ) arg11 fullShare lb
        ∗ owns (c : Thread nD τ) arg12 fullShare o12 ∗ owns (c : Thread nD τ) arg13 fullShare g13 ∗ owns (c : Thread nD τ) arg14 fullShare g14 ∗ owns (c : Thread nD τ) arg15 fullShare g15
        ∗ (iprop(owns (c : Thread nD τ) arg2 fullShare a ∗ owns (c : Thread nD τ) arg3 fullShare s2 ∗ owns (c : Thread nD τ) arg4 fullShare x1b
        ∗ owns (c : Thread nD τ) arg5 fullShare b2 ∗ owns (c : Thread nD τ) arg6 fullShare w3 ∗ owns (c : Thread nD τ) arg7 fullShare lw1
        ∗ owns (c : Thread nD τ) arg8 fullShare lw2 ∗ owns (c : Thread nD τ) arg9 fullShare lw3 ∗ owns (c : Thread nD τ) arg10 fullShare b3
        ∗ owns (c : Thread nD τ) arg11 fullShare lb
            ∗ owns (c : Thread nD τ) arg12 fullShare o12
            ∗ (∃ g13', owns (c : Thread nD τ) arg13 fullShare g13' ∗ ⌜SlabUpd g13 g13' (400 * (i 1).val) (payT3 a s2 b2 w3 lw3)⌝)
            ∗ (∃ g14', owns (c : Thread nD τ) arg14 fullShare g14' ∗ ⌜SlabUpd g14 g14' (400 * (i 1).val) (payP12 a s2 x1b b2 lw1 lw2)⌝)
            ∗ owns (c : Thread nD τ) arg15 fullShare g15) -∗ K ⟨⟩))
      ⊢ wp frame (wpE (defs₀ (F := F)) Variants.none c none) E (cc1__p23_body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__p23_body_eq_skeleton]; unfold cc1__p23_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  subst hf2; subst hf3; subst hf4; subst hf5; subst hf6; subst hf7; subst hf8; subst hf9; subst hf10; subst hf11; subst hf12; subst hf13; subst hf14; subst hf15
  sl_exec (disch := first | exact hP | exact hQ | exact hR)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitl [H13]
    · iexists _; isplitr
      swap; · iexact H13
      ipureintro; rfl
    ipureintro
    exact ⟨fun y x h0 h1 => View.read_writes_cons_rows_of_mem arg13.view f13 _ _ [] y x (k1_off1_eq i) h0 h1,
      fun y h => View.read_writes_cons_rows_of_not_mem arg13.view f13 _ _ [] y (k1_off1_eq i) rfl h⟩
  isplitl [H14]
  · iexists _; isplitl [H14]
    · iexists _; isplitr
      swap; · iexact H14
      ipureintro; rfl
    ipureintro
    exact ⟨fun y x h0 h1 => View.read_writes_cons_rows_of_mem arg14.view f14 _ _ [] y x (k1_off1_eq i) h0 h1,
      fun y h => View.read_writes_cons_rows_of_not_mem arg14.view f14 _ _ [] y (k1_off1_eq i) rfl h⟩
  iexists f15; isplitr; · ipureintro; rfl
  iexact H15

set_option maxHeartbeats 4000000 in
/-- The second pass's first point: `t3` is narrowed whole into the third scratch, then read. -/
theorem sound_kernel1_Q (c : Dev nD) (E : Set ℕ) (i : grid1.Coords) (hP : ¬condP i) (hQ : condQ i) (hR : condR i)
    (arg2 : Memref sig .tc .vmem S400x10000 .bf16) (harg2 : arg2.IsWhole) (arg3 : Memref sig .tc .vmem S10000x128 .bf16) (harg3 : arg3.IsWhole)
    (arg4 : Memref sig .tc .vmem S400x128 .bf16) (harg4 : arg4.IsWhole) (arg5 : Memref sig .tc .vmem S1x128 .f32) (harg5 : arg5.IsWhole)
    (arg6 : Memref sig .tc .vmem S128x128 .f32) (harg6 : arg6.IsWhole) (arg7 : Memref sig .tc .vmem S128x128 .f32) (harg7 : arg7.IsWhole)
    (arg8 : Memref sig .tc .vmem S128x128 .f32) (harg8 : arg8.IsWhole) (arg9 : Memref sig .tc .vmem S128x128 .f32) (harg9 : arg9.IsWhole)
    (arg10 : Memref sig .tc .vmem S1x128 .f32) (harg10 : arg10.IsWhole) (arg11 : Memref sig .tc .vmem S1x128 .f32) (harg11 : arg11.IsWhole)
    (arg12 : Memref sig .tc .vmem S400x4 .f32) (harg12 : arg12.IsWhole) (arg13 : Memref sig .tc .vmem S10000x128 .f32) (harg13 : arg13.IsWhole)
    (arg14 : Memref sig .tc .vmem S10000x128 .f32) (harg14 : arg14.IsWhole) (arg15 : Memref sig .tc .vmem S10000x128 .bf16) (harg15 : arg15.IsWhole)
    (a : Vec F S400x10000 .bf16) (s2 : Vec F S10000x128 .bf16) (x1b : Vec F S400x128 .bf16) (b2 : Vec F S1x128 .f32) (w3 : Vec F S128x128 .f32)
    (lw1 : Vec F S128x128 .f32) (lw2 : Vec F S128x128 .f32) (lw3 : Vec F S128x128 .f32) (b3 : Vec F S1x128 .f32) (lb : Vec F S1x128 .f32) (g13 g14 : Vec F S10000x128 .f32) (K : PUnit → sProp 𝕄) :
    iprop(owns (c : Thread nD τ) arg2 fullShare a ∗ owns (c : Thread nD τ) arg3 fullShare s2 ∗ owns (c : Thread nD τ) arg4 fullShare x1b
        ∗ owns (c : Thread nD τ) arg5 fullShare b2 ∗ owns (c : Thread nD τ) arg6 fullShare w3 ∗ owns (c : Thread nD τ) arg7 fullShare lw1
        ∗ owns (c : Thread nD τ) arg8 fullShare lw2 ∗ owns (c : Thread nD τ) arg9 fullShare lw3 ∗ owns (c : Thread nD τ) arg10 fullShare b3
        ∗ owns (c : Thread nD τ) arg11 fullShare lb
        ∗ (∃ d, owns (c : Thread nD τ) arg12 fullShare d) ∗ owns (c : Thread nD τ) arg13 fullShare g13 ∗ owns (c : Thread nD τ) arg14 fullShare g14 ∗ (∃ d, owns (c : Thread nD τ) arg15 fullShare d)
        ∗ (iprop(owns (c : Thread nD τ) arg2 fullShare a ∗ owns (c : Thread nD τ) arg3 fullShare s2 ∗ owns (c : Thread nD τ) arg4 fullShare x1b
        ∗ owns (c : Thread nD τ) arg5 fullShare b2 ∗ owns (c : Thread nD τ) arg6 fullShare w3 ∗ owns (c : Thread nD τ) arg7 fullShare lw1
        ∗ owns (c : Thread nD τ) arg8 fullShare lw2 ∗ owns (c : Thread nD τ) arg9 fullShare lw3 ∗ owns (c : Thread nD τ) arg10 fullShare b3
        ∗ owns (c : Thread nD τ) arg11 fullShare lb
            ∗ owns (c : Thread nD τ) arg12 fullShare (outO a (outS16 g13) b3 lw3 (slabOf i hR g14) lb)
            ∗ owns (c : Thread nD τ) arg13 fullShare g13 ∗ owns (c : Thread nD τ) arg14 fullShare g14
            ∗ owns (c : Thread nD τ) arg15 fullShare (outS16 g13)) -∗ K ⟨⟩))
      ⊢ wp frame (wpE (defs₀ (F := F)) Variants.none c none) E (cc1__p23_body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__p23_body_eq_skeleton]; unfold cc1__p23_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%d15, %f15, -, H15⟩, Hk⟩
  subst hf2; subst hf3; subst hf4; subst hf5; subst hf6; subst hf7; subst hf8; subst hf9; subst hf10; subst hf11; subst hf13; subst hf14
  sl_exec (disch := first | exact hP | exact hQ | exact hR)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (coverO4 _)).trans ?_
    rw [View.readCov_eq_canon']
    rfl
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (coverX16 _)

set_option maxHeartbeats 4000000 in
/-- The rest of the second pass: the three scratch arrays are only read. -/
theorem sound_kernel1_R (c : Dev nD) (E : Set ℕ) (i : grid1.Coords) (hP : ¬condP i) (hQ : ¬condQ i) (hR : condR i)
    (arg2 : Memref sig .tc .vmem S400x10000 .bf16) (harg2 : arg2.IsWhole) (arg3 : Memref sig .tc .vmem S10000x128 .bf16) (harg3 : arg3.IsWhole)
    (arg4 : Memref sig .tc .vmem S400x128 .bf16) (harg4 : arg4.IsWhole) (arg5 : Memref sig .tc .vmem S1x128 .f32) (harg5 : arg5.IsWhole)
    (arg6 : Memref sig .tc .vmem S128x128 .f32) (harg6 : arg6.IsWhole) (arg7 : Memref sig .tc .vmem S128x128 .f32) (harg7 : arg7.IsWhole)
    (arg8 : Memref sig .tc .vmem S128x128 .f32) (harg8 : arg8.IsWhole) (arg9 : Memref sig .tc .vmem S128x128 .f32) (harg9 : arg9.IsWhole)
    (arg10 : Memref sig .tc .vmem S1x128 .f32) (harg10 : arg10.IsWhole) (arg11 : Memref sig .tc .vmem S1x128 .f32) (harg11 : arg11.IsWhole)
    (arg12 : Memref sig .tc .vmem S400x4 .f32) (harg12 : arg12.IsWhole) (arg13 : Memref sig .tc .vmem S10000x128 .f32) (harg13 : arg13.IsWhole)
    (arg14 : Memref sig .tc .vmem S10000x128 .f32) (harg14 : arg14.IsWhole) (arg15 : Memref sig .tc .vmem S10000x128 .bf16) (harg15 : arg15.IsWhole)
    (a : Vec F S400x10000 .bf16) (s2 : Vec F S10000x128 .bf16) (x1b : Vec F S400x128 .bf16) (b2 : Vec F S1x128 .f32) (w3 : Vec F S128x128 .f32)
    (lw1 : Vec F S128x128 .f32) (lw2 : Vec F S128x128 .f32) (lw3 : Vec F S128x128 .f32) (b3 : Vec F S1x128 .f32) (lb : Vec F S1x128 .f32) (g13 g14 : Vec F S10000x128 .f32) (s16 : Vec F S10000x128 .bf16) (K : PUnit → sProp 𝕄) :
    iprop(owns (c : Thread nD τ) arg2 fullShare a ∗ owns (c : Thread nD τ) arg3 fullShare s2 ∗ owns (c : Thread nD τ) arg4 fullShare x1b
        ∗ owns (c : Thread nD τ) arg5 fullShare b2 ∗ owns (c : Thread nD τ) arg6 fullShare w3 ∗ owns (c : Thread nD τ) arg7 fullShare lw1
        ∗ owns (c : Thread nD τ) arg8 fullShare lw2 ∗ owns (c : Thread nD τ) arg9 fullShare lw3 ∗ owns (c : Thread nD τ) arg10 fullShare b3
        ∗ owns (c : Thread nD τ) arg11 fullShare lb
        ∗ (∃ d, owns (c : Thread nD τ) arg12 fullShare d) ∗ owns (c : Thread nD τ) arg13 fullShare g13 ∗ owns (c : Thread nD τ) arg14 fullShare g14 ∗ owns (c : Thread nD τ) arg15 fullShare s16
        ∗ (iprop(owns (c : Thread nD τ) arg2 fullShare a ∗ owns (c : Thread nD τ) arg3 fullShare s2 ∗ owns (c : Thread nD τ) arg4 fullShare x1b
        ∗ owns (c : Thread nD τ) arg5 fullShare b2 ∗ owns (c : Thread nD τ) arg6 fullShare w3 ∗ owns (c : Thread nD τ) arg7 fullShare lw1
        ∗ owns (c : Thread nD τ) arg8 fullShare lw2 ∗ owns (c : Thread nD τ) arg9 fullShare lw3 ∗ owns (c : Thread nD τ) arg10 fullShare b3
        ∗ owns (c : Thread nD τ) arg11 fullShare lb
            ∗ owns (c : Thread nD τ) arg12 fullShare (outO a s16 b3 lw3 (slabOf i hR g14) lb)
            ∗ owns (c : Thread nD τ) arg13 fullShare g13 ∗ owns (c : Thread nD τ) arg14 fullShare g14
            ∗ owns (c : Thread nD τ) arg15 fullShare s16) -∗ K ⟨⟩))
      ⊢ wp frame (wpE (defs₀ (F := F)) Variants.none c none) E (cc1__p23_body i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__p23_body_eq_skeleton]; unfold cc1__p23_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, Hk⟩
  subst hf2; subst hf3; subst hf4; subst hf5; subst hf6; subst hf7; subst hf8; subst hf9; subst hf10; subst hf11; subst hf13; subst hf14; subst hf15
  sl_exec (disch := first | exact hP | exact hQ | exact hR)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (coverO4 _)
  isplitl [H13]
  · iexists f13; isplitr; · ipureintro; rfl
    iexact H13
  isplitl [H14]
  · iexists f14; isplitr; · ipureintro; rfl
    iexact H14
  iexists f15; isplitr; · ipureintro; rfl
  iexact H15

end Cert.KernelIdeal.Hand

end
-- ==== Proof.KI.Frame1.lean ====
/-
  The second kernel as a pipeline: its proof data and its body obligation, at the contents `V` the region is
  entered with.

  The grid's 50 points are two passes over the 25 row blocks: point `t < 25` is block `t` of the first pass, point
  `25 + i` block `i` of the second. The first pass fills the scratch arrays `t3` and `p12` slab by slab, so after
  `n` points their rows below `400·n` are known — the blocks `T3blk`, `P12blk` of the entry arrays — and the rest is
  not. After the whole pass both are known everywhere: `T3full`, `P12full`. The second pass narrows `t3` once
  (`S16`) and stores, per point, the output block as a function of the entry arrays alone (`OutBlk`). The output
  window is idle through the first pass and is not written back there. The region invariant says exactly this of
  the three scratch arrays, beside every other scoped buffer at anything.
-/
import proofs.«143550_g111669150054_cont_sun_m_211_32_alg».proof.Proof.Gen.KernelIdeal.Launch
import proofs.«143550_g111669150054_cont_sun_m_211_32_alg».proof.Proof.Gen.KernelIdeal.Skeleton
import proofs.«143550_g111669150054_cont_sun_m_211_32_alg».proof.Proof.Gen.KernelIdeal.Points
import proofs.«143550_g111669150054_cont_sun_m_211_32_alg».proof.Proof.KI.Body1
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- The three scratch operands: whole scoped buffers of the kernel's own. -/
abbrev sc13 : Memref sig .tc .vmem S10000x128 .f32 := Memref.whole cc1_scratch0
abbrev sc14 : Memref sig .tc .vmem S10000x128 .f32 := Memref.whole cc1_scratch1
abbrev sc15 : Memref sig .tc .vmem S10000x128 .bf16 := Memref.whole cc1_scratch2

/-! ## The body's conditions and the output window's idle points, decided over the grid -/

theorem hcondP : ∀ t : Fin cfg1.N, condP (grid1.coords t) ↔ t.val < 25 :=
  (by decide +kernel : ∀ t : Fin grid1.N, condP (grid1.coords t) ↔ t.val < 25)
theorem hcondQ : ∀ t : Fin cfg1.N, condQ (grid1.coords t) ↔ t.val = 25 :=
  (by decide +kernel : ∀ t : Fin grid1.N, condQ (grid1.coords t) ↔ t.val = 25)
theorem hcondR : ∀ t : Fin cfg1.N, condR (grid1.coords t) ↔ 25 ≤ t.val :=
  (by decide +kernel : ∀ t : Fin grid1.N, condR (grid1.coords t) ↔ 25 ≤ t.val)
/-- The row block of a point. -/
theorem hcoord1 : ∀ t : Fin cfg1.N, ((grid1.coords t) 1).val = t.val % 25 :=
  (by decide +kernel : ∀ t : Fin grid1.N, ((grid1.coords t) 1).val = t.val % 25)
theorem idleAt1_10 : ∀ t : Fin cfg1.N, ¬condR (grid1.coords t) → cfg1.idle 10 (grid1.coords t) = true := by decide +kernel
theorem noFlush1_10 : ∀ t : Fin cfg1.N, ¬condR (grid1.coords t) → (cfg1.win 10).flush t = false := by decide +kernel
theorem liveAt1_10 : ∀ t : Fin cfg1.N, condR (grid1.coords t) → cfg1.idle 10 (grid1.coords t) = false := by decide +kernel

/-! ## What the scratch arrays hold, as functions of the entry arrays -/

/-- The block point `t` of the first pass stores into `t3`, -/
def T3blk (c : Dev nD) (t : Fin cfg1.N) : Vec F S400x128 .f32 :=
  payT3 (iblk1 V c 0 t) (iblk1 V c 1 t) (iblk1 V c 3 t) (iblk1 V c 4 t) (iblk1 V c 7 t)
/-- and into `p12`. -/
def P12blk (c : Dev nD) (t : Fin cfg1.N) : Vec F S400x128 .f32 :=
  payP12 (iblk1 V c 0 t) (iblk1 V c 1 t) (iblk1 V c 2 t) (iblk1 V c 3 t) (iblk1 V c 5 t) (iblk1 V c 6 t)

/-- The point of the first pass whose slab holds row `y 0`, -/
def ptOf (y : S10000x128.Idx) : Fin cfg1.N :=
  ⟨(y (0 : Fin 2)).val / 400, by
    have h : (y (0 : Fin 2)).val < 10000 := (y (0 : Fin 2)).isLt
    have hN : cfg1.N = 50 := N_1
    omega⟩
/-- and the index's position inside that slab. -/
def locOf (y : S10000x128.Idx) : S400x128.Idx :=
  ValueIdx.ix2 (⟨(y (0 : Fin 2)).val % 400, Nat.mod_lt _ (by norm_num)⟩ : Fin 400) (⟨(y (1 : Fin 2)).val, (y (1 : Fin 2)).isLt⟩ : Fin 128)

/-- `t3` after the first pass, `p12` after the first pass, and `t3` narrowed. -/
def T3full (c : Dev nD) : Vec F S10000x128 .f32 := fun y => T3blk V c (ptOf y) (locOf y)
def P12full (c : Dev nD) : Vec F S10000x128 .f32 := fun y => P12blk V c (ptOf y) (locOf y)
def S16 (c : Dev nD) : Vec F S10000x128 .bf16 := outS16 (T3full V c)

/-- What is known of the three scratch arrays before position `k`. -/
def Inv1 (c : Dev nD) (k : ℕ) (g13 g14 : Vec F S10000x128 .f32) (g15 : Vec F S10000x128 .bf16) : Prop :=
  (∀ y : S10000x128.Idx, (y (0 : Fin 2)).val < 400 * k → g13 y = T3full V c y ∧ g14 y = P12full V c y) ∧ (26 ≤ k → g15 = S16 V c)

/-- The output block of a point of the second pass (nothing is stored at a point of the first). -/
def OutBlk (c : Dev nD) (t : Fin cfg1.N) : Vec F S400x4 .f32 :=
  if hR : condR (grid1.coords t) then
    outO (iblk1 V c 0 t) (S16 V c) (iblk1 V c 8 t) (iblk1 V c 7 t) (slabOf (grid1.coords t) hR (P12full V c)) (iblk1 V c 9 t)
  else View.canon []

theorem inv_zero (c : Dev nD) (g13 g14 : Vec F S10000x128 .f32) (g15 : Vec F S10000x128 .bf16) : Inv1 V c 0 g13 g14 g15 :=
  ⟨fun y hy => absurd hy (by omega), fun h => absurd h (by omega)⟩

/-- A point of the first pass extends the known rows by its slab. -/
theorem inv_step_P (c : Dev nD) (t : Fin cfg1.N) (hp : t.val < 25) {g13 g14 g13' g14' : Vec F S10000x128 .f32} {g15 : Vec F S10000x128 .bf16}
    (hinv : Inv1 V c t.val g13 g14 g15)
    (h13 : SlabUpd g13 g13' (400 * ((grid1.coords t) 1).val) (T3blk V c t))
    (h14 : SlabUpd g14 g14' (400 * ((grid1.coords t) 1).val) (P12blk V c t)) :
    Inv1 V c (t.val + 1) g13' g14' g15 := by
  have hi : ((grid1.coords t) 1).val = t.val := by rw [hcoord1 t]; exact Nat.mod_eq_of_lt hp
  rw [hi] at h13 h14
  refine ⟨fun y hy => ?_, fun h => absurd h (by omega)⟩
  by_cases hlt : (y (0 : Fin 2)).val < 400 * t.val
  · rw [h13.2 y (Or.inl hlt), h14.2 y (Or.inl hlt)]; exact hinv.1 y hlt
  · have hpt : ptOf y = t := Fin.ext (by show (y (0 : Fin 2)).val / 400 = t.val; omega)
    have hx0 : (y (0 : Fin 2)).val = 400 * t.val + ((locOf y) (0 : Fin 2)).val := by
      show (y (0 : Fin 2)).val = 400 * t.val + (y (0 : Fin 2)).val % 400; omega
    have hx1 : (y (1 : Fin 2)).val = ((locOf y) (1 : Fin 2)).val := rfl
    rw [h13.1 y (locOf y) hx0 hx1, h14.1 y (locOf y) hx0 hx1]
    unfold T3full P12full; rw [hpt]; exact ⟨rfl, rfl⟩

/-- After the first pass the two arrays are known whole. -/
theorem inv_full (c : Dev nD) {k : ℕ} (hk : 25 ≤ k) {g13 g14 : Vec F S10000x128 .f32} {g15 : Vec F S10000x128 .bf16}
    (hinv : Inv1 V c k g13 g14 g15) : g13 = T3full V c ∧ g14 = P12full V c := by
  have hy : ∀ y : S10000x128.Idx, (y (0 : Fin 2)).val < 400 * k := fun y => by
    have h : (y (0 : Fin 2)).val < 10000 := (y (0 : Fin 2)).isLt
    omega
  exact ⟨funext fun y => (hinv.1 y (hy y)).1, funext fun y => (hinv.1 y (hy y)).2⟩

/-! ## The region invariant -/

/-- Every scoped buffer that is neither a staging buffer of this call nor one of its scratch arrays, at anything. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))
          ∗ restBut1 c) :=
  Pipeline.scopedRest_split_of_list spec1 c [cc1_scratch0, cc1_scratch1, cc1_scratch2] (by decide) (by decide)

/-- The launch's invariant with the scratch arrays as memrefs owned at some contents. -/
theorem PhiA1_eq (c : Dev nD) :
    (Pipeline.ΦA spec1 c : sProp 𝕄)
      = iprop(iprop(iprop((∃ d, owns (c : Thread nD τ) sc13 fullShare d) ∗ (∃ d, owns (c : Thread nD τ) sc14 fullShare d) ∗ (∃ d, owns (c : Thread nD τ) sc15 fullShare d)) ∗ restBut1 c) ∗ (∃ r, prngReg c r)) := by
  unfold Pipeline.ΦA; rw [scopedRest1_split]; simp only [sc13, sc14, sc15, owns_whole]; try rfl

/-- The scratch arrays at contents of which `Inv1 … k` holds, beside the rest. -/
def PhiK (c : Dev nD) (k : ℕ) : sProp 𝕄 :=
  iprop(iprop(iprop(∃ g13 g14 g15, owns (c : Thread nD τ) sc13 fullShare g13 ∗ owns (c : Thread nD τ) sc14 fullShare g14 ∗ owns (c : Thread nD τ) sc15 fullShare g15 ∗ ⌜Inv1 V c k g13 g14 g15⌝) ∗ restBut1 c) ∗ (∃ r, prngReg c r))

/-- The region invariant before position `n`: the launch's before the first point, then `PhiK`. -/
def Phi1 (c : Dev nD) : ℕ → sProp 𝕄
  | 0 => Pipeline.ΦA spec1 c
  | n + 1 => PhiK V c (n + 1)

/-- Before any position the invariant gives the scratch arrays at contents of which `Inv1` holds. -/
theorem Phi1_to_K (c : Dev nD) (n : ℕ) : Phi1 V c n ⊢ PhiK V c n := by
  cases n with
  | zero =>
    rw [show Phi1 V c 0 = Pipeline.ΦA spec1 c from rfl, PhiA1_eq]; unfold PhiK
    iintro ⟨⟨⟨⟨%d13, H13⟩, ⟨%d14, H14⟩, ⟨%d15, H15⟩⟩, Hrest⟩, Hg⟩
    isplitl [H13 H14 H15 Hrest]
    · isplitl [H13 H14 H15]
      · iexists d13, d14, d15
        isplitl [H13]; · iexact H13
        isplitl [H14]; · iexact H14
        isplitl [H15]; · iexact H15
        ipureintro; exact inv_zero V c d13 d14 d15
      iexact Hrest
    iexact Hg
  | succ n => exact Idealize.SL.BI.Entails.refl _

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => OutBlk V c t
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = OutBlk V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns: the output window's buffer as it was found at a point of the first pass. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ (dat1 V c).leavesExact 10 t)

set_option maxHeartbeats 8000000 in
/-- The body at any point, by its three cases. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl,
    after1_0, after1_1, after1_2, after1_3, after1_4, after1_5, after1_6, after1_7, after1_8, after1_9]
  rw [show (dat1 V c).Φ t.succ = PhiK V c (t.val + 1) from rfl,
    show (dat1 V c).Φ t.castSucc = Phi1 V c t.val from rfl]
  refine (sep_mono (Phi1_to_K V c t.val) .rfl).trans ?_
  unfold PhiK
  by_cases hp : t.val < 25
  · have hP : condP (grid1.coords t) := (hcondP t).mpr hp
    have hQ : ¬condQ (grid1.coords t) := fun h => by have := (hcondQ t).mp h; omega
    have hR : ¬condR (grid1.coords t) := fun h => by have := (hcondR t).mp h; omega
    rw [Dat.leavesExact_idle (dat1 V c) 10 t (idleAt1_10 t hR) (noFlush1_10 t hR)]
    iintro ⟨⟨⟨⟨%g13, %g14, %g15, HS13, HS14, HS15, %hinv⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1_P c Set.univ (grid1.coords t) hP hQ hR _ _ _ _ _ _ _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((dat1 V c).before 10 t d10) g13 g14 g15 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS13]; · iexact HS13
    isplitl [HS14]; · iexact HS14
    isplitl [HS15]; · iexact HS15
    iintro ⟨H0, H1, H2, H3, H4, H5, H6, H7, H8, H9, H10, ⟨%g13', HS13, %h13⟩, ⟨%g14', HS14, %h14⟩, HS15⟩
    isplitl [HS13 HS14 HS15 Hrest Hg]
    · isplitl [HS13 HS14 HS15 Hrest]
      · isplitl [HS13 HS14 HS15]
        · iexists g13', g14', g15
          isplitl [HS13]; · iexact HS13
          isplitl [HS14]; · iexact HS14
          isplitl [HS15]; · iexact HS15
          ipureintro; exact inv_step_P V c t hp hinv h13 h14
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · have hP : ¬condP (grid1.coords t) := fun h => hp ((hcondP t).mp h)
    have hR : condR (grid1.coords t) := (hcondR t).mpr (by omega)
    rw [show (dat1 V c).leavesExact 10 t = owns (c : Thread nD τ) (st1_10 t) fullShare ((dat1 V c).after 10 t) from by
      unfold Dat.leavesExact; rw [liveAt1_10 t hR], after1_10]
    rw [show OutBlk V c t = outO (iblk1 V c 0 t) (S16 V c) (iblk1 V c 8 t) (iblk1 V c 7 t) (slabOf (grid1.coords t) hR (P12full V c)) (iblk1 V c 9 t) from dif_pos hR]
    by_cases hq : t.val = 25
    · have hQ : condQ (grid1.coords t) := (hcondQ t).mpr hq
      iintro ⟨⟨⟨⟨%g13, %g14, %g15, HS13, HS14, HS15, %hinv⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      obtain ⟨rfl, rfl⟩ := inv_full V c (by omega : 25 ≤ t.val) hinv
      iapply (sound_kernel1_Q c Set.univ (grid1.coords t) hP hQ hR _ _ _ _ _ _ _ _ _ _ _ _ _ _ _ _ _ _ _ _ _ _ _ _ _ _ _ _
        (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (T3full V c) (P12full V c) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS13]; · iexact HS13
      isplitl [HS14]; · iexact HS14
      isplitl [HS15]; · iexists _; iexact HS15
      iintro ⟨H0, H1, H2, H3, H4, H5, H6, H7, H8, H9, H10, HS13, HS14, HS15⟩
      isplitl [HS13 HS14 HS15 Hrest Hg]
      · isplitl [HS13 HS14 HS15 Hrest]
        · isplitl [HS13 HS14 HS15]
          · iexists (T3full V c), (P12full V c), (S16 V c)
            isplitl [HS13]; · iexact HS13
            isplitl [HS14]; · iexact HS14
            isplitl [HS15]; · iexact HS15
            ipureintro; exact ⟨fun y _ => ⟨rfl, rfl⟩, fun _ => rfl⟩
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hQ : ¬condQ (grid1.coords t) := fun h => hq ((hcondQ t).mp h)
      iintro ⟨⟨⟨⟨%g13, %g14, %g15, HS13, HS14, HS15, %hinv⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      obtain ⟨rfl, rfl⟩ := inv_full V c (by omega : 25 ≤ t.val) hinv
      obtain rfl : g15 = S16 V c := hinv.2 (by omega)
      iapply (sound_kernel1_R c Set.univ (grid1.coords t) hP hQ hR _ _ _ _ _ _ _ _ _ _ _ _ _ _ _ _ _ _ _ _ _ _ _ _ _ _ _ _
        (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (T3full V c) (P12full V c) (S16 V c) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS13]; · iexact HS13
      isplitl [HS14]; · iexact HS14
      isplitl [HS15]; · iexact HS15
      iintro ⟨H0, H1, H2, H3, H4, H5, H6, H7, H8, H9, H10, HS13, HS14, HS15⟩
      isplitl [HS13 HS14 HS15 Hrest Hg]
      · isplitl [HS13 HS14 HS15 Hrest]
        · isplitl [HS13 HS14 HS15]
          · iexists (T3full V c), (P12full V c), (S16 V c)
            isplitl [HS13]; · iexact HS13
            isplitl [HS14]; · iexact HS14
            isplitl [HS15]; · iexact HS15
            ipureintro; exact ⟨fun y _ => ⟨rfl, rfl⟩, fun _ => rfl⟩
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := Idealize.SL.BI.Entails.refl _

/-- After the last point the invariant gives the launch's back: what the scratch arrays hold is forgotten. -/
theorem hout1 (c : Dev nD) : (dat1 V c).Φ (Fin.last cfg1.N) ⊢ Pipeline.ΦA spec1 c := by
  have h : (dat1 V c).Φ (Fin.last cfg1.N) ⊢ PhiK V c (Fin.last cfg1.N).val := by
    rw [show (dat1 V c).Φ (Fin.last cfg1.N) = Phi1 V c (Fin.last cfg1.N).val from rfl]
    exact Phi1_to_K V c _
  refine h.trans ?_
  rw [PhiA1_eq]; unfold PhiK
  iintro ⟨⟨⟨%g13, %g14, %g15, HS13, HS14, HS15, -⟩, Hrest⟩, Hg⟩
  isplitl [HS13 HS14 HS15 Hrest]
  · isplitl [HS13 HS14 HS15]
    · isplitl [HS13]; · iexists _; iexact HS13
      isplitl [HS14]; · iexists _; iexact HS14
      iexists _; iexact HS15
    iexact Hrest
  iexact Hg

end Region1

end Cert.KernelIdeal.Hand

end
-- ==== Proof.KI.Frame.lean ====
/-
  The two kernels put together: the buffers' contents at each boundary of the program, the proof data of both
  pipelines, each region as a segment of the program entered from every unscoped buffer at the boundary's contents,
  and the frame: every execution terminates and the argument arrays end as launched.

  The first region changes three arrays (its outputs: the first hidden layer, that layer times W2, and the narrowed
  adjacency matrix); the second changes one (the result). What each leaves there is what its pipeline's write-backs
  leave (`Dat.arrAt … N`); every other buffer is as the region found it.
-/
import proofs.«143550_g111669150054_cont_sun_m_211_32_alg».proof.Proof.Gen.KernelIdeal.Launch
import proofs.«143550_g111669150054_cont_sun_m_211_32_alg».proof.Proof.Gen.KernelIdeal.Skeleton
import proofs.«143550_g111669150054_cont_sun_m_211_32_alg».proof.Proof.Gen.KernelIdeal.Points
import proofs.«143550_g111669150054_cont_sun_m_211_32_alg».proof.Proof.KI.Frame0
import proofs.«143550_g111669150054_cont_sun_m_211_32_alg».proof.Proof.KI.Frame1
import proofs.«143550_g111669150054_cont_sun_m_211_32_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ) (ρ : Dev nD → PrngReg)

/-! ## The contents at the regions' boundaries -/

/-- What the first region is entered with, read at the TensorCore's references. -/
abbrev E0 : (c : Dev nD) → (b : Ref sig .tc) → Buf (Elt F) ((c : Thread nD τ).loc b) := fun c b => V9 m c b
/-- The buffers after the first region: its arrays at what the pipeline leaves. -/
def X0 (c : Dev nD) : Valuation τ sig (Elt F) :=
  Pipeline.withArrays spec0 c (V9 m c) fun w => (dat0 (E0 m) c).arrAt w cfg0.N
/-- The first region's outputs, as the unknowns of the generated boundary contents. -/
def outsA : Outs (F := F) := fun _ r c => X0 m c r
/-- What the second region is entered with. -/
abbrev E1 : (c : Dev nD) → (b : Ref sig .tc) → Buf (Elt F) ((c : Thread nD τ).loc b) := fun c b => V10 m (outsA m) c b
/-- The buffers after the second region. -/
def X1 (c : Dev nD) : Valuation τ sig (Elt F) :=
  Pipeline.withArrays spec1 c (V10 m (outsA m) c) fun w => (dat1 (E1 m) c).arrAt w cfg1.N
/-- Both regions' outputs. -/
def outs : Outs (F := F) := fun J r c => match J with
  | 10 => X0 m c r
  | _ => X1 m c r

theorem V10_outs (c : Dev nD) : V10 m (outs m) c = V10 m (outsA m) c := rfl

theorem V10_v11_0 (c : Dev nD) : V10 m (outs m) c main_v11_0 = X0 m c main_v11_0 := by
  simp only [V10, Function.update_of_ne (StableHlo.devRef_ne_of_ne (by decide) : (Proc.devRef .tc main_v11_0 : DevRef τ sig) ≠ Proc.devRef .tc main_v11_2),
    Function.update_of_ne (StableHlo.devRef_ne_of_ne (by decide) : (Proc.devRef .tc main_v11_0 : DevRef τ sig) ≠ Proc.devRef .tc main_v11_1), Function.update_self]
  rfl
theorem V10_v11_1 (c : Dev nD) : V10 m (outs m) c main_v11_1 = X0 m c main_v11_1 := by
  simp only [V10, Function.update_of_ne (StableHlo.devRef_ne_of_ne (by decide) : (Proc.devRef .tc main_v11_1 : DevRef τ sig) ≠ Proc.devRef .tc main_v11_2), Function.update_self]
  rfl
theorem V10_v11_2 (c : Dev nD) : V10 m (outs m) c main_v11_2 = X0 m c main_v11_2 := by
  simp only [V10, Function.update_self]
  rfl
theorem V11_v12 (c : Dev nD) : V11 m (outs m) c main_v12 = X1 m c main_v12 := by
  simp only [V11, Function.update_self]
  rfl

theorem X0_arr (c : Dev nD) (w : Fin cfg0.W) : X0 m c (Proc.devRef .tc (Pipeline.arrRef spec0 w)) = (dat0 (E0 m) c).arrAt w cfg0.N := by
  unfold X0; exact Pipeline.withArrays_arr spec0 launch0.win.arr_inj c _ _ w
theorem X1_arr (c : Dev nD) (w : Fin cfg1.W) : X1 m c (Proc.devRef .tc (Pipeline.arrRef spec1 w)) = (dat1 (E1 m) c).arrAt w cfg1.N := by
  unfold X1; exact Pipeline.withArrays_arr spec1 launch1.win.arr_inj c _ _ w

set_option maxHeartbeats 4000000 in
/-- After the first region each of its arrays holds what the pipeline leaves, -/
theorem hF0 (c : Dev nD) (w : Fin cfg0.W) : (dat0 (E0 m) c).arrAt w cfg0.N = V10 m (outs m) c (Pipeline.arrRef spec0 w) :=
  match w with
  | ⟨0, _⟩ => (((dat0 (E0 m) c).arrAt_in 0 rfl _).trans (A_eq0 (E0 m) c 0)).trans (V10_of m (outs m) c main_arg0 (by decide)).symm
  | ⟨1, _⟩ => (((dat0 (E0 m) c).arrAt_in 1 rfl _).trans (A_eq0 (E0 m) c 1)).trans (V10_of m (outs m) c main_arg1 (by decide)).symm
  | ⟨2, _⟩ => (((dat0 (E0 m) c).arrAt_in 2 rfl _).trans (A_eq0 (E0 m) c 2)).trans (V10_of m (outs m) c main_arg2 (by decide)).symm
  | ⟨3, _⟩ => (((dat0 (E0 m) c).arrAt_in 3 rfl _).trans (A_eq0 (E0 m) c 3)).trans (V10_of m (outs m) c main_v8 (by decide)).symm
  | ⟨4, _⟩ => (((dat0 (E0 m) c).arrAt_in 4 rfl _).trans (A_eq0 (E0 m) c 4)).trans (V10_of m (outs m) c main_arg4 (by decide)).symm
  | ⟨5, _⟩ => (X0_arr m c 5).symm.trans (V10_v11_0 m c).symm
  | ⟨6, _⟩ => (X0_arr m c 6).symm.trans (V10_v11_1 m c).symm
  | ⟨7, _⟩ => (X0_arr m c 7).symm.trans (V10_v11_2 m c).symm
/-- and every other buffer what it held at entry. -/
theorem hrest0 (c : Dev nD) : ∀ b, b ∉ Finset.univ.image (Pipeline.arrRef spec0) → V10 m (outs m) c b = V9 m c b :=
  fun b hb => V10_of m (outs m) c b fun hmem => by
    simp only [List.mem_cons, List.mem_nil_iff, or_false] at hmem
    rcases hmem with rfl | rfl | rfl
    · exact hb (Finset.mem_image.mpr ⟨5, Finset.mem_univ _, rfl⟩)
    · exact hb (Finset.mem_image.mpr ⟨6, Finset.mem_univ _, rfl⟩)
    · exact hb (Finset.mem_image.mpr ⟨7, Finset.mem_univ _, rfl⟩)

set_option maxHeartbeats 4000000 in
/-- After the second region each of its arrays holds what the pipeline leaves, -/
theorem hF1 (c : Dev nD) (w : Fin cfg1.W) : (dat1 (E1 m) c).arrAt w cfg1.N = V11 m (outs m) c (Pipeline.arrRef spec1 w) :=
  match w with
  | ⟨0, _⟩ => (((dat1 (E1 m) c).arrAt_in 0 rfl _).trans (A_eq1 (E1 m) c 0)).trans (V11_of m (outs m) c main_v11_2 (by decide)).symm
  | ⟨1, _⟩ => (((dat1 (E1 m) c).arrAt_in 1 rfl _).trans (A_eq1 (E1 m) c 1)).trans (V11_of m (outs m) c main_v11_1 (by decide)).symm
  | ⟨2, _⟩ => (((dat1 (E1 m) c).arrAt_in 2 rfl _).trans (A_eq1 (E1 m) c 2)).trans (V11_of m (outs m) c main_v11_0 (by decide)).symm
  | ⟨3, _⟩ => (((dat1 (E1 m) c).arrAt_in 3 rfl _).trans (A_eq1 (E1 m) c 3)).trans (V11_of m (outs m) c main_v9 (by decide)).symm
  | ⟨4, _⟩ => (((dat1 (E1 m) c).arrAt_in 4 rfl _).trans (A_eq1 (E1 m) c 4)).trans (V11_of m (outs m) c main_arg6 (by decide)).symm
  | ⟨5, _⟩ => (((dat1 (E1 m) c).arrAt_in 5 rfl _).trans (A_eq1 (E1 m) c 5)).trans (V11_of m (outs m) c main_v1 (by decide)).symm
  | ⟨6, _⟩ => (((dat1 (E1 m) c).arrAt_in 6 rfl _).trans (A_eq1 (E1 m) c 6)).trans (V11_of m (outs m) c main_v3 (by decide)).symm
  | ⟨7, _⟩ => (((dat1 (E1 m) c).arrAt_in 7 rfl _).trans (A_eq1 (E1 m) c 7)).trans (V11_of m (outs m) c main_v5 (by decide)).symm
  | ⟨8, _⟩ => (((dat1 (E1 m) c).arrAt_in 8 rfl _).trans (A_eq1 (E1 m) c 8)).trans (V11_of m (outs m) c main_v10 (by decide)).symm
  | ⟨9, _⟩ => (((dat1 (E1 m) c).arrAt_in 9 rfl _).trans (A_eq1 (E1 m) c 9)).trans (V11_of m (outs m) c main_v7 (by decide)).symm
  | ⟨10, _⟩ => (X1_arr m c 10).symm.trans (V11_v12 m c).symm
/-- and every other buffer what it held at entry. -/
theorem hrest1 (c : Dev nD) : ∀ b, b ∉ Finset.univ.image (Pipeline.arrRef spec1) → V11 m (outs m) c b = V10 m (outsA m) c b :=
  fun b hb => V11_of m (outs m) c b fun hmem => by
    simp only [List.mem_cons, List.mem_nil_iff, or_false] at hmem
    subst hmem
    exact hb (Finset.mem_image.mpr ⟨10, Finset.mem_univ _, rfl⟩)

/-! ## The proof data family and the thread state -/

/-- Both pipelines' proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev Rr (c : Dev nD) : sProp 𝕄 := iprop((∃ r, prngReg c r) ∗ ∃ W, owes (c : Thread nD τ) (0 : CellTallies nD τ sig Unit) W)

/-! ## The regions as segments -/

set_option backward.isDefEq.respectTransparency.types false in
/-- The first region: entered from every unscoped buffer at the contents after the host operations, left with its
    three output arrays at what the pipeline leaves. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V9 m c) ∗ Rr c)
  post c := iprop(StableHlo.held (c : Thread nD τ) (Pipeline.ucRefs τ sig) (V10 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => (V10 m (outs m) c) b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from there, left with the result array at what the pipeline leaves. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V10 m (outsA m) c) ∗ Rr c)
  post c := iprop(StableHlo.held (c : Thread nD τ) (Pipeline.ucRefs τ sig) (V11 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => (V11 m (outs m) c) b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄))) ∗ levAts L lv)
    ⊢ (|={Set.univ}=> bigSep Finset.univ (fun c : Dev nD => Rr (F := F) c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : Rr (F := F) c ⊢ (iprop(∃ W, owes (c : Thread nD τ) (0 : CellTallies nD τ sig Unit) W) : sProp 𝕄) := by
  iintro ⟨-, HO⟩; iexact HO

set_option backward.isDefEq.respectTransparency.types false in
/-- THE FRAME: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m emb₁ () 𝒱₀ L lv (fun _ _ => rfl) ρ (outs m) (pdats m) (fun _ => 0) (fun _ => (BI.emp : sProp 𝕄))
    (initOf (Pipeline.cells cfgs cellOf_inj) (Pipeline.launchToks cfgs cellOf_inj)) hu₀
    (fun _ c => Rr c) (hE0 ρ) hE2
    (reg0 m) (fun _ => .rfl) (fun _ => .rfl) (reg1 m) (fun c => by rw [V10_outs m c]; exact .rfl) (fun _ => .rfl)

end Cert.KernelIdeal.Hand

end
-- ==== Proof.KI.Run.lean ====
/-
  The idealized kernel's run with its result named: every weakly fair execution terminates, nothing faulting, the
  result array ends at what the second pipeline's write-backs leave in it, and the argument arrays end as launched.
  The program is run as its eleven segments — nine stretches of host operations and the two regions — each entered
  from what the one before left; at the end every unscoped buffer is read against the final memory.
-/
import proofs.«143550_g111669150054_cont_sun_m_211_32_alg».proof.Proof.Gen.KernelIdeal.Launch
import proofs.«143550_g111669150054_cont_sun_m_211_32_alg».proof.Proof.Gen.KernelIdeal.Skeleton
import proofs.«143550_g111669150054_cont_sun_m_211_32_alg».proof.Proof.Gen.KernelIdeal.Points
import proofs.«143550_g111669150054_cont_sun_m_211_32_alg».proof.Proof.KI.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

set_option backward.isDefEq.respectTransparency.types false in
set_option maxHeartbeats 4000000 in
theorem run_main : θ_run defs (onTc (τ := τ) (main (F := F))) ⟨m, fun _ => 0, ρ⟩ (fun r => ∀ c : Dev nD,
      r.2.mem ((c.tc : Thread nD τ).loc main_v12) = X1 m c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m) () cellOf_inj emb₁ defs₀ 𝒱₀ L lv m ρ main
    (segs m 𝒱₀ L lv (fun _ c => Rr c) () (pdats m) (reg0 m) (reg1 m))
    (fun c Q => by
      rewrite [main_chain c, Seg.run_eq_chain,
        show (segs m 𝒱₀ L lv (fun _ c => Rr c) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()) ] from rfl]
      exact .rfl)
    (fun c => by simp only [segs, Seg.pipes_host, Seg.pipes_region, Seg.pipes_nil]; decide) (fun _ => 0) (fun _ _ => rfl)
    (fun _ => (BI.emp : sProp 𝕄)) (initOf (Pipeline.cells cfgs cellOf_inj) (Pipeline.launchToks cfgs cellOf_inj)) hu₀
    (T₀ := fun c => iprop(StableHlo.held (c : Thread nD τ) (Pipeline.ucRefs τ sig) (V0 m c) ∗ Rr c))
    (Tₙ := fun c => StableHlo.held (c : Thread nD τ) (Pipeline.ucRefs τ sig) (V11 m (outs m) c))
    (hch := fun c => ⟨.rfl, .rfl, .rfl, .rfl, .rfl, .rfl, .rfl, .rfl, .rfl, .rfl,
      (show (reg0 m).post c ⊢ (reg1 m).pre c from by
        show iprop(StableHlo.held (c : Thread nD τ) (Pipeline.ucRefs τ sig) (V10 m (outs m) c) ∗ Rr c) ⊢ iprop(StableHlo.held (c : Thread nD τ) (Pipeline.ucRefs τ sig) (V10 m (outsA m) c) ∗ Rr c)
        rw [V10_outs m c]),
      (show (reg1 m).post c ⊢ _ from sep_mono .rfl (hE2 c))⟩)
    (hinit := ?_)
    (QY := fun c s => s.mem ((c.tc : Thread nD τ).loc main_v12) = X1 m c main_v12 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    have key : ∀ (T : Dev nD → sProp 𝕄), iprop((bigSep Finset.univ fun c : Dev nD => StableHlo.held (c : Thread nD τ) (Pipeline.ucRefs τ sig) (V0 m c)) ∗ bigSep Finset.univ T)
        ⊢ (bigSep Finset.univ fun c : Dev nD => iprop(StableHlo.held (c : Thread nD τ) (Pipeline.ucRefs τ sig) (V0 m c) ∗ T c) : sProp 𝕄) := fun T => by
      rw [bigSep_sep']
    iapply (key fun c => Rr c)
    isplitl [Hh]; · iexact Hh
    iexact HE
  · unfold StableHlo.held
    iintro ⟨Hh, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro
      exact ⟨(h (Proc.devRef .tc main_v12) (Finset.mem_filter.mpr ⟨StableHlo.devRef_mem_tcRefs main_v12, by decide⟩)).trans (V11_v12 m c),
        (h (Proc.devRef .tc main_arg0) (Finset.mem_filter.mpr ⟨StableHlo.devRef_mem_tcRefs main_arg0, by decide⟩)).trans (V11_main_arg0 m (outs m) c),
        (h (Proc.devRef .tc main_arg1) (Finset.mem_filter.mpr ⟨StableHlo.devRef_mem_tcRefs main_arg1, by decide⟩)).trans (V11_main_arg1 m (outs m) c),
        (h (Proc.devRef .tc main_arg2) (Finset.mem_filter.mpr ⟨StableHlo.devRef_mem_tcRefs main_arg2, by decide⟩)).trans (V11_main_arg2 m (outs m) c),
        (h (Proc.devRef .tc main_arg3) (Finset.mem_filter.mpr ⟨StableHlo.devRef_mem_tcRefs main_arg3, by decide⟩)).trans (V11_main_arg3 m (outs m) c),
        (h (Proc.devRef .tc main_arg4) (Finset.mem_filter.mpr ⟨StableHlo.devRef_mem_tcRefs main_arg4, by decide⟩)).trans (V11_main_arg4 m (outs m) c),
        (h (Proc.devRef .tc main_arg5) (Finset.mem_filter.mpr ⟨StableHlo.devRef_mem_tcRefs main_arg5, by decide⟩)).trans (V11_main_arg5 m (outs m) c),
        (h (Proc.devRef .tc main_arg6) (Finset.mem_filter.mpr ⟨StableHlo.devRef_mem_tcRefs main_arg6, by decide⟩)).trans (V11_main_arg6 m (outs m) c),
        (h (Proc.devRef .tc main_arg7) (Finset.mem_filter.mpr ⟨StableHlo.devRef_mem_tcRefs main_arg7, by decide⟩)).trans (V11_main_arg7 m (outs m) c),
        (h (Proc.devRef .tc main_arg8) (Finset.mem_filter.mpr ⟨StableHlo.devRef_mem_tcRefs main_arg8, by decide⟩)).trans (V11_main_arg8 m (outs m) c),
        (h (Proc.devRef .tc main_arg9) (Finset.mem_filter.mpr ⟨StableHlo.devRef_mem_tcRefs main_arg9, by decide⟩)).trans (V11_main_arg9 m (outs m) c)⟩
    · iexact HSI

end Cert.KernelIdeal.Hand

end
-- ==== Proof.KI.Value0.lean ====
/-
  The first kernel's three output arrays, read at a row-and-column index on the extended reals: the first hidden
  layer `x1 = max (adj · (x · W1) + b1) 0`, that layer times W2, and the adjacency matrix itself.

  On the extended reals a change of float format is the identity, and a matrix product into a zero accumulator is
  the plain sum over the contracted position. So each value the body stores, read at row `p` and column `q` of
  its block, is a finite sum (or a maximum of one with zero) of entries of the blocks it loaded. The grid has 25
  points; point `t` loads rows `400·t … 400·t + 399` of the adjacency matrix and the whole of `x`, `W1`, the bias
  row and `W2`, and the scratch holds `x · W1`. Hence row `p` of what point `t` leaves in an output window is row
  `400·t + p` of one whole-array function of the entry arrays, and since row `r` lies in the block of point
  `r / 400` and every point writes its blocks back, each output array ends holding that function.
-/
import proofs.«143550_g111669150054_cont_sun_m_211_32_alg».proof.Proof.KI.Frame0
import proofs.«143550_g111669150054_cont_sun_m_211_32_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Cert.Gcn ValueIdx

/-! ## Each buffer holds its one stored value -/

theorem hz2 : (![0, 0] : Fin 2 → Nat) = fun _ => 0 := funext fun a => by fin_cases a <;> rfl

theorem outS_eq (x : Vec Ideal S10000x128 .f32) (w1 : Vec Ideal S128x128 .f32) : outS x w1 = k0_pay1 x w1 := by
  unfold outS
  rw [View.canon_unit_zero hz2]
  simp only [View.ld_unit_zero (S := S10000x128) hz2, View.ld_unit_zero (S := S128x128) hz2]

theorem outA_eq (a : Vec Ideal S400x10000 .f32) : outA a = k0_pay2 a := by
  unfold outA
  rw [View.canon_unit_zero hz2]
  simp only [View.ld_unit_zero (S := S400x10000) hz2]

theorem outH_eq (a : Vec Ideal S400x10000 .f32) (s : Vec Ideal S10000x128 .f32) (b : Vec Ideal S1x128 .f32) :
    outH a s b = k0_pay4 a s b := by
  unfold outH
  rw [View.canon_unit_zero hz2]
  simp only [View.ld_unit_zero (S := S400x10000) hz2, View.ld_unit_zero (S := S10000x128) hz2,
    View.ld_unit_zero (S := S1x128) hz2]

theorem outP_eq (a : Vec Ideal S400x10000 .f32) (s : Vec Ideal S10000x128 .f32) (b : Vec Ideal S1x128 .f32)
    (w2 : Vec Ideal S128x128 .f32) : outP a s b w2 = k0_pay5 a s b w2 := by
  unfold outP
  rw [View.canon_unit_zero hz2]
  simp only [View.ld_unit_zero (S := S400x10000) hz2, View.ld_unit_zero (S := S10000x128) hz2,
    View.ld_unit_zero (S := S1x128) hz2, View.ld_unit_zero (S := S128x128) hz2]

/-! ## A plain matrix product into a zero accumulator, at a row and a column -/

/-- For dimension numbers that contract the left operand's columns against the right operand's rows, the product
    into the zero accumulator at row `p` and column `q` is the sum over the contracted position. -/
theorem matmul_plain_at {a k b : ℕ} {φ₁ φ₂ : FTy}
    (D : DotDims (⟨2, ![a, k]⟩ : Shape) (⟨2, ![k, b]⟩ : Shape) (⟨2, ![a, b]⟩ : Shape))
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal (⟨2, ![a, k]⟩ : Shape) φ₁) (r : FVec Ideal (⟨2, ![k, b]⟩ : Shape) φ₂) (p : Fin a) (q : Fin b) :
    matmul D none l r (constant (⟨2, ![a, b]⟩ : Shape) .f32 0x00000000#32) (ix2 p q)
      = ∑ j : Fin k, l (ix2 p j) * r (ix2 j q) := by
  refine (Ideal.matmul_constant_zero_apply D none l r (ix2 p q)).trans ?_
  rw [← Equiv.sum_comp (contrEquiv1 D k hr hs).symm]
  refine Finset.sum_congr rfl fun j _ => ?_
  have hj := contrEquiv1_symm_val D k hr hs j
  have el : D.lhsIdx (ix2 p q) ((contrEquiv1 D k hr hs).symm j) = ix2 p j := funext fun x => Fin.ext (by
    match x with
    | ⟨0, _⟩ => exact hl0 _ _
    | ⟨1, _⟩ => exact (hl1 _ _).trans hj)
  have er : D.rhsIdx (ix2 p q) ((contrEquiv1 D k hr hs).symm j) = ix2 j q := funext fun x => Fin.ext (by
    match x with
    | ⟨0, _⟩ => exact (hr0 _ _).trans hj
    | ⟨1, _⟩ => exact hr1 _ _)
  rw [el, er]

/-! ## The kernel's three matrix products -/

theorem mmXW_at {φ₁ φ₂ : FTy} (l : FVec Ideal S10000x128 φ₁) (r : FVec Ideal S128x128 φ₂) (p : Fin 10000) (q : Fin 128) :
    matmul (F := Ideal) dot_S10000x128_S128x128_S10000x128_1_0_0_1_n_n none l r (constant (F := Ideal) S10000x128 .f32 0x00000000#32) (ix2 p q)
      = ∑ j : Fin 128, l (ix2 p j) * r (ix2 j q) :=
  matmul_plain_at dot_S10000x128_S128x128_S10000x128_1_0_0_1_n_n rfl rfl
    (fun i q => by
      unfold DotDims.lhsIdx
      rw [dif_neg (show ¬(0 : Fin S10000x128.rank) ∈ dot_S10000x128_S128x128_S10000x128_1_0_0_1_n_n.lhsBatch by decide),
        dif_pos (show (0 : Fin S10000x128.rank) ∈ dot_S10000x128_S128x128_S10000x128_1_0_0_1_n_n.lhsNonContracting by decide)]
      rfl)
    (fun i q => dot_S10000x128_S128x128_S10000x128_1_0_0_1_n_n.lhsIdx_val_of_single rfl i q)
    (fun i q => dot_S10000x128_S128x128_S10000x128_1_0_0_1_n_n.rhsIdx_val_of_single rfl i q)
    (fun i q => by
      unfold DotDims.rhsIdx
      rw [dif_neg (show ¬(1 : Fin S128x128.rank) ∈ dot_S10000x128_S128x128_S10000x128_1_0_0_1_n_n.rhsBatch by decide),
        dif_pos (show (1 : Fin S128x128.rank) ∈ dot_S10000x128_S128x128_S10000x128_1_0_0_1_n_n.rhsNonContracting by decide)]
      rfl)
    l r p q

theorem mmAS_at {φ₁ φ₂ : FTy} (l : FVec Ideal S400x10000 φ₁) (r : FVec Ideal S10000x128 φ₂) (p : Fin 400) (q : Fin 128) :
    matmul (F := Ideal) dot_S400x10000_S10000x128_S400x128_1_0_0_1_n_n none l r (constant (F := Ideal) S400x128 .f32 0x00000000#32) (ix2 p q)
      = ∑ j : Fin 10000, l (ix2 p j) * r (ix2 j q) :=
  matmul_plain_at dot_S400x10000_S10000x128_S400x128_1_0_0_1_n_n rfl rfl
    (fun i q => by
      unfold DotDims.lhsIdx
      rw [dif_neg (show ¬(0 : Fin S400x10000.rank) ∈ dot_S400x10000_S10000x128_S400x128_1_0_0_1_n_n.lhsBatch by decide),
        dif_pos (show (0 : Fin S400x10000.rank) ∈ dot_S400x10000_S10000x128_S400x128_1_0_0_1_n_n.lhsNonContracting by decide)]
      rfl)
    (fun i q => dot_S400x10000_S10000x128_S400x128_1_0_0_1_n_n.lhsIdx_val_of_single rfl i q)
    (fun i q => dot_S400x10000_S10000x128_S400x128_1_0_0_1_n_n.rhsIdx_val_of_single rfl i q)
    (fun i q => by
      unfold DotDims.rhsIdx
      rw [dif_neg (show ¬(1 : Fin S10000x128.rank) ∈ dot_S400x10000_S10000x128_S400x128_1_0_0_1_n_n.rhsBatch by decide),
        dif_pos (show (1 : Fin S10000x128.rank) ∈ dot_S400x10000_S10000x128_S400x128_1_0_0_1_n_n.rhsNonContracting by decide)]
      rfl)
    l r p q

theorem mmHW_at {φ₁ φ₂ : FTy} (l : FVec Ideal S400x128 φ₁) (r : FVec Ideal S128x128 φ₂) (p : Fin 400) (q : Fin 128) :
    matmul (F := Ideal) dot_S400x128_S128x128_S400x128_1_0_0_1_n_n none l r (constant (F := Ideal) S400x128 .f32 0x00000000#32) (ix2 p q)
      = ∑ j : Fin 128, l (ix2 p j) * r (ix2 j q) :=
  matmul_plain_at dot_S400x128_S128x128_S400x128_1_0_0_1_n_n rfl rfl
    (fun i q => by
      unfold DotDims.lhsIdx
      rw [dif_neg (show ¬(0 : Fin S400x128.rank) ∈ dot_S400x128_S128x128_S400x128_1_0_0_1_n_n.lhsBatch by decide),
        dif_pos (show (0 : Fin S400x128.rank) ∈ dot_S400x128_S128x128_S400x128_1_0_0_1_n_n.lhsNonContracting by decide)]
      rfl)
    (fun i q => dot_S400x128_S128x128_S400x128_1_0_0_1_n_n.lhsIdx_val_of_single rfl i q)
    (fun i q => dot_S400x128_S128x128_S400x128_1_0_0_1_n_n.rhsIdx_val_of_single rfl i q)
    (fun i q => by
      unfold DotDims.rhsIdx
      rw [dif_neg (show ¬(1 : Fin S128x128.rank) ∈ dot_S400x128_S128x128_S400x128_1_0_0_1_n_n.rhsBatch by decide),
        dif_pos (show (1 : Fin S128x128.rank) ∈ dot_S400x128_S128x128_S400x128_1_0_0_1_n_n.rhsNonContracting by decide)]
      rfl)
    l r p q

/-! ## The body's stored values at a row and a column -/

/-- The scratch: `x · W1`. -/
theorem pay1_at (x : Vec Ideal S10000x128 .f32) (w : Vec Ideal S128x128 .f32) (p : Fin 10000) (q : Fin 128) :
    k0_pay1 x w (ix2 p q) = ∑ j : Fin 128, x (ix2 p j) * w (ix2 j q) := by
  unfold k0_pay1
  show shapeCast S10000x128 (matmul (F := Ideal) dot_S10000x128_S128x128_S10000x128_1_0_0_1_n_n none
      (truncf (F := Ideal) .bf16 x bitsLt_bf16_f32) (truncf (F := Ideal) .bf16 w bitsLt_bf16_f32) (constant (F := Ideal) S10000x128 .f32 0x00000000#32))
      shapeCasts_S10000x128_S10000x128 (ix2 p q) = _
  refine (congrFun (shapeCast_self _ shapeCasts_S10000x128_S10000x128) (ix2 p q)).trans ?_
  exact mmXW_at _ _ p q

/-- The narrowed adjacency block is the block. -/
theorem pay2_at (a : Vec Ideal S400x10000 .f32) (j : S400x10000.Idx) : k0_pay2 a j = a j := rfl

/-- The block of the first hidden layer before its narrowing: `max (a · s + b) 0`. -/
theorem pay3_at (a : Vec Ideal S400x10000 .f32) (s : Vec Ideal S10000x128 .f32) (b : Vec Ideal S1x128 .f32)
    (p : Fin 400) (q : Fin 128) :
    k0_pay3 a s b (ix2 p q) = max ((∑ j : Fin 10000, a (ix2 p j) * s (ix2 j q)) + b (ix2 (0 : Fin 1) q)) 0 := by
  unfold k0_pay3
  show max (matmul (F := Ideal) dot_S400x10000_S10000x128_S400x128_1_0_0_1_n_n none (k0_pay2 a) (truncf (F := Ideal) .bf16 s bitsLt_bf16_f32)
        (constant (F := Ideal) S400x128 .f32 0x00000000#32) (ix2 p q)
      + broadcastTo S400x128 (shapeCast S1x128 b shapeCasts_S1x128_S1x128) broadcasts_S1x128_S400x128 (ix2 p q))
      (Ideal.ofBits .f32 0x00000000#32) = _
  have e1 := mmAS_at (k0_pay2 a) (truncf (F := Ideal) .bf16 s bitsLt_bf16_f32) p q
  have e2 : broadcastTo S400x128 (shapeCast S1x128 b shapeCasts_S1x128_S1x128) broadcasts_S1x128_S400x128 (ix2 p q)
      = b (ix2 (0 : Fin 1) q) := by
    refine (broadcastTo_apply _ broadcasts_S1x128_S400x128 (ix2 p q) (ix2 (0 : Fin 1) q) (fun x => ?_)).trans
      (congrFun (shapeCast_self b shapeCasts_S1x128_S1x128) _)
    match x with
    | ⟨0, _⟩ => rfl
    | ⟨1, _⟩ => rfl
  rw [e1, e2, Ideal.ofBits_zero_f32]
  rfl

/-- The stored block of the first hidden layer. -/
theorem pay4_at (a : Vec Ideal S400x10000 .f32) (s : Vec Ideal S10000x128 .f32) (b : Vec Ideal S1x128 .f32)
    (j : S400x128.Idx) : k0_pay4 a s b j = k0_pay3 a s b j := rfl

/-- That block times W2. -/
theorem pay5_at (a : Vec Ideal S400x10000 .f32) (s : Vec Ideal S10000x128 .f32) (b : Vec Ideal S1x128 .f32)
    (w2 : Vec Ideal S128x128 .f32) (p : Fin 400) (q : Fin 128) :
    k0_pay5 a s b w2 (ix2 p q) = ∑ j : Fin 128, k0_pay3 a s b (ix2 p j) * w2 (ix2 j q) := by
  unfold k0_pay5
  exact mmHW_at (truncf (F := Ideal) .bf16 (k0_pay3 a s b) bitsLt_bf16_f32) (truncf (F := Ideal) .bf16 w2 bitsLt_bf16_f32) p q

/-! ## The windows' blocks, read at a row and a column of the entry arrays -/

variable (V : (c : Dev nD) → (b : Ref sig .tc) → Buf (Elt Ideal) ((c : Thread nD τ).loc b))

/-- The bias row as a function of the lane. -/
abbrev rowOf (b : (⟨2, ![1, 128]⟩ : Shape).Idx → EReal) (j : Fin 128) : EReal := b (ix2 (0 : Fin 1) j)

/-- The printed index maps over the grid: the whole-array windows sit at block (0, 0); the adjacency window and
    the three output windows at block (t, 0). -/
theorem idx_facts0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem blkX_at (c : Dev nD) (t : Fin cfg0.N) (p : Fin 10000) (q : Fin 128) :
    (iblk0 V c 0 t : Vec Ideal S10000x128 .f32) (ix2 p q) = cur2 (V c main_arg0) p q := by
  obtain ⟨e0, e1, -⟩ := idx_facts0 t
  show (V c main_arg0 : S10000x128.Idx → EReal) (((cfg0.win 0).blk t).view.emb (ix2 p q)) = (V c main_arg0 : S10000x128.Idx → EReal) (ix2 p q)
  refine congrArg (V c main_arg0 : S10000x128.Idx → EReal) (funext fun a => Fin.ext ?_)
  match a with
  | ⟨0, _⟩ => show win0_0.index t (0 : Fin 2) * 10000 + 1 * p.val = p.val; omega
  | ⟨1, _⟩ => show win0_0.index t (1 : Fin 2) * 128 + 1 * q.val = q.val; omega

theorem blkA_at (c : Dev nD) (t : Fin cfg0.N) (p : Fin 400) (k : Fin 10000) (r : Fin 10000)
    (hr : r.val = 400 * t.val + p.val) :
    (iblk0 V c 1 t : Vec Ideal S400x10000 .f32) (ix2 p k) = cur2 (V c main_arg1) r k := by
  obtain ⟨-, -, e0, e1, -⟩ := idx_facts0 t
  show (V c main_arg1 : S10000x10000.Idx → EReal) (((cfg0.win 1).blk t).view.emb (ix2 p k)) = (V c main_arg1 : S10000x10000.Idx → EReal) (ix2 r k)
  refine congrArg (V c main_arg1 : S10000x10000.Idx → EReal) (funext fun a => Fin.ext ?_)
  match a with
  | ⟨0, _⟩ => show win0_1.index t (0 : Fin 2) * 400 + 1 * p.val = r.val; omega
  | ⟨1, _⟩ => show win0_1.index t (1 : Fin 2) * 10000 + 1 * k.val = k.val; omega

theorem blkW1_at (c : Dev nD) (t : Fin cfg0.N) (p : Fin 128) (q : Fin 128) :
    (iblk0 V c 2 t : Vec Ideal S128x128 .f32) (ix2 p q) = cur2 (V c main_arg2) p q := by
  obtain ⟨-, -, -, -, e0, e1, -⟩ := idx_facts0 t
  show (V c main_arg2 : S128x128.Idx → EReal) (((cfg0.win 2).blk t).view.emb (ix2 p q)) = (V c main_arg2 : S128x128.Idx → EReal) (ix2 p q)
  refine congrArg (V c main_arg2 : S128x128.Idx → EReal) (funext fun a => Fin.ext ?_)
  match a with
  | ⟨0, _⟩ => show win0_2.index t (0 : Fin 2) * 128 + 1 * p.val = p.val; omega
  | ⟨1, _⟩ => show win0_2.index t (1 : Fin 2) * 128 + 1 * q.val = q.val; omega

theorem blkB_at (c : Dev nD) (t : Fin cfg0.N) (q : Fin 128) :
    (iblk0 V c 3 t : Vec Ideal S1x128 .f32) (ix2 (0 : Fin 1) q) = rowOf (V c main_v8) q := by
  obtain ⟨-, -, -, -, -, -, e0, e1, -⟩ := idx_facts0 t
  show (V c main_v8 : S1x128.Idx → EReal) (((cfg0.win 3).blk t).view.emb (ix2 (0 : Fin 1) q)) = (V c main_v8 : S1x128.Idx → EReal) (ix2 (0 : Fin 1) q)
  refine congrArg (V c main_v8 : S1x128.Idx → EReal) (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 128 + 1 * q.val = q.val; omega

theorem blkW2_at (c : Dev nD) (t : Fin cfg0.N) (p : Fin 128) (q : Fin 128) :
    (iblk0 V c 4 t : Vec Ideal S128x128 .f32) (ix2 p q) = cur2 (V c main_arg4) p q := by
  obtain ⟨-, -, -, -, -, -, -, -, e0, e1, -⟩ := idx_facts0 t
  show (V c main_arg4 : S128x128.Idx → EReal) (((cfg0.win 4).blk t).view.emb (ix2 p q)) = (V c main_arg4 : S128x128.Idx → EReal) (ix2 p q)
  refine congrArg (V c main_arg4 : S128x128.Idx → EReal) (funext fun a => Fin.ext ?_)
  match a with
  | ⟨0, _⟩ => show win0_4.index t (0 : Fin 2) * 128 + 1 * p.val = p.val; omega
  | ⟨1, _⟩ => show win0_4.index t (1 : Fin 2) * 128 + 1 * q.val = q.val; omega

/-! ## What each point leaves in the three output windows, at a row and a column -/

/-- The scratch is `x · W1`. -/
theorem S1_at (c : Dev nD) (k : Fin 10000) (q : Fin 128) :
    (S1 V c) (ix2 k q) = mm (cur2 (V c main_arg0)) (cur2 (V c main_arg2)) k q := by
  unfold S1
  rw [outS_eq]
  refine (pay1_at _ _ k q).trans ?_
  exact Finset.sum_congr rfl fun j _ => congrArg₂ (· * ·) (blkX_at V c t00 k j) (blkW1_at V c t00 j q)

/-- Row `p` of point `t`'s block of the first hidden layer is row `400·t + p` of the layer. -/
theorem pay3_blk_at (c : Dev nD) (t : Fin cfg0.N) (p : Fin 400) (q : Fin 128) (r : Fin 10000)
    (hr : r.val = 400 * t.val + p.val) :
    k0_pay3 (iblk0 V c 1 t) (S1 V c) (iblk0 V c 3 t) (ix2 p q)
      = Cert.Gcn.x1 (cur2 (V c main_arg0)) (cur2 (V c main_arg1)) (cur2 (V c main_arg2)) (rowOf (V c main_v8)) r q := by
  refine (pay3_at _ _ _ p q).trans ?_
  show max (_ + _) 0 = max (mm (cur2 (V c main_arg1)) (mm (cur2 (V c main_arg0)) (cur2 (V c main_arg2))) r q
    + rowOf (V c main_v8) q) 0
  exact congrArg₂ max
    (congrArg₂ (· + ·)
      (Finset.sum_congr rfl fun j _ => congrArg₂ (· * ·) (blkA_at V c t p j r hr) (S1_at V c j q))
      (blkB_at V c t q))
    rfl

theorem outH_at (c : Dev nD) (t : Fin cfg0.N) (p : Fin 400) (q : Fin 128) (r : Fin 10000)
    (hr : r.val = 400 * t.val + p.val) :
    outH (iblk0 V c 1 t) (S1 V c) (iblk0 V c 3 t) (ix2 p q)
      = Cert.Gcn.x1 (cur2 (V c main_arg0)) (cur2 (V c main_arg1)) (cur2 (V c main_arg2)) (rowOf (V c main_v8)) r q := by
  rw [outH_eq]
  exact (pay4_at _ _ _ (ix2 p q)).trans (pay3_blk_at V c t p q r hr)

theorem outP_at (c : Dev nD) (t : Fin cfg0.N) (p : Fin 400) (q : Fin 128) (r : Fin 10000)
    (hr : r.val = 400 * t.val + p.val) :
    outP (iblk0 V c 1 t) (S1 V c) (iblk0 V c 3 t) (iblk0 V c 4 t) (ix2 p q)
      = mm (Cert.Gcn.x1 (cur2 (V c main_arg0)) (cur2 (V c main_arg1)) (cur2 (V c main_arg2)) (rowOf (V c main_v8)))
          (cur2 (V c main_arg4)) r q := by
  rw [outP_eq]
  refine (pay5_at _ _ _ _ p q).trans ?_
  exact Finset.sum_congr rfl fun j _ => congrArg₂ (· * ·) (pay3_blk_at V c t p j r hr) (blkW2_at V c t j q)

theorem outA_at (c : Dev nD) (t : Fin cfg0.N) (p : Fin 400) (k : Fin 10000) (r : Fin 10000)
    (hr : r.val = 400 * t.val + p.val) :
    outA (iblk0 V c 1 t) (ix2 p k) = cur2 (V c main_arg1) r k := by
  rw [outA_eq]
  exact (pay2_at _ (ix2 p k)).trans (blkA_at V c t p k r hr)

/-! ## From the blocks to the arrays -/

/-- The first hidden layer as an array. -/
abbrev G5 (c : Dev nD) : S10000x128.Idx → EReal := fun i =>
  Cert.Gcn.x1 (cur2 (V c main_arg0)) (cur2 (V c main_arg1)) (cur2 (V c main_arg2)) (rowOf (V c main_v8)) (i 0) (i 1)

/-- The first hidden layer times W2 as an array. -/
abbrev G6 (c : Dev nD) : S10000x128.Idx → EReal := fun i =>
  mm (Cert.Gcn.x1 (cur2 (V c main_arg0)) (cur2 (V c main_arg1)) (cur2 (V c main_arg2)) (rowOf (V c main_v8)))
    (cur2 (V c main_arg4)) (i 0) (i 1)

/-- The adjacency matrix as an array. -/
abbrev G7 (c : Dev nD) : S10000x10000.Idx → EReal := fun i => cur2 (V c main_arg1) (i 0) (i 1)

/-- Where an element of point `t`'s block of an output sits in the array: row `400·t + p`, the same column. -/
theorem emb5 (t : Fin cfg0.N) (p : Fin 400) (q : Fin 128) (r : Fin 10000) (hr : r.val = 400 * t.val + p.val) :
    ((cfg0.win 5).blk t).view.emb (ix2 p q) = ix2 r q := by
  obtain ⟨-, -, -, -, -, -, -, -, -, -, e0, e1, -⟩ := idx_facts0 t
  refine funext fun a => Fin.ext ?_
  match a with
  | ⟨0, _⟩ => show win0_5.index t (0 : Fin 2) * 400 + 1 * p.val = r.val; omega
  | ⟨1, _⟩ => show win0_5.index t (1 : Fin 2) * 128 + 1 * q.val = q.val; omega

theorem emb6 (t : Fin cfg0.N) (p : Fin 400) (q : Fin 128) (r : Fin 10000) (hr : r.val = 400 * t.val + p.val) :
    ((cfg0.win 6).blk t).view.emb (ix2 p q) = ix2 r q := by
  obtain ⟨-, -, -, -, -, -, -, -, -, -, -, -, e0, e1, -⟩ := idx_facts0 t
  refine funext fun a => Fin.ext ?_
  match a with
  | ⟨0, _⟩ => show win0_6.index t (0 : Fin 2) * 400 + 1 * p.val = r.val; omega
  | ⟨1, _⟩ => show win0_6.index t (1 : Fin 2) * 128 + 1 * q.val = q.val; omega

theorem emb7 (t : Fin cfg0.N) (p : Fin 400) (k : Fin 10000) (r : Fin 10000) (hr : r.val = 400 * t.val + p.val) :
    ((cfg0.win 7).blk t).view.emb (ix2 p k) = ix2 r k := by
  obtain ⟨-, -, -, -, -, -, -, -, -, -, -, -, -, -, e0, e1⟩ := idx_facts0 t
  refine funext fun a => Fin.ext ?_
  match a with
  | ⟨0, _⟩ => show win0_7.index t (0 : Fin 2) * 400 + 1 * p.val = r.val; omega
  | ⟨1, _⟩ => show win0_7.index t (1 : Fin 2) * 10000 + 1 * k.val = k.val; omega

theorem row_lt (t : Fin cfg0.N) (p : Fin 400) : 400 * t.val + p.val < 10000 := by
  have hN : cfg0.N = 25 := N_0
  have ht := t.isLt
  have hp := p.isLt
  omega

theorem G5_ix2 (c : Dev nD) (r : Fin 10000) (q : Fin 128) :
    G5 V c (ix2 r q)
      = Cert.Gcn.x1 (cur2 (V c main_arg0)) (cur2 (V c main_arg1)) (cur2 (V c main_arg2)) (rowOf (V c main_v8)) r q := rfl

theorem G6_ix2 (c : Dev nD) (r : Fin 10000) (q : Fin 128) :
    G6 V c (ix2 r q)
      = mm (Cert.Gcn.x1 (cur2 (V c main_arg0)) (cur2 (V c main_arg1)) (cur2 (V c main_arg2)) (rowOf (V c main_v8)))
          (cur2 (V c main_arg4)) r q := rfl

theorem G7_ix2 (c : Dev nD) (r : Fin 10000) (k : Fin 10000) : G7 V c (ix2 r k) = cur2 (V c main_arg1) r k := rfl

/-- What point `t` leaves in window 5 is block `t` of the first hidden layer. -/
theorem read5 (c : Dev nD) (t : Fin cfg0.N) (y : S400x128.Idx) :
    outH (iblk0 V c 1 t) (S1 V c) (iblk0 V c 3 t) y = G5 V c (((cfg0.win 5).blk t).view.emb y) := by
  obtain ⟨p, q, rfl⟩ : ∃ (p : Fin 400) (q : Fin 128), y = ix2 p q := ⟨y 0, y 1, eq_ix2 y⟩
  have e := emb5 t p q ⟨400 * t.val + p.val, row_lt t p⟩ rfl
  have h := outH_at V c t p q ⟨400 * t.val + p.val, row_lt t p⟩ rfl
  exact h.trans ((G5_ix2 V c _ q).symm.trans (congrArg (G5 V c) e.symm))

/-- What it leaves in window 6 is block `t` of that layer times W2. -/
theorem read6 (c : Dev nD) (t : Fin cfg0.N) (y : S400x128.Idx) :
    outP (iblk0 V c 1 t) (S1 V c) (iblk0 V c 3 t) (iblk0 V c 4 t) y = G6 V c (((cfg0.win 6).blk t).view.emb y) := by
  obtain ⟨p, q, rfl⟩ : ∃ (p : Fin 400) (q : Fin 128), y = ix2 p q := ⟨y 0, y 1, eq_ix2 y⟩
  have e := emb6 t p q ⟨400 * t.val + p.val, row_lt t p⟩ rfl
  have h := outP_at V c t p q ⟨400 * t.val + p.val, row_lt t p⟩ rfl
  exact h.trans ((G6_ix2 V c _ q).symm.trans (congrArg (G6 V c) e.symm))

/-- What it leaves in window 7 is block `t` of the adjacency matrix. -/
theorem read7 (c : Dev nD) (t : Fin cfg0.N) (y : S400x10000.Idx) :
    outA (iblk0 V c 1 t) y = G7 V c (((cfg0.win 7).blk t).view.emb y) := by
  obtain ⟨p, k, rfl⟩ : ∃ (p : Fin 400) (k : Fin 10000), y = ix2 p k := ⟨y 0, y 1, eq_ix2 y⟩
  have e := emb7 t p k ⟨400 * t.val + p.val, row_lt t p⟩ rfl
  have h := outA_at V c t p k ⟨400 * t.val + p.val, row_lt t p⟩ rfl
  exact h.trans ((G7_ix2 V c _ k).symm.trans (congrArg (G7 V c) e.symm))

theorem flushed5_eq (c : Dev nD) (t : Fin cfg0.N) :
    (dat0 (F := Ideal) V c).flushed 5 t = ((cfg0.win 5).blk t).view.read (Elt Ideal) (G5 V c) := by
  show (cfg0.win 5).cut (grid0.coords t) ((dat0 V c).after 5 t) = _
  rw [after0_5]
  funext y
  exact read5 V c t y

theorem flushed6_eq (c : Dev nD) (t : Fin cfg0.N) :
    (dat0 (F := Ideal) V c).flushed 6 t = ((cfg0.win 6).blk t).view.read (Elt Ideal) (G6 V c) := by
  show (cfg0.win 6).cut (grid0.coords t) ((dat0 V c).after 6 t) = _
  rw [after0_6]
  funext y
  exact read6 V c t y

theorem flushed7_eq (c : Dev nD) (t : Fin cfg0.N) :
    (dat0 (F := Ideal) V c).flushed 7 t = ((cfg0.win 7).blk t).view.read (Elt Ideal) (G7 V c) := by
  show (cfg0.win 7).cut (grid0.coords t) ((dat0 V c).after 7 t) = _
  rw [after0_7]
  funext y
  exact read7 V c t y

/-- An index of an output array is in point `t`'s block iff each coordinate is in the block's range on its axis. -/
theorem mem_blk5 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v11_0).slice (win0_5.rect t)).set ↔ _
  rw [View.set_slice_whole, Rect.mem_set_unit]
  exact Iff.rfl

theorem mem_blk6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v11_1).slice (win0_6.rect t)).set ↔ _
  rw [View.set_slice_whole, Rect.mem_set_unit]
  exact Iff.rfl

theorem mem_blk7 (t : Fin cfg0.N) (i : S10000x10000.Idx) :
    i ∈ ((cfg0.win 7).blk t).view.set ↔ ∀ a : Fin 2, win0_7.index t a * S400x10000.size a ≤ (i a).val ∧ (i a).val < win0_7.index t a * S400x10000.size a + S400x10000.size a := by
  show i ∈ ((View.whole main_v11_2).slice (win0_7.rect t)).set ↔ _
  rw [View.set_slice_whole, Rect.mem_set_unit]
  exact Iff.rfl

/-- Row `r` of an output array is in the block of point `r / 400`. -/
theorem cover5 (i : S10000x128.Idx) :
    ∃ t : Fin cfg0.N, (cfg0.win 5).flush t = true ∧ i ∈ ((cfg0.win 5).blk t).view.set := by
  have hN : cfg0.N = 25 := N_0
  have hi0 : (i 0).val < 10000 := (i 0).isLt
  have hi1 : (i 1).val < 128 := (i 1).isLt
  have hlt : (i 0).val / 400 < cfg0.N := by omega
  obtain ⟨-, -, -, -, -, -, -, -, -, -, e0, e1, -⟩ := idx_facts0 ⟨(i 0).val / 400, hlt⟩
  have e0' : win0_5.index ⟨(i 0).val / 400, hlt⟩ (0 : Fin 2) = (i 0).val / 400 := e0
  refine ⟨⟨(i 0).val / 400, hlt⟩, flush0_5 _, ?_⟩
  rw [mem_blk5]
  intro a
  match a with
  | ⟨0, _⟩ =>
    show win0_5.index ⟨(i 0).val / 400, hlt⟩ (0 : Fin 2) * 400 ≤ (i 0).val
      ∧ (i 0).val < win0_5.index ⟨(i 0).val / 400, hlt⟩ (0 : Fin 2) * 400 + 400
    omega
  | ⟨1, _⟩ =>
    show win0_5.index ⟨(i 0).val / 400, hlt⟩ (1 : Fin 2) * 128 ≤ (i 1).val
      ∧ (i 1).val < win0_5.index ⟨(i 0).val / 400, hlt⟩ (1 : Fin 2) * 128 + 128
    omega

theorem cover6 (i : S10000x128.Idx) :
    ∃ t : Fin cfg0.N, (cfg0.win 6).flush t = true ∧ i ∈ ((cfg0.win 6).blk t).view.set := by
  have hN : cfg0.N = 25 := N_0
  have hi0 : (i 0).val < 10000 := (i 0).isLt
  have hi1 : (i 1).val < 128 := (i 1).isLt
  have hlt : (i 0).val / 400 < cfg0.N := by omega
  obtain ⟨-, -, -, -, -, -, -, -, -, -, -, -, e0, e1, -⟩ := idx_facts0 ⟨(i 0).val / 400, hlt⟩
  have e0' : win0_6.index ⟨(i 0).val / 400, hlt⟩ (0 : Fin 2) = (i 0).val / 400 := e0
  refine ⟨⟨(i 0).val / 400, hlt⟩, flush0_6 _, ?_⟩
  rw [mem_blk6]
  intro a
  match a with
  | ⟨0, _⟩ =>
    show win0_6.index ⟨(i 0).val / 400, hlt⟩ (0 : Fin 2) * 400 ≤ (i 0).val
      ∧ (i 0).val < win0_6.index ⟨(i 0).val / 400, hlt⟩ (0 : Fin 2) * 400 + 400
    omega
  | ⟨1, _⟩ =>
    show win0_6.index ⟨(i 0).val / 400, hlt⟩ (1 : Fin 2) * 128 ≤ (i 1).val
      ∧ (i 1).val < win0_6.index ⟨(i 0).val / 400, hlt⟩ (1 : Fin 2) * 128 + 128
    omega

theorem cover7 (i : S10000x10000.Idx) :
    ∃ t : Fin cfg0.N, (cfg0.win 7).flush t = true ∧ i ∈ ((cfg0.win 7).blk t).view.set := by
  have hN : cfg0.N = 25 := N_0
  have hi0 : (i 0).val < 10000 := (i 0).isLt
  have hi1 : (i 1).val < 10000 := (i 1).isLt
  have hlt : (i 0).val / 400 < cfg0.N := by omega
  obtain ⟨-, -, -, -, -, -, -, -, -, -, -, -, -, -, e0, e1⟩ := idx_facts0 ⟨(i 0).val / 400, hlt⟩
  have e0' : win0_7.index ⟨(i 0).val / 400, hlt⟩ (0 : Fin 2) = (i 0).val / 400 := e0
  refine ⟨⟨(i 0).val / 400, hlt⟩, flush0_7 _, ?_⟩
  rw [mem_blk7]
  intro a
  match a with
  | ⟨0, _⟩ =>
    show win0_7.index ⟨(i 0).val / 400, hlt⟩ (0 : Fin 2) * 400 ≤ (i 0).val
      ∧ (i 0).val < win0_7.index ⟨(i 0).val / 400, hlt⟩ (0 : Fin 2) * 400 + 400
    omega
  | ⟨1, _⟩ =>
    show win0_7.index ⟨(i 0).val / 400, hlt⟩ (1 : Fin 2) * 10000 ≤ (i 1).val
      ∧ (i 1).val < win0_7.index ⟨(i 0).val / 400, hlt⟩ (1 : Fin 2) * 10000 + 10000
    omega

theorem final5 (c : Dev nD) : (dat0 (F := Ideal) V c).arrAt 5 cfg0.N = G5 V c :=
  (dat0 (F := Ideal) V c).arrAt_eq_of_cover 5 (G5 V c) (fun t _ => flushed5_eq V c t) cover5

theorem final6 (c : Dev nD) : (dat0 (F := Ideal) V c).arrAt 6 cfg0.N = G6 V c :=
  (dat0 (F := Ideal) V c).arrAt_eq_of_cover 6 (G6 V c) (fun t _ => flushed6_eq V c t) cover6

theorem final7 (c : Dev nD) : (dat0 (F := Ideal) V c).arrAt 7 cfg0.N = G7 V c :=
  (dat0 (F := Ideal) V c).arrAt_eq_of_cover 7 (G7 V c) (fun t _ => flushed7_eq V c t) cover7

/-! ## The three arrays at a row and a column -/

theorem x1_array (c : Dev nD) (i : Fin 10000) (j : Fin 128) :
    (dat0 (F := Ideal) V c).arrAt 5 cfg0.N (ix2 i j)
      = Cert.Gcn.x1 (cur2 (V c main_arg0)) (cur2 (V c main_arg1)) (cur2 (V c main_arg2)) (rowOf (V c main_v8)) i j :=
  congrFun (final5 V c) (ix2 i j)

theorem s2_array (c : Dev nD) (i : Fin 10000) (j : Fin 128) :
    (dat0 (F := Ideal) V c).arrAt 6 cfg0.N (ix2 i j)
      = mm (Cert.Gcn.x1 (cur2 (V c main_arg0)) (cur2 (V c main_arg1)) (cur2 (V c main_arg2)) (rowOf (V c main_v8)))
          (cur2 (V c main_arg4)) i j :=
  congrFun (final6 V c) (ix2 i j)

theorem a16_array (c : Dev nD) (i : Fin 10000) (k : Fin 10000) :
    (dat0 (F := Ideal) V c).arrAt 7 cfg0.N (ix2 i k) = cur2 (V c main_arg1) i k :=
  congrFun (final7 V c) (ix2 i k)

end Cert.KernelIdeal.Hand

end
-- ==== Proof.KI.Host.lean ====
import proofs.«143550_g111669150054_cont_sun_m_211_32_alg».proof.Proof.Gen.KernelIdeal.Regions
import proofs.«143550_g111669150054_cont_sun_m_211_32_alg».proof.Proof.Spec
import Idealize.ShloMosaic.Lib.Pipeline.Value
import Idealize.ShloMosaic.Lib.KernelVsHost
import Idealize.ShloMosaic.Lib.ValueIdx
import Idealize.ShloMosaic.PureOps.Ideal.Laws

/-!
  What the unscoped buffers hold when the first kernel region is entered: the argument arrays as launched, the
  three 128-row blocks of the head's weight each padded with zeros to 128 columns, the head's bias as one row padded
  with zeros to 128 columns, and the three layer biases as one row each.
-/

noncomputable section

namespace Cert.KernelIdeal.Hand

open Cert.KernelIdeal Cert.KernelIdeal.Gen Idealize.ShloMosaic Idealize.ShloMosaic.TcCoe Idealize.SL.Sem ValueIdx Cert.Gcn

variable (m : (ℓ : Loc nD τ sig) → Buf (Elt Ideal) ℓ) (c : Dev nD)

/-! ## The arguments reach the first region as launched -/

theorem V9_arg0 : V9 (F := Ideal) m c main_arg0 = m ((c : Thread nD τ).loc main_arg0) :=
  (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl

theorem V9_arg1 : V9 (F := Ideal) m c main_arg1 = m ((c : Thread nD τ).loc main_arg1) :=
  (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl

theorem V9_arg2 : V9 (F := Ideal) m c main_arg2 = m ((c : Thread nD τ).loc main_arg2) :=
  (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl

theorem V9_arg4 : V9 (F := Ideal) m c main_arg4 = m ((c : Thread nD τ).loc main_arg4) :=
  (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl

theorem V9_arg6 : V9 (F := Ideal) m c main_arg6 = m ((c : Thread nD τ).loc main_arg6) :=
  (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl

open Idealize.ShloMosaic.StableHlo

/-! ## What the host operations before the first region write -/

/-- The padding value: the integer 0 converted to a float is 0. -/
theorem pad_value : (sitofp (F := Ideal) .f32 (constantI S_ 32 0#32)) (Shape.Idx.first h_S_) = (0 : EReal) := by
  show ((((0#32 : BitVec 32).toInt : ℝ)) : EReal) = 0
  simp

theorem V9_v1_eq : V9 (F := Ideal) m c main_v1
    = pad S128x128 ![0, 0] ![0, 124] ![0, 0]
        (extractStridedSlice S128x4 ![0, 0] (m ((c : Thread nD τ).loc main_arg8) : FVec Ideal S384x4 .f32) slices_S384x4_S128x4_0_0)
        (sitofp (F := Ideal) .f32 (constantI S_ 32 0#32)) pads_S128x4_S128x128_000_01240 h_S_ := by
  show StableHlo.after hostOps0_8 (V8 m c) (Proc.devRef .tc main_v1) = _
  after_results
  rfl

theorem V9_v3_eq : V9 (F := Ideal) m c main_v3
    = pad S128x128 ![0, 0] ![0, 124] ![0, 0]
        (extractStridedSlice S128x4 ![128, 0] (m ((c : Thread nD τ).loc main_arg8) : FVec Ideal S384x4 .f32) slices_S384x4_S128x4_128_0)
        (sitofp (F := Ideal) .f32 (constantI S_ 32 0#32)) pads_S128x4_S128x128_000_01240 h_S_ := by
  show StableHlo.after hostOps0_8 (V8 m c) (Proc.devRef .tc main_v3) = _
  after_results
  rfl

theorem V9_v5_eq : V9 (F := Ideal) m c main_v5
    = pad S128x128 ![0, 0] ![0, 124] ![0, 0]
        (extractStridedSlice S128x4 ![256, 0] (m ((c : Thread nD τ).loc main_arg8) : FVec Ideal S384x4 .f32) slices_S384x4_S128x4_256_0)
        (sitofp (F := Ideal) .f32 (constantI S_ 32 0#32)) pads_S128x4_S128x128_000_01240 h_S_ := by
  show StableHlo.after hostOps0_8 (V8 m c) (Proc.devRef .tc main_v5) = _
  after_results
  rfl

theorem V9_v7_eq : V9 (F := Ideal) m c main_v7
    = pad S1x128 ![0, 0] ![0, 124] ![0, 0]
        (shapeCast S1x4 (m ((c : Thread nD τ).loc main_arg9) : FVec Ideal S4 .f32) shapeCasts_S4_S1x4)
        (sitofp (F := Ideal) .f32 (constantI S_ 32 0#32)) pads_S1x4_S1x128_000_01240 h_S_ := by
  show StableHlo.after hostOps0_8 (V8 m c) (Proc.devRef .tc main_v7) = _
  after_results
  rfl

theorem V9_v8_eq : V9 (F := Ideal) m c main_v8
    = shapeCast S1x128 (m ((c : Thread nD τ).loc main_arg3) : FVec Ideal S128 .f32) shapeCasts_S128_S1x128 := by
  show StableHlo.after hostOps0_8 (V8 m c) (Proc.devRef .tc main_v8) = _
  after_results
  rfl

theorem V9_v9_eq : V9 (F := Ideal) m c main_v9
    = shapeCast S1x128 (m ((c : Thread nD τ).loc main_arg5) : FVec Ideal S128 .f32) shapeCasts_S128_S1x128 := by
  show StableHlo.after hostOps0_8 (V8 m c) (Proc.devRef .tc main_v9) = _
  after_results
  rfl

theorem V9_v10_eq : V9 (F := Ideal) m c main_v10
    = shapeCast S1x128 (m ((c : Thread nD τ).loc main_arg7) : FVec Ideal S128 .f32) shapeCasts_S128_S1x128 := by
  show StableHlo.after hostOps0_8 (V8 m c) (Proc.devRef .tc main_v10) = _
  after_results
  rfl

/-- Block 0 of the head's weight, padded with zeros on the right to 128 columns. -/
theorem V9_v1 (q l : Fin 128) :
    V9 (F := Ideal) m c main_v1 (ix2 q l)
      = if h : l.val < 4 then lwBlock (cur2 (m ((c : Thread nD τ).loc main_arg8))) 0 q ⟨l.val, h⟩ else 0 := by
  rw [V9_v1_eq]
  by_cases h : l.val < 4
  · rw [dif_pos h]
    refine (pad_apply_of_inside _ _ _ _ _ pads_S128x4_S128x128_000_01240 h_S_ (ix2 q l) (ix2 q (⟨l.val, h⟩ : Fin 4)) ?_).trans ?_
    · intro a
      match a with
      | ⟨0, _⟩ => show q.val = 0 + q.val * (0 + 1); omega
      | ⟨1, _⟩ => show l.val = 0 + l.val * (0 + 1); omega
    · refine (extractStridedSlice_apply _ _ slices_S384x4_S128x4_0_0 (ix2 q (⟨l.val, h⟩ : Fin 4))
        (ix2 (⟨128 * (0 : Fin 3).val + q.val, by have := q.isLt; have : (0 : Fin 3).val = 0 := rfl; omega⟩ : Fin 384) (⟨l.val, h⟩ : Fin 4)) ?_).trans rfl
      intro a
      match a with
      | ⟨0, _⟩ => show 128 * 0 + q.val = 0 + q.val; omega
      | ⟨1, _⟩ => show l.val = 0 + l.val; omega
  · rw [dif_neg h]
    refine (pad_apply_of_not_inside _ _ _ _ _ pads_S128x4_S128x128_000_01240 h_S_ (ix2 q l) 1 ?_).trans pad_value
    intro hh
    have h3 : (l.val - 0) / (0 + 1) < 4 := hh.2.2
    omega

/-- Block 1 of the head's weight, padded with zeros on the right to 128 columns. -/
theorem V9_v3 (q l : Fin 128) :
    V9 (F := Ideal) m c main_v3 (ix2 q l)
      = if h : l.val < 4 then lwBlock (cur2 (m ((c : Thread nD τ).loc main_arg8))) 1 q ⟨l.val, h⟩ else 0 := by
  rw [V9_v3_eq]
  by_cases h : l.val < 4
  · rw [dif_pos h]
    refine (pad_apply_of_inside _ _ _ _ _ pads_S128x4_S128x128_000_01240 h_S_ (ix2 q l) (ix2 q (⟨l.val, h⟩ : Fin 4)) ?_).trans ?_
    · intro a
      match a with
      | ⟨0, _⟩ => show q.val = 0 + q.val * (0 + 1); omega
      | ⟨1, _⟩ => show l.val = 0 + l.val * (0 + 1); omega
    · refine (extractStridedSlice_apply _ _ slices_S384x4_S128x4_128_0 (ix2 q (⟨l.val, h⟩ : Fin 4))
        (ix2 (⟨128 * (1 : Fin 3).val + q.val, by have := q.isLt; have : (1 : Fin 3).val = 1 := rfl; omega⟩ : Fin 384) (⟨l.val, h⟩ : Fin 4)) ?_).trans rfl
      intro a
      match a with
      | ⟨0, _⟩ => show 128 * 1 + q.val = 128 + q.val; omega
      | ⟨1, _⟩ => show l.val = 0 + l.val; omega
  · rw [dif_neg h]
    refine (pad_apply_of_not_inside _ _ _ _ _ pads_S128x4_S128x128_000_01240 h_S_ (ix2 q l) 1 ?_).trans pad_value
    intro hh
    have h3 : (l.val - 0) / (0 + 1) < 4 := hh.2.2
    omega

/-- Block 2 of the head's weight, padded with zeros on the right to 128 columns. -/
theorem V9_v5 (q l : Fin 128) :
    V9 (F := Ideal) m c main_v5 (ix2 q l)
      = if h : l.val < 4 then lwBlock (cur2 (m ((c : Thread nD τ).loc main_arg8))) 2 q ⟨l.val, h⟩ else 0 := by
  rw [V9_v5_eq]
  by_cases h : l.val < 4
  · rw [dif_pos h]
    refine (pad_apply_of_inside _ _ _ _ _ pads_S128x4_S128x128_000_01240 h_S_ (ix2 q l) (ix2 q (⟨l.val, h⟩ : Fin 4)) ?_).trans ?_
    · intro a
      match a with
      | ⟨0, _⟩ => show q.val = 0 + q.val * (0 + 1); omega
      | ⟨1, _⟩ => show l.val = 0 + l.val * (0 + 1); omega
    · refine (extractStridedSlice_apply _ _ slices_S384x4_S128x4_256_0 (ix2 q (⟨l.val, h⟩ : Fin 4))
        (ix2 (⟨128 * (2 : Fin 3).val + q.val, by have := q.isLt; have : (2 : Fin 3).val = 2 := rfl; omega⟩ : Fin 384) (⟨l.val, h⟩ : Fin 4)) ?_).trans rfl
      intro a
      match a with
      | ⟨0, _⟩ => show 128 * 2 + q.val = 256 + q.val; omega
      | ⟨1, _⟩ => show l.val = 0 + l.val; omega
  · rw [dif_neg h]
    refine (pad_apply_of_not_inside _ _ _ _ _ pads_S128x4_S128x128_000_01240 h_S_ (ix2 q l) 1 ?_).trans pad_value
    intro hh
    have h3 : (l.val - 0) / (0 + 1) < 4 := hh.2.2
    omega

/-- The head's bias as one row, padded with zeros on the right to 128 columns. -/
theorem V9_v7 (l : Fin 128) :
    V9 (F := Ideal) m c main_v7 (ix2 (0 : Fin 1) l)
      = if h : l.val < 4 then cur1 (m ((c : Thread nD τ).loc main_arg9)) ⟨l.val, h⟩ else 0 := by
  rw [V9_v7_eq]
  by_cases h : l.val < 4
  · rw [dif_pos h]
    refine (pad_apply_of_inside _ _ _ _ _ pads_S1x4_S1x128_000_01240 h_S_ (ix2 (0 : Fin 1) l) (ix2 (0 : Fin 1) (⟨l.val, h⟩ : Fin 4)) ?_).trans ?_
    · intro a
      match a with
      | ⟨0, _⟩ => show 0 = 0 + 0 * (0 + 1); omega
      | ⟨1, _⟩ => show l.val = 0 + l.val * (0 + 1); omega
    · refine (shapeCast_apply _ shapeCasts_S4_S1x4 (ix2 (0 : Fin 1) (⟨l.val, h⟩ : Fin 4)) (ix1 (⟨l.val, h⟩ : Fin 4)) ?_).trans rfl
      rw [Shape.rowMajor_val_one, Shape.rowMajor_val_two]
      show l.val = 0 * 4 + l.val
      omega
  · rw [dif_neg h]
    refine (pad_apply_of_not_inside _ _ _ _ _ pads_S1x4_S1x128_000_01240 h_S_ (ix2 (0 : Fin 1) l) 1 ?_).trans pad_value
    intro hh
    have h3 : (l.val - 0) / (0 + 1) < 4 := hh.2.2
    omega

/-- The first layer's bias as one row. -/
theorem V9_v8 (j : Fin 128) : V9 (F := Ideal) m c main_v8 (ix2 (0 : Fin 1) j) = cur1 (m ((c : Thread nD τ).loc main_arg3)) j := by
  rw [V9_v8_eq]
  refine (shapeCast_apply _ shapeCasts_S128_S1x128 (ix2 (0 : Fin 1) j) (ix1 j) ?_).trans rfl
  rw [Shape.rowMajor_val_one, Shape.rowMajor_val_two]
  show j.val = 0 * 128 + j.val
  omega

/-- The second layer's bias as one row. -/
theorem V9_v9 (j : Fin 128) : V9 (F := Ideal) m c main_v9 (ix2 (0 : Fin 1) j) = cur1 (m ((c : Thread nD τ).loc main_arg5)) j := by
  rw [V9_v9_eq]
  refine (shapeCast_apply _ shapeCasts_S128_S1x128 (ix2 (0 : Fin 1) j) (ix1 j) ?_).trans rfl
  rw [Shape.rowMajor_val_one, Shape.rowMajor_val_two]
  show j.val = 0 * 128 + j.val
  omega

/-- The third layer's bias as one row. -/
theorem V9_v10 (j : Fin 128) : V9 (F := Ideal) m c main_v10 (ix2 (0 : Fin 1) j) = cur1 (m ((c : Thread nD τ).loc main_arg7)) j := by
  rw [V9_v10_eq]
  refine (shapeCast_apply _ shapeCasts_S128_S1x128 (ix2 (0 : Fin 1) j) (ix1 j) ?_).trans rfl
  rw [Shape.rowMajor_val_one, Shape.rowMajor_val_two]
  show j.val = 0 * 128 + j.val
  omega

end Cert.KernelIdeal.Hand

end
-- ==== Proof.KI.Bridge0.lean ====
/-
  What the second kernel is entered with, as functions of the argument arrays: the narrowed adjacency matrix is the
  adjacency matrix, the first region's two other outputs are the first hidden layer and that layer times W2, the
  three 128-lane weight blocks are row blocks of the head's weight matrix on their first four lanes and zero on
  the rest, and the bias rows are the bias vectors.
-/
import proofs.«143550_g111669150054_cont_sun_m_211_32_alg».proof.Proof.Gen.KernelIdeal.Launch
import proofs.«143550_g111669150054_cont_sun_m_211_32_alg».proof.Proof.Gen.KernelIdeal.Skeleton
import proofs.«143550_g111669150054_cont_sun_m_211_32_alg».proof.Proof.Gen.KernelIdeal.Points
import proofs.«143550_g111669150054_cont_sun_m_211_32_alg».proof.Proof.KI.Frame
import proofs.«143550_g111669150054_cont_sun_m_211_32_alg».proof.Proof.KI.Value0
import proofs.«143550_g111669150054_cont_sun_m_211_32_alg».proof.Proof.KI.Host
import proofs.«143550_g111669150054_cont_sun_m_211_32_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Gcn ValueIdx

variable (m : (ℓ : Loc nD τ sig) → Buf (Elt Ideal) ℓ) (c : Dev nD)

/-- The argument arrays by row and column. -/
abbrev kX : Fin 10000 → Fin 128 → EReal := cur2 (m ((c : Thread nD τ).loc main_arg0))
abbrev kAdj : Fin 10000 → Fin 10000 → EReal := cur2 (m ((c : Thread nD τ).loc main_arg1))
abbrev kW1 : Fin 128 → Fin 128 → EReal := cur2 (m ((c : Thread nD τ).loc main_arg2))
abbrev kB1 : Fin 128 → EReal := cur1 (m ((c : Thread nD τ).loc main_arg3))
abbrev kW2 : Fin 128 → Fin 128 → EReal := cur2 (m ((c : Thread nD τ).loc main_arg4))
abbrev kB2 : Fin 128 → EReal := cur1 (m ((c : Thread nD τ).loc main_arg5))
abbrev kW3 : Fin 128 → Fin 128 → EReal := cur2 (m ((c : Thread nD τ).loc main_arg6))
abbrev kB3 : Fin 128 → EReal := cur1 (m ((c : Thread nD τ).loc main_arg7))
abbrev kLinW : Fin 384 → Fin 4 → EReal := cur2 (m ((c : Thread nD τ).loc main_arg8))
abbrev kLinB : Fin 4 → EReal := cur1 (m ((c : Thread nD τ).loc main_arg9))

/-! ## The first region's entry arrays -/

theorem e0_x : cur2 (E0 m c main_arg0) = kX m c := congrArg cur2 (V9_arg0 m c)
theorem e0_adj : cur2 (E0 m c main_arg1) = kAdj m c := congrArg cur2 (V9_arg1 m c)
theorem e0_w1 : cur2 (E0 m c main_arg2) = kW1 m c := congrArg cur2 (V9_arg2 m c)
theorem e0_w2 : cur2 (E0 m c main_arg4) = kW2 m c := congrArg cur2 (V9_arg4 m c)
theorem e0_b1 : rowOf (E0 m c main_v8) = kB1 m c := funext fun j => V9_v8 m c j

/-! ## The second region's entry arrays -/

theorem e1_v11_0 (i : Fin 10000) (j : Fin 128) :
    cur2 (E1 m c main_v11_0) i j = Cert.Gcn.x1 (kX m c) (kAdj m c) (kW1 m c) (kB1 m c) i j := by
  have h : E1 m c main_v11_0 = (dat0 (E0 m) c).arrAt 5 cfg0.N := (V10_v11_0 m c).trans (X0_arr m c 5)
  show E1 m c main_v11_0 (ix2 i j) = _
  rw [h, x1_array (E0 m) c i j, e0_x, e0_adj, e0_w1, e0_b1]

theorem e1_v11_1 (i : Fin 10000) (j : Fin 128) :
    cur2 (E1 m c main_v11_1) i j = mm (Cert.Gcn.x1 (kX m c) (kAdj m c) (kW1 m c) (kB1 m c)) (kW2 m c) i j := by
  have h : E1 m c main_v11_1 = (dat0 (E0 m) c).arrAt 6 cfg0.N := (V10_v11_1 m c).trans (X0_arr m c 6)
  show E1 m c main_v11_1 (ix2 i j) = _
  rw [h, s2_array (E0 m) c i j, e0_x, e0_adj, e0_w1, e0_b1, e0_w2]

theorem e1_v11_2 (i k : Fin 10000) : cur2 (E1 m c main_v11_2) i k = kAdj m c i k := by
  have h : E1 m c main_v11_2 = (dat0 (E0 m) c).arrAt 7 cfg0.N := (V10_v11_2 m c).trans (X0_arr m c 7)
  show E1 m c main_v11_2 (ix2 i k) = _
  rw [h, a16_array (E0 m) c i k, e0_adj]

theorem e1_v9 : rowOf (E1 m c main_v9) = kB2 m c := funext fun j => by
  show E1 m c main_v9 (ix2 (0 : Fin 1) j) = _
  rw [show E1 m c main_v9 = V9 m c main_v9 from V10_of m (outsA m) c main_v9 (by decide)]
  exact V9_v9 m c j
theorem e1_v10 : rowOf (E1 m c main_v10) = kB3 m c := funext fun j => by
  show E1 m c main_v10 (ix2 (0 : Fin 1) j) = _
  rw [show E1 m c main_v10 = V9 m c main_v10 from V10_of m (outsA m) c main_v10 (by decide)]
  exact V9_v10 m c j
theorem e1_arg6 : cur2 (E1 m c main_arg6) = kW3 m c :=
  congrArg cur2 ((V10_of m (outsA m) c main_arg6 (by decide)).trans (V9_arg6 m c))
theorem e1_v1 (q l : Fin 128) :
    cur2 (E1 m c main_v1) q l = if h : l.val < 4 then lwBlock (kLinW m c) 0 q ⟨l.val, h⟩ else 0 := by
  show E1 m c main_v1 (ix2 q l) = _
  rw [show E1 m c main_v1 = V9 m c main_v1 from V10_of m (outsA m) c main_v1 (by decide)]
  exact V9_v1 m c q l
theorem e1_v3 (q l : Fin 128) :
    cur2 (E1 m c main_v3) q l = if h : l.val < 4 then lwBlock (kLinW m c) 1 q ⟨l.val, h⟩ else 0 := by
  show E1 m c main_v3 (ix2 q l) = _
  rw [show E1 m c main_v3 = V9 m c main_v3 from V10_of m (outsA m) c main_v3 (by decide)]
  exact V9_v3 m c q l
theorem e1_v5 (q l : Fin 128) :
    cur2 (E1 m c main_v5) q l = if h : l.val < 4 then lwBlock (kLinW m c) 2 q ⟨l.val, h⟩ else 0 := by
  show E1 m c main_v5 (ix2 q l) = _
  rw [show E1 m c main_v5 = V9 m c main_v5 from V10_of m (outsA m) c main_v5 (by decide)]
  exact V9_v5 m c q l
theorem e1_v7 (l : Fin 128) :
    rowOf (E1 m c main_v7) l = if h : l.val < 4 then kLinB m c ⟨l.val, h⟩ else 0 := by
  show E1 m c main_v7 (ix2 (0 : Fin 1) l) = _
  rw [show E1 m c main_v7 = V9 m c main_v7 from V10_of m (outsA m) c main_v7 (by decide)]
  exact V9_v7 m c l

end Cert.KernelIdeal.Hand

end
-- ==== Proof.KI.Value1.lean ====
/-
  The second kernel read at a row-and-column index on the extended reals: its output array, the blocks its second
  pass loads, and the two scratch arrays its first pass fills.

  The grid's 50 points are two passes over the 25 row blocks. Point `t < 25` of the first pass loads rows
  `400·t … 400·t + 399` of the adjacency matrix and of the first hidden layer and the whole of the other arrays,
  and stores into two scratch arrays the rows `400·t …` of `((x2 · W3) · LW3)` and of `x1 · LW1 + x2 · LW2`, where
  `x2 = max (adj · s2 + b2) 0` is the second hidden layer: on the extended reals a change of float format is the
  identity and a matrix product into a zero accumulator is the plain sum, so each stored value at a row and a column
  is a finite sum of entries of the loaded blocks. Point `25 + i` of the second pass loads the same adjacency rows,
  reads the first scratch array whole (narrowed, which changes nothing here) and rows `400·i …` of the second, and
  stores the 400 × 4 block of the output; only these points write the output back, and row `r` of the output lies in
  the block of point `25 + r / 400`, at row `r mod 400` of it. Hence the output array ends holding, at row `r`,
  what that point stored at that row.
-/
import proofs.«143550_g111669150054_cont_sun_m_211_32_alg».proof.Proof.KI.Frame1
import proofs.«143550_g111669150054_cont_sun_m_211_32_alg».proof.Proof.KI.Value0
import proofs.«143550_g111669150054_cont_sun_m_211_32_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Cert.Gcn ValueIdx

variable (V : (c : Dev nD) → (b : Ref sig .tc) → Buf (Elt Ideal) ((c : Thread nD τ).loc b))

/-! ## The entry arrays of the second region, by row and column -/

/-- The adjacency matrix as the first kernel left it. -/
abbrev rA16 (c : Dev nD) : Fin 10000 → Fin 10000 → EReal := cur2 (V c main_v11_2)
/-- The first hidden layer times W2. -/
abbrev rS2 (c : Dev nD) : Fin 10000 → Fin 128 → EReal := cur2 (V c main_v11_1)
/-- The first hidden layer. -/
abbrev rX1 (c : Dev nD) : Fin 10000 → Fin 128 → EReal := cur2 (V c main_v11_0)
abbrev rB2 (c : Dev nD) : Fin 128 → EReal := rowOf (V c main_v9)
abbrev rW3 (c : Dev nD) : Fin 128 → Fin 128 → EReal := cur2 (V c main_arg6)
abbrev rLW1 (c : Dev nD) : Fin 128 → Fin 128 → EReal := cur2 (V c main_v1)
abbrev rLW2 (c : Dev nD) : Fin 128 → Fin 128 → EReal := cur2 (V c main_v3)
abbrev rLW3 (c : Dev nD) : Fin 128 → Fin 128 → EReal := cur2 (V c main_v5)
abbrev rB3 (c : Dev nD) : Fin 128 → EReal := rowOf (V c main_v10)
abbrev rLB (c : Dev nD) : Fin 128 → EReal := rowOf (V c main_v7)
/-- The second hidden layer as the kernel computes it. -/
abbrev rX2 (c : Dev nD) : Fin 10000 → Fin 128 → EReal := conv (rA16 V c) (rS2 V c) (rB2 V c)

/-- The point of the second pass that stores row `r`'s block, -/
def pt2 (r : Fin 10000) : Fin cfg1.N :=
  ⟨25 + r.val / 400, by
    have hN : cfg1.N = 50 := N_1
    have hr : r.val < 10000 := r.isLt
    omega⟩
/-- and the row's position inside that block. -/
def rowIn (r : Fin 10000) : Fin 400 := ⟨r.val % 400, Nat.mod_lt _ (by norm_num)⟩

theorem condR_pt2 (r : Fin 10000) : condR (grid1.coords (pt2 r)) :=
  (hcondR (pt2 r)).mpr (by show 25 ≤ 25 + r.val / 400; omega)

/-! ## The printed index maps and the output's write-backs, decided over the grid -/

theorem idx1_0 : ∀ t : Fin cfg1.N, win1_0.index t (0 : Fin 2) = t.val % 25 ∧ win1_0.index t (1 : Fin 2) = 0 :=
  (by decide +kernel : ∀ t : Fin grid1.N, win1_0.index t (0 : Fin 2) = t.val % 25 ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, (t.val < 25 → win1_2.index t (0 : Fin 2) = t.val) ∧ win1_2.index t (1 : Fin 2) = 0 :=
  (by decide +kernel : ∀ t : Fin grid1.N, (t.val < 25 → win1_2.index t (0 : Fin 2) = t.val) ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem idx1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
theorem idx1_8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)
theorem idx1_9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)
theorem idx1_10 : ∀ t : Fin cfg1.N, (25 ≤ t.val → win1_10.index t (0 : Fin 2) + 25 = t.val) ∧ win1_10.index t (1 : Fin 2) = 0 :=
  (by decide +kernel : ∀ t : Fin grid1.N, (25 ≤ t.val → win1_10.index t (0 : Fin 2) + 25 = t.val) ∧ win1_10.index t (1 : Fin 2) = 0)

/-- The output is written back at the second pass's points only. -/
theorem flush1_10 : ∀ t : Fin cfg1.N, (cfg1.win 10).flush t = true ↔ 25 ≤ t.val :=
  (by decide +kernel : ∀ t : Fin grid1.N, win1_10.flush t = true ↔ 25 ≤ t.val)

/-- The slab a point of the second pass reads starts at its block's first row. -/
theorem off2_facts : ∀ t : Fin cfg1.N, k1_off2 (grid1.coords t) (0 : Fin 2) = 400 * (t.val % 25) ∧ k1_off2 (grid1.coords t) (1 : Fin 2) = 0 :=
  (by decide +kernel : ∀ t : Fin grid1.N, k1_off2 (grid1.coords t) (0 : Fin 2) = 400 * (t.val % 25) ∧ k1_off2 (grid1.coords t) (1 : Fin 2) = 0)

/-! ## The windows' blocks, read at a row and a column of the entry arrays -/

/-- The adjacency block of a point: rows `400·(t mod 25) …`. -/
theorem blk1_0_gen (c : Dev nD) (t : Fin cfg1.N) (p : Fin 400) (j : Fin 10000) (r : Fin 10000)
    (hr : r.val = 400 * (t.val % 25) + p.val) :
    (iblk1 (F := Ideal) V c 0 t : Vec Ideal S400x10000 .bf16) (ix2 p j) = rA16 V c r j := by
  obtain ⟨e0, e1⟩ := idx1_0 t
  show (V c main_v11_2 : S10000x10000.Idx → EReal) (((cfg1.win 0).blk t).view.emb (ix2 p j)) = (V c main_v11_2 : S10000x10000.Idx → EReal) (ix2 r j)
  refine congrArg (V c main_v11_2 : S10000x10000.Idx → EReal) (funext fun a => Fin.ext ?_)
  match a with
  | ⟨0, _⟩ => show win1_0.index t (0 : Fin 2) * 400 + 1 * p.val = r.val; omega
  | ⟨1, _⟩ => show win1_0.index t (1 : Fin 2) * 10000 + 1 * j.val = j.val; omega

theorem blk1_1_at (c : Dev nD) (t : Fin cfg1.N) (k : Fin 10000) (q : Fin 128) :
    (iblk1 (F := Ideal) V c 1 t : Vec Ideal S10000x128 .bf16) (ix2 k q) = rS2 V c k q := by
  obtain ⟨e0, e1⟩ := idx1_1 t
  show (V c main_v11_1 : S10000x128.Idx → EReal) (((cfg1.win 1).blk t).view.emb (ix2 k q)) = (V c main_v11_1 : S10000x128.Idx → EReal) (ix2 k q)
  refine congrArg (V c main_v11_1 : S10000x128.Idx → EReal) (funext fun a => Fin.ext ?_)
  match a with
  | ⟨0, _⟩ => show win1_1.index t (0 : Fin 2) * 10000 + 1 * k.val = k.val; omega
  | ⟨1, _⟩ => show win1_1.index t (1 : Fin 2) * 128 + 1 * q.val = q.val; omega

/-- The block of the first hidden layer a point of the first pass loads: rows `400·t …`. -/
theorem blk1_2_at (c : Dev nD) (t : Fin cfg1.N) (ht : t.val < 25) (p : Fin 400) (q : Fin 128) (r : Fin 10000)
    (hr : r.val = 400 * t.val + p.val) :
    (iblk1 (F := Ideal) V c 2 t : Vec Ideal S400x128 .bf16) (ix2 p q) = rX1 V c r q := by
  obtain ⟨e0, e1⟩ := idx1_2 t
  have e0' := e0 ht
  show (V c main_v11_0 : S10000x128.Idx → EReal) (((cfg1.win 2).blk t).view.emb (ix2 p q)) = (V c main_v11_0 : S10000x128.Idx → EReal) (ix2 r q)
  refine congrArg (V c main_v11_0 : S10000x128.Idx → EReal) (funext fun a => Fin.ext ?_)
  match a with
  | ⟨0, _⟩ => show win1_2.index t (0 : Fin 2) * 400 + 1 * p.val = r.val; omega
  | ⟨1, _⟩ => show win1_2.index t (1 : Fin 2) * 128 + 1 * q.val = q.val; omega

theorem blk1_3_at (c : Dev nD) (t : Fin cfg1.N) (q : Fin 128) :
    (iblk1 (F := Ideal) V c 3 t : Vec Ideal S1x128 .f32) (ix2 (0 : Fin 1) q) = rB2 V c q := by
  obtain ⟨e0, e1⟩ := idx1_3 t
  show (V c main_v9 : S1x128.Idx → EReal) (((cfg1.win 3).blk t).view.emb (ix2 (0 : Fin 1) q)) = (V c main_v9 : S1x128.Idx → EReal) (ix2 (0 : Fin 1) q)
  refine congrArg (V c main_v9 : S1x128.Idx → EReal) (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 128 + 1 * q.val = q.val; omega

theorem blk1_4_at (c : Dev nD) (t : Fin cfg1.N) (k l : Fin 128) :
    (iblk1 (F := Ideal) V c 4 t : Vec Ideal S128x128 .f32) (ix2 k l) = rW3 V c k l := by
  obtain ⟨e0, e1⟩ := idx1_4 t
  show (V c main_arg6 : S128x128.Idx → EReal) (((cfg1.win 4).blk t).view.emb (ix2 k l)) = (V c main_arg6 : S128x128.Idx → EReal) (ix2 k l)
  refine congrArg (V c main_arg6 : S128x128.Idx → EReal) (funext fun a => Fin.ext ?_)
  match a with
  | ⟨0, _⟩ => show win1_4.index t (0 : Fin 2) * 128 + 1 * k.val = k.val; omega
  | ⟨1, _⟩ => show win1_4.index t (1 : Fin 2) * 128 + 1 * l.val = l.val; omega

theorem blk1_5_at (c : Dev nD) (t : Fin cfg1.N) (k l : Fin 128) :
    (iblk1 (F := Ideal) V c 5 t : Vec Ideal S128x128 .f32) (ix2 k l) = rLW1 V c k l := by
  obtain ⟨e0, e1⟩ := idx1_5 t
  show (V c main_v1 : S128x128.Idx → EReal) (((cfg1.win 5).blk t).view.emb (ix2 k l)) = (V c main_v1 : S128x128.Idx → EReal) (ix2 k l)
  refine congrArg (V c main_v1 : S128x128.Idx → EReal) (funext fun a => Fin.ext ?_)
  match a with
  | ⟨0, _⟩ => show win1_5.index t (0 : Fin 2) * 128 + 1 * k.val = k.val; omega
  | ⟨1, _⟩ => show win1_5.index t (1 : Fin 2) * 128 + 1 * l.val = l.val; omega

theorem blk1_6_at (c : Dev nD) (t : Fin cfg1.N) (k l : Fin 128) :
    (iblk1 (F := Ideal) V c 6 t : Vec Ideal S128x128 .f32) (ix2 k l) = rLW2 V c k l := by
  obtain ⟨e0, e1⟩ := idx1_6 t
  show (V c main_v3 : S128x128.Idx → EReal) (((cfg1.win 6).blk t).view.emb (ix2 k l)) = (V c main_v3 : S128x128.Idx → EReal) (ix2 k l)
  refine congrArg (V c main_v3 : S128x128.Idx → EReal) (funext fun a => Fin.ext ?_)
  match a with
  | ⟨0, _⟩ => show win1_6.index t (0 : Fin 2) * 128 + 1 * k.val = k.val; omega
  | ⟨1, _⟩ => show win1_6.index t (1 : Fin 2) * 128 + 1 * l.val = l.val; omega

theorem blk1_7_at (c : Dev nD) (t : Fin cfg1.N) (k l : Fin 128) :
    (iblk1 (F := Ideal) V c 7 t : Vec Ideal S128x128 .f32) (ix2 k l) = rLW3 V c k l := by
  obtain ⟨e0, e1⟩ := idx1_7 t
  show (V c main_v5 : S128x128.Idx → EReal) (((cfg1.win 7).blk t).view.emb (ix2 k l)) = (V c main_v5 : S128x128.Idx → EReal) (ix2 k l)
  refine congrArg (V c main_v5 : S128x128.Idx → EReal) (funext fun a => Fin.ext ?_)
  match a with
  | ⟨0, _⟩ => show win1_7.index t (0 : Fin 2) * 128 + 1 * k.val = k.val; omega
  | ⟨1, _⟩ => show win1_7.index t (1 : Fin 2) * 128 + 1 * l.val = l.val; omega

theorem blk1_8_at (c : Dev nD) (t : Fin cfg1.N) (k : Fin 128) :
    (iblk1 (F := Ideal) V c 8 t : Vec Ideal S1x128 .f32) (ix2 (0 : Fin 1) k) = rB3 V c k := by
  obtain ⟨e0, e1⟩ := idx1_8 t
  show (V c main_v10 : S1x128.Idx → EReal) (((cfg1.win 8).blk t).view.emb (ix2 (0 : Fin 1) k)) = (V c main_v10 : S1x128.Idx → EReal) (ix2 (0 : Fin 1) k)
  refine congrArg (V c main_v10 : S1x128.Idx → EReal) (funext fun a => Fin.ext ?_)
  match a with
  | ⟨0, _⟩ => show win1_8.index t (0 : Fin 2) * 1 + 1 * (0 : Fin 1).val = (0 : Fin 1).val; omega
  | ⟨1, _⟩ => show win1_8.index t (1 : Fin 2) * 128 + 1 * k.val = k.val; omega

theorem blk1_9_at (c : Dev nD) (t : Fin cfg1.N) (l : Fin 128) :
    (iblk1 (F := Ideal) V c 9 t : Vec Ideal S1x128 .f32) (ix2 (0 : Fin 1) l) = rLB V c l := by
  obtain ⟨e0, e1⟩ := idx1_9 t
  show (V c main_v7 : S1x128.Idx → EReal) (((cfg1.win 9).blk t).view.emb (ix2 (0 : Fin 1) l)) = (V c main_v7 : S1x128.Idx → EReal) (ix2 (0 : Fin 1) l)
  refine congrArg (V c main_v7 : S1x128.Idx → EReal) (funext fun a => Fin.ext ?_)
  match a with
  | ⟨0, _⟩ => show win1_9.index t (0 : Fin 2) * 1 + 1 * (0 : Fin 1).val = (0 : Fin 1).val; omega
  | ⟨1, _⟩ => show win1_9.index t (1 : Fin 2) * 128 + 1 * l.val = l.val; omega

theorem pt2_val (r : Fin 10000) : (pt2 r).val = 25 + r.val / 400 := rfl
theorem rowIn_val (r : Fin 10000) : (rowIn r).val = r.val % 400 := rfl

/-- The adjacency block of the second-pass point of row `r`, at that row. -/
theorem blk1_0_at (c : Dev nD) (r : Fin 10000) (j : Fin 10000) :
    (iblk1 (F := Ideal) V c 0 (pt2 r) : Vec Ideal S400x10000 .bf16) (ix2 (rowIn r) j) = rA16 V c r j :=
  blk1_0_gen V c (pt2 r) (rowIn r) j r (by
    have h1 := pt2_val r
    have h2 := rowIn_val r
    have h3 : r.val < 10000 := r.isLt
    omega)

/-- The slab of a scratch array the second-pass point of row `r` reads, at that row. -/
theorem slab_gen (g : Vec Ideal S10000x128 .f32) (r : Fin 10000) (l : Fin 128) (hR : condR (grid1.coords (pt2 r))) :
    slabOf (grid1.coords (pt2 r)) hR g (ix2 (rowIn r) l) = g (ix2 r l) := by
  obtain ⟨e0, e1⟩ := off2_facts (pt2 r)
  have h1 := pt2_val r
  have h2 := rowIn_val r
  have h3 : r.val < 10000 := r.isLt
  show g ((Rect.unit (s := S10000x128) (k1_off2 (grid1.coords (pt2 r))) S400x128.size (k1_off2_inb (grid1.coords (pt2 r)) hR)).idx (ix2 (rowIn r) l)) = g (ix2 r l)
  refine congrArg g (funext fun a => Fin.ext ?_)
  match a with
  | ⟨0, _⟩ => show k1_off2 (grid1.coords (pt2 r)) (0 : Fin 2) + 1 * (rowIn r).val = r.val; omega
  | ⟨1, _⟩ => show k1_off2 (grid1.coords (pt2 r)) (1 : Fin 2) + 1 * l.val = l.val; omega

theorem slab_at (c : Dev nD) (r : Fin 10000) (l : Fin 128) (hR : condR (grid1.coords (pt2 r))) :
    slabOf (grid1.coords (pt2 r)) hR (P12full (F := Ideal) V c) (ix2 (rowIn r) l) = P12full (F := Ideal) V c (ix2 r l) :=
  slab_gen (P12full (F := Ideal) V c) r l hR

/-! ## The output array -/

/-- The output block is the one stored value. -/
theorem outO_eq (a : Vec Ideal S400x10000 .bf16) (s16 : Vec Ideal S10000x128 .bf16) (b3 : Vec Ideal S1x128 .f32)
    (lw3 : Vec Ideal S128x128 .f32) (p12 : Vec Ideal S400x128 .f32) (lb : Vec Ideal S1x128 .f32) :
    outO a s16 b3 lw3 p12 lb = k1_pay8 (F := Ideal) a s16 b3 lw3 p12 lb := by
  unfold outO
  rw [View.canon_unit_zero hz2]
  simp only [View.ld_unit_zero (S := S400x10000) hz2, View.ld_unit_zero (S := S10000x128) hz2,
    View.ld_unit_zero (S := S1x128) hz2, View.ld_unit_zero (S := S128x128) hz2]

/-- The value a point of the second pass stores at a row of its block and a class. -/
def outAt (c : Dev nD) (t : Fin cfg1.N) (hR : condR (grid1.coords t)) (p : Fin 400) (cls : Fin 4) : EReal :=
  k1_pay8 (F := Ideal) (iblk1 V c 0 t) (S16 V c) (iblk1 V c 8 t) (iblk1 V c 7 t)
    (slabOf (grid1.coords t) hR (P12full V c)) (iblk1 V c 9 t) (ix2 p cls)

theorem outAt_congr (c : Dev nD) {t t' : Fin cfg1.N} (h : t = t') (hR : condR (grid1.coords t))
    (hR' : condR (grid1.coords t')) {p p' : Fin 400} (hp : p = p') (cls : Fin 4) :
    outAt V c t hR p cls = outAt V c t' hR' p' cls := by
  subst h; subst hp; rfl

theorem OutBlk_at (c : Dev nD) (t : Fin cfg1.N) (hR : condR (grid1.coords t)) (p : Fin 400) (cls : Fin 4) :
    OutBlk (F := Ideal) V c t (ix2 p cls) = outAt V c t hR p cls := by
  unfold OutBlk
  rw [dif_pos hR]
  exact congrFun (outO_eq _ _ _ _ _ _) (ix2 p cls)

/-- The output as an array: row `r` is row `r mod 400` of what point `25 + r / 400` stores. -/
abbrev G10 (c : Dev nD) : S10000x4.Idx → EReal := fun i =>
  outAt V c (pt2 (i 0)) (condR_pt2 (i 0)) (rowIn (i 0)) (i 1)

theorem G10_ix2 (c : Dev nD) (r : Fin 10000) (cls : Fin 4) :
    G10 V c (ix2 r cls) = outAt V c (pt2 r) (condR_pt2 r) (rowIn r) cls := rfl

theorem emb10 (t : Fin cfg1.N) (ht : 25 ≤ t.val) (p : Fin 400) (cls : Fin 4) (r : Fin 10000)
    (hr : r.val = 400 * (t.val - 25) + p.val) :
    ((cfg1.win 10).blk t).view.emb (ix2 p cls) = ix2 r cls := by
  obtain ⟨e0, e1⟩ := idx1_10 t
  have e0' := e0 ht
  refine funext fun a => Fin.ext ?_
  match a with
  | ⟨0, _⟩ => show win1_10.index t (0 : Fin 2) * 400 + 1 * p.val = r.val; omega
  | ⟨1, _⟩ => show win1_10.index t (1 : Fin 2) * 4 + 1 * cls.val = cls.val; omega

theorem read10 (c : Dev nD) (t : Fin cfg1.N) (hR : condR (grid1.coords t)) (ht : 25 ≤ t.val) (y : S400x4.Idx) :
    OutBlk (F := Ideal) V c t y = G10 V c (((cfg1.win 10).blk t).view.emb y) := by
  obtain ⟨p, cls, rfl⟩ : ∃ (p : Fin 400) (cls : Fin 4), y = ix2 p cls := ⟨y 0, y 1, eq_ix2 y⟩
  have hN : cfg1.N = 50 := N_1
  have htl := t.isLt
  have hp := p.isLt
  have hrow : 400 * (t.val - 25) + p.val < 10000 := by omega
  have e := emb10 t ht p cls ⟨400 * (t.val - 25) + p.val, hrow⟩ rfl
  have hpt : t = pt2 ⟨400 * (t.val - 25) + p.val, hrow⟩ :=
    Fin.ext (by show t.val = 25 + (400 * (t.val - 25) + p.val) / 400; omega)
  have hrw : p = rowIn ⟨400 * (t.val - 25) + p.val, hrow⟩ :=
    Fin.ext (by show p.val = (400 * (t.val - 25) + p.val) % 400; omega)
  exact (OutBlk_at V c t hR p cls).trans
    ((outAt_congr V c hpt hR (condR_pt2 _) hrw cls).trans
      ((G10_ix2 V c _ cls).symm.trans (congrArg (G10 V c) e.symm)))

theorem flushed10_eq (c : Dev nD) (t : Fin cfg1.N) (hf : (cfg1.win 10).flush t = true) :
    (dat1 (F := Ideal) V c).flushed 10 t = ((cfg1.win 10).blk t).view.read (Elt Ideal) (G10 V c) := by
  have ht : 25 ≤ t.val := (flush1_10 t).mp hf
  have hR : condR (grid1.coords t) := (hcondR t).mpr ht
  show (cfg1.win 10).cut (grid1.coords t) ((dat1 V c).after 10 t) = _
  rw [after1_10]
  funext y
  exact read10 V c t hR ht y

theorem mem_blk10 (t : Fin cfg1.N) (i : S10000x4.Idx) :
    i ∈ ((cfg1.win 10).blk t).view.set ↔ ∀ a : Fin 2, win1_10.index t a * S400x4.size a ≤ (i a).val ∧ (i a).val < win1_10.index t a * S400x4.size a + S400x4.size a := by
  show i ∈ ((View.whole main_v12).slice (win1_10.rect t)).set ↔ _
  rw [View.set_slice_whole, Rect.mem_set_unit]
  exact Iff.rfl

/-- Row `r` of the output is in the block the second-pass point `25 + r / 400` writes back. -/
theorem cover10 (i : S10000x4.Idx) :
    ∃ t : Fin cfg1.N, (cfg1.win 10).flush t = true ∧ i ∈ ((cfg1.win 10).blk t).view.set := by
  have hi0 : (i 0).val < 10000 := (i 0).isLt
  have hi1 : (i 1).val < 4 := (i 1).isLt
  have hpv : (pt2 (i 0)).val = 25 + (i 0).val / 400 := rfl
  obtain ⟨e0, e1⟩ := idx1_10 (pt2 (i 0))
  have e0' := e0 (by omega)
  refine ⟨pt2 (i 0), (flush1_10 _).mpr (by omega), ?_⟩
  rw [mem_blk10]
  intro a
  match a with
  | ⟨0, _⟩ =>
    show win1_10.index (pt2 (i 0)) (0 : Fin 2) * 400 ≤ (i 0).val
      ∧ (i 0).val < win1_10.index (pt2 (i 0)) (0 : Fin 2) * 400 + 400
    omega
  | ⟨1, _⟩ =>
    show win1_10.index (pt2 (i 0)) (1 : Fin 2) * 4 ≤ (i 1).val
      ∧ (i 1).val < win1_10.index (pt2 (i 0)) (1 : Fin 2) * 4 + 4
    omega

theorem final10 (c : Dev nD) : (dat1 (F := Ideal) V c).arrAt 10 cfg1.N = G10 V c :=
  (dat1 (F := Ideal) V c).arrAt_eq_of_cover 10 (G10 V c) (fun t hf => flushed10_eq V c t hf) cover10

theorem out_array (c : Dev nD) (r : Fin 10000) (cls : Fin 4) (hR : condR (grid1.coords (pt2 r))) :
    (dat1 (F := Ideal) V c).arrAt 10 cfg1.N (ix2 r cls)
      = k1_pay8 (F := Ideal) (iblk1 V c 0 (pt2 r)) (S16 V c) (iblk1 V c 8 (pt2 r)) (iblk1 V c 7 (pt2 r))
          (slabOf (grid1.coords (pt2 r)) hR (P12full V c)) (iblk1 V c 9 (pt2 r)) (ix2 (rowIn r) cls) :=
  (congrFun (final10 V c) (ix2 r cls)).trans (G10_ix2 V c r cls)

/-! ## The first pass's stored values at a row and a column -/

/-- The block of the second hidden layer: `max (a · s + b) 0`. -/
theorem k1_pay3_at (a : Vec Ideal S400x10000 .bf16) (s : Vec Ideal S10000x128 .bf16) (b : Vec Ideal S1x128 .f32)
    (p : Fin 400) (q : Fin 128) :
    k1_pay3 (F := Ideal) a s b (ix2 p q)
      = max ((∑ j : Fin 10000, a (ix2 p j) * s (ix2 j q)) + b (ix2 (0 : Fin 1) q)) 0 := by
  unfold k1_pay3
  show max (matmul (F := Ideal) dot_S400x10000_S10000x128_S400x128_1_0_0_1_n_n none
        (shapeCast S400x10000 a shapeCasts_S400x10000_S400x10000) (shapeCast S10000x128 s shapeCasts_S10000x128_S10000x128)
        (constant (F := Ideal) S400x128 .f32 0x00000000#32) (ix2 p q)
      + broadcastTo S400x128 (shapeCast S1x128 b shapeCasts_S1x128_S1x128) broadcasts_S1x128_S400x128 (ix2 p q))
      (Ideal.ofBits .f32 0x00000000#32) = _
  have ea : shapeCast S400x10000 a shapeCasts_S400x10000_S400x10000 = a := shapeCast_self _ _
  have es : shapeCast S10000x128 s shapeCasts_S10000x128_S10000x128 = s := shapeCast_self _ _
  have e1 := mmAS_at (φ₁ := .bf16) (φ₂ := .bf16) a s p q
  rw [ea, es]
  have e2 : broadcastTo S400x128 (shapeCast S1x128 b shapeCasts_S1x128_S1x128) broadcasts_S1x128_S400x128 (ix2 p q)
      = b (ix2 (0 : Fin 1) q) := by
    refine (broadcastTo_apply _ broadcasts_S1x128_S400x128 (ix2 p q) (ix2 (0 : Fin 1) q) (fun x => ?_)).trans
      (congrFun (shapeCast_self b shapeCasts_S1x128_S1x128) _)
    match x with
    | ⟨0, _⟩ => rfl
    | ⟨1, _⟩ => rfl
  rw [e1, e2, Ideal.ofBits_zero_f32]

theorem k1_pay6_at (a : Vec Ideal S400x10000 .bf16) (s : Vec Ideal S10000x128 .bf16) (b : Vec Ideal S1x128 .f32)
    (j : S400x128.Idx) : k1_pay6 (F := Ideal) a s b j = k1_pay3 (F := Ideal) a s b j := rfl

theorem k1_pay7_at (w : Vec Ideal S128x128 .f32) (j : S128x128.Idx) : k1_pay7 (F := Ideal) w j = w j := by
  unfold k1_pay7
  exact congrFun (shapeCast_self w shapeCasts_S128x128_S128x128) j

theorem k1_pay2_at (g : Vec Ideal S10000x128 .f32) (j : S10000x128.Idx) : k1_pay2 (F := Ideal) g j = g j := by
  unfold k1_pay2
  exact congrFun (shapeCast_self (truncf (F := Ideal) .bf16 g bitsLt_bf16_f32) shapeCasts_S10000x128_S10000x128) j

/-- `((h · W3) · LW3)` of the block `h` of the second hidden layer. -/
theorem k1_pay4_at (a : Vec Ideal S400x10000 .bf16) (s : Vec Ideal S10000x128 .bf16) (b : Vec Ideal S1x128 .f32)
    (w3 lw3 : Vec Ideal S128x128 .f32) (p : Fin 400) (l : Fin 128) :
    k1_pay4 (F := Ideal) a s b w3 lw3 (ix2 p l)
      = ∑ k : Fin 128, (∑ j : Fin 128, k1_pay3 (F := Ideal) a s b (ix2 p j) * w3 (ix2 j k)) * lw3 (ix2 k l) := by
  unfold k1_pay4
  show shapeCast S400x128 (matmul (F := Ideal) dot_S400x128_S128x128_S400x128_1_0_0_1_n_n none
      (truncf (F := Ideal) .bf16 (matmul (F := Ideal) dot_S400x128_S128x128_S400x128_1_0_0_1_n_n none
        (truncf (F := Ideal) .bf16 (k1_pay3 (F := Ideal) a s b) bitsLt_bf16_f32) (truncf (F := Ideal) .bf16 w3 bitsLt_bf16_f32)
        (constant (F := Ideal) S400x128 .f32 0x00000000#32)) bitsLt_bf16_f32)
      (truncf (F := Ideal) .bf16 (shapeCast S128x128 lw3 shapeCasts_S128x128_S128x128) bitsLt_bf16_f32)
      (constant (F := Ideal) S400x128 .f32 0x00000000#32)) shapeCasts_S400x128_S400x128 (ix2 p l) = _
  refine (congrFun (shapeCast_self _ shapeCasts_S400x128_S400x128) (ix2 p l)).trans ?_
  refine (mmHW_at (φ₁ := .bf16) (φ₂ := .bf16) _ _ p l).trans ?_
  refine Finset.sum_congr rfl fun k _ => congrArg₂ (· * ·) ?_ ?_
  · exact mmHW_at (φ₁ := .bf16) (φ₂ := .bf16) (truncf (F := Ideal) .bf16 (k1_pay3 (F := Ideal) a s b) bitsLt_bf16_f32)
      (truncf (F := Ideal) .bf16 w3 bitsLt_bf16_f32) p k
  · exact congrFun (shapeCast_self lw3 shapeCasts_S128x128_S128x128) (ix2 k l)

/-- `x1block · LW1`. -/
theorem k1_pay5_at (x1b : Vec Ideal S400x128 .bf16) (lw1 : Vec Ideal S128x128 .f32) (p : Fin 400) (l : Fin 128) :
    k1_pay5 (F := Ideal) x1b lw1 (ix2 p l) = ∑ k : Fin 128, x1b (ix2 p k) * lw1 (ix2 k l) := by
  unfold k1_pay5
  refine (mmHW_at (φ₁ := .bf16) (φ₂ := .bf16) (shapeCast S400x128 x1b shapeCasts_S400x128_S400x128)
    (truncf (F := Ideal) .bf16 (shapeCast S128x128 lw1 shapeCasts_S128x128_S128x128) bitsLt_bf16_f32) p l).trans ?_
  exact Finset.sum_congr rfl fun k _ => congrArg₂ (· * ·)
    (congrFun (shapeCast_self x1b shapeCasts_S400x128_S400x128) (ix2 p k))
    (congrFun (shapeCast_self lw1 shapeCasts_S128x128_S128x128) (ix2 k l))

/-- A product added onto a block. -/
theorem k1_pay1_at (v41 : FVec Ideal S400x128 .f32) (v44 : FVec Ideal S400x128 .bf16) (v45 : FVec Ideal S128x128 .bf16)
    (p : Fin 400) (l : Fin 128) :
    k1_pay1 (F := Ideal) v41 v44 v45 (constant (F := Ideal) S400x128 .f32 0x00000000#32) (ix2 p l)
      = v41 (ix2 p l) + ∑ k : Fin 128, v44 (ix2 p k) * v45 (ix2 k l) := by
  unfold k1_pay1
  refine (congrFun (shapeCast_self _ shapeCasts_S400x128_S400x128) (ix2 p l)).trans ?_
  exact congrArg (v41 (ix2 p l) + ·) (mmHW_at (φ₁ := .bf16) (φ₂ := .bf16) v44 v45 p l)

theorem payT3_eq (a : Vec Ideal S400x10000 .bf16) (s2 : Vec Ideal S10000x128 .bf16) (b2 : Vec Ideal S1x128 .f32)
    (w3 lw3 : Vec Ideal S128x128 .f32) : payT3 a s2 b2 w3 lw3 = k1_pay4 (F := Ideal) a s2 b2 w3 lw3 := by
  unfold payT3
  simp only [View.ld_unit_zero (S := S400x10000) hz2, View.ld_unit_zero (S := S10000x128) hz2,
    View.ld_unit_zero (S := S1x128) hz2, View.ld_unit_zero (S := S128x128) hz2]

theorem payP12_eq (a : Vec Ideal S400x10000 .bf16) (s2 : Vec Ideal S10000x128 .bf16) (x1b : Vec Ideal S400x128 .bf16)
    (b2 : Vec Ideal S1x128 .f32) (lw1 lw2 : Vec Ideal S128x128 .f32) :
    payP12 a s2 x1b b2 lw1 lw2
      = k1_pay1 (F := Ideal) (k1_pay5 (F := Ideal) x1b lw1) (k1_pay6 (F := Ideal) a s2 b2) (k1_pay7 (F := Ideal) lw2)
          (constant (F := Ideal) S400x128 .f32 0x00000000#32) := by
  unfold payP12
  simp only [View.ld_unit_zero (S := S400x10000) hz2, View.ld_unit_zero (S := S10000x128) hz2,
    View.ld_unit_zero (S := S1x128) hz2, View.ld_unit_zero (S := S128x128) hz2, View.ld_unit_zero (S := S400x128) hz2]

theorem outS16_eq (g : Vec Ideal S10000x128 .f32) : outS16 g = k1_pay2 (F := Ideal) g := by
  unfold outS16
  rw [View.canon_unit_zero hz2]
  simp only [View.ld_unit_zero (S := S10000x128) hz2]

/-! ## The two scratch arrays after the first pass -/

/-- Row `p` of a first-pass point's block of the second hidden layer is row `400·t + p` of the layer. -/
theorem pay3_blk1_at (c : Dev nD) (t : Fin cfg1.N) (ht : t.val < 25) (p : Fin 400) (q : Fin 128) (r : Fin 10000)
    (hr : r.val = 400 * t.val + p.val) :
    k1_pay3 (F := Ideal) (iblk1 V c 0 t) (iblk1 V c 1 t) (iblk1 V c 3 t) (ix2 p q) = rX2 V c r q := by
  refine (k1_pay3_at _ _ _ p q).trans ?_
  show max (_ + _) 0 = max (mm (rA16 V c) (rS2 V c) r q + rB2 V c q) 0
  exact congrArg₂ max
    (congrArg₂ (· + ·)
      (Finset.sum_congr rfl fun j _ => congrArg₂ (· * ·)
        (blk1_0_gen V c t p j r (by omega)) (blk1_1_at V c t j q))
      (blk1_3_at V c t q))
    rfl

theorem T3blk_at (c : Dev nD) (t : Fin cfg1.N) (ht : t.val < 25) (p : Fin 400) (l : Fin 128) (r : Fin 10000)
    (hr : r.val = 400 * t.val + p.val) :
    T3blk (F := Ideal) V c t (ix2 p l) = mm (mm (rX2 V c) (rW3 V c)) (rLW3 V c) r l := by
  unfold T3blk
  rw [payT3_eq]
  refine (k1_pay4_at _ _ _ _ _ p l).trans ?_
  exact Finset.sum_congr rfl fun k _ => congrArg₂ (· * ·)
    (Finset.sum_congr rfl fun j _ => congrArg₂ (· * ·) (pay3_blk1_at V c t ht p j r hr) (blk1_4_at V c t j k))
    (blk1_7_at V c t k l)

theorem P12blk_at (c : Dev nD) (t : Fin cfg1.N) (ht : t.val < 25) (p : Fin 400) (l : Fin 128) (r : Fin 10000)
    (hr : r.val = 400 * t.val + p.val) :
    P12blk (F := Ideal) V c t (ix2 p l) = mm (rX1 V c) (rLW1 V c) r l + mm (rX2 V c) (rLW2 V c) r l := by
  unfold P12blk
  rw [payP12_eq]
  refine (k1_pay1_at _ _ _ p l).trans ?_
  refine congrArg₂ (· + ·) ?_ ?_
  · refine (k1_pay5_at _ _ p l).trans ?_
    exact Finset.sum_congr rfl fun k _ => congrArg₂ (· * ·) (blk1_2_at V c t ht p k r hr) (blk1_5_at V c t k l)
  · exact Finset.sum_congr rfl fun k _ => congrArg₂ (· * ·)
      ((k1_pay6_at _ _ _ (ix2 p k)).trans (pay3_blk1_at V c t ht p k r hr))
      ((k1_pay7_at _ (ix2 k l)).trans (blk1_6_at V c t k l))

/-- The first-pass point whose slab holds row `r`. -/
def pt1 (r : Fin 10000) : Fin cfg1.N :=
  ⟨r.val / 400, by
    have hN : cfg1.N = 50 := N_1
    have hr : r.val < 10000 := r.isLt
    omega⟩

theorem T3full_ix2 (c : Dev nD) (r : Fin 10000) (l : Fin 128) :
    T3full (F := Ideal) V c (ix2 r l) = T3blk (F := Ideal) V c (pt1 r) (ix2 (rowIn r) l) := rfl

theorem P12full_ix2 (c : Dev nD) (r : Fin 10000) (l : Fin 128) :
    P12full (F := Ideal) V c (ix2 r l) = P12blk (F := Ideal) V c (pt1 r) (ix2 (rowIn r) l) := rfl

theorem pt1_row (r : Fin 10000) : (pt1 r).val < 25 ∧ r.val = 400 * (pt1 r).val + (rowIn r).val := by
  have h1 : (pt1 r).val = r.val / 400 := rfl
  have h2 : (rowIn r).val = r.val % 400 := rfl
  have h3 : r.val < 10000 := r.isLt
  omega

theorem T3full_at (c : Dev nD) (r : Fin 10000) (l : Fin 128) :
    T3full (F := Ideal) V c (ix2 r l) = mm (mm (rX2 V c) (rW3 V c)) (rLW3 V c) r l :=
  (T3full_ix2 V c r l).trans (T3blk_at V c (pt1 r) (pt1_row r).1 (rowIn r) l r (pt1_row r).2)

theorem P12full_at (c : Dev nD) (r : Fin 10000) (l : Fin 128) :
    P12full (F := Ideal) V c (ix2 r l) = mm (rX1 V c) (rLW1 V c) r l + mm (rX2 V c) (rLW2 V c) r l :=
  (P12full_ix2 V c r l).trans (P12blk_at V c (pt1 r) (pt1_row r).1 (rowIn r) l r (pt1_row r).2)

theorem S16_at (c : Dev nD) (r : Fin 10000) (l : Fin 128) :
    S16 (F := Ideal) V c (ix2 r l) = T3full (F := Ideal) V c (ix2 r l) := by
  unfold S16
  rw [outS16_eq]
  exact k1_pay2_at _ (ix2 r l)

end Cert.KernelIdeal.Hand

end
-- ==== Proof.Algebra.lean ====
/-
  The algebra of the certificate: the real numbers inside the extended reals are closed under the operations
  the network uses; the two spellings of the logits agree on real inputs; the log-softmax does not depend on
  a finite shift; and two small facts about masked sums and running maxima.

  The agreement of the logits is proved in two steps. First, with no hypothesis, the 384-wide sum of the
  joined spelling is cut into its three blocks of 128, which are the products with the three row blocks of
  the head's weights. Second, on real entries, the third block
      Σ_k (Σ_j adj i j · U j k + b3 k) · LW3 k c      (U = x2 · W3)
  is Σ_j adj i j · (Σ_k U j k · LW3 k c) + Σ_k b3 k · LW3 k c: an identity of finite real sums
  (distributivity and an exchange of the two summations), carried to the extended reals through the
  coercion, which commutes with sums and products of reals.
-/
import proofs.«143550_g111669150054_cont_sun_m_211_32_alg».proof.Proof.Spec

noncomputable section

namespace Cert.Gcn

open Idealize.ShloMosaic

/-- The coercion of the reals into the extended reals commutes with finite sums. -/
theorem coe_sum {ι : Type} (s : Finset ι) (f : ι → ℝ) :
    ((∑ q ∈ s, f q : ℝ) : EReal) = ∑ q ∈ s, (f q : EReal) := by
  classical
  induction s using Finset.induction_on with
  | empty => simp
  | insert a s ha ih => rw [Finset.sum_insert ha, Finset.sum_insert ha, EReal.coe_add, ih]

/-- A sum over 384 positions is the sum of its three blocks of 128. -/
theorem sum_384 {M : Type} [AddCommMonoid M] (g : Fin 384 → M) :
    ∑ q : Fin 384, g q
      = ((∑ q : Fin 128, g ⟨q.val, by omega⟩) + ∑ q : Fin 128, g ⟨128 + q.val, by omega⟩)
        + ∑ q : Fin 128, g ⟨256 + q.val, by omega⟩ := by
  have h1 := Fin.sum_univ_add (a := 256) (b := 128) (fun q : Fin (256 + 128) => g q)
  have h2 := Fin.sum_univ_add (a := 128) (b := 128) (fun q : Fin (128 + 128) => g (Fin.castAdd 128 q))
  refine h1.trans ?_
  rw [h2]
  rfl

/-- The real identity behind the fold: a bias-carrying matrix product followed by a contraction is the
    contraction pushed inside, plus the contracted bias. -/
theorem fold_real {n h : ℕ} (a : Fin n → ℝ) (V : Fin n → Fin h → ℝ) (b L : Fin h → ℝ) :
    ∑ k : Fin h, (∑ j : Fin n, a j * V j k + b k) * L k
      = ∑ j : Fin n, a j * (∑ k : Fin h, V j k * L k) + ∑ k : Fin h, b k * L k := by
  simp only [add_mul, Finset.sum_add_distrib, Finset.sum_mul, Finset.mul_sum]
  congr 1
  rw [Finset.sum_comm]
  refine Finset.sum_congr rfl (fun j _ => Finset.sum_congr rfl (fun k _ => ?_))
  ring

theorem isReal_add {a b : EReal} (ha : IsReal a) (hb : IsReal b) : IsReal (a + b) := by
  obtain ⟨r, rfl⟩ := ha
  obtain ⟨s, rfl⟩ := hb
  exact ⟨r + s, (EReal.coe_add r s).symm⟩

theorem isReal_mul {a b : EReal} (ha : IsReal a) (hb : IsReal b) : IsReal (a * b) := by
  obtain ⟨r, rfl⟩ := ha
  obtain ⟨s, rfl⟩ := hb
  exact ⟨r * s, (EReal.coe_mul r s).symm⟩

theorem isReal_max {a b : EReal} (ha : IsReal a) (hb : IsReal b) : IsReal (max a b) := by
  rcases max_choice a b with h | h <;> rw [h] <;> assumption

theorem isReal_zero : IsReal (0 : EReal) := ⟨0, EReal.coe_zero.symm⟩

theorem isReal_sum {ι : Type} (s : Finset ι) (f : ι → EReal) (hf : ∀ q ∈ s, IsReal (f q)) :
    IsReal (∑ q ∈ s, f q) := by
  classical
  induction s using Finset.induction_on with
  | empty => simpa using isReal_zero
  | insert a s ha ih =>
    rw [Finset.sum_insert ha]
    exact isReal_add (hf a (Finset.mem_insert_self a s))
      (ih (fun q hq => hf q (Finset.mem_insert_of_mem hq)))

theorem mm_real {a k b : ℕ} {A : Fin a → Fin k → EReal} {B : Fin k → Fin b → EReal}
    (hA : ∀ i q, IsReal (A i q)) (hB : ∀ q j, IsReal (B q j)) (i : Fin a) (j : Fin b) :
    IsReal (mm A B i j) :=
  isReal_sum _ _ (fun q _ => isReal_mul (hA i q) (hB q j))

theorem conv_real {n h : ℕ} {adj : Fin n → Fin n → EReal} {S : Fin n → Fin h → EReal} {b : Fin h → EReal}
    (hadj : ∀ i j, IsReal (adj i j)) (hS : ∀ i j, IsReal (S i j)) (hb : ∀ j, IsReal (b j))
    (i : Fin n) (j : Fin h) : IsReal (conv adj S b i j) :=
  isReal_max (isReal_add (mm_real hadj hS i j) (hb j)) isReal_zero

theorem x1_real {x : Fin 10000 → Fin 128 → EReal} {adj : Fin 10000 → Fin 10000 → EReal}
    {W1 : Fin 128 → Fin 128 → EReal} {b1 : Fin 128 → EReal}
    (hx : ∀ i j, IsReal (x i j)) (hadj : ∀ i j, IsReal (adj i j)) (hW1 : ∀ i j, IsReal (W1 i j))
    (hb1 : ∀ j, IsReal (b1 j)) (i : Fin 10000) (j : Fin 128) : IsReal (x1 x adj W1 b1 i j) :=
  conv_real hadj (mm_real hx hW1) hb1 i j

theorem x2_real {x : Fin 10000 → Fin 128 → EReal} {adj : Fin 10000 → Fin 10000 → EReal}
    {W1 : Fin 128 → Fin 128 → EReal} {b1 : Fin 128 → EReal} {W2 : Fin 128 → Fin 128 → EReal}
    {b2 : Fin 128 → EReal}
    (hx : ∀ i j, IsReal (x i j)) (hadj : ∀ i j, IsReal (adj i j)) (hW1 : ∀ i j, IsReal (W1 i j))
    (hb1 : ∀ j, IsReal (b1 j)) (hW2 : ∀ i j, IsReal (W2 i j)) (hb2 : ∀ j, IsReal (b2 j))
    (i : Fin 10000) (j : Fin 128) : IsReal (x2 x adj W1 b1 W2 b2 i j) :=
  conv_real hadj (mm_real (x1_real hx hadj hW1 hb1) hW2) hb2 i j

/-- The fold on the extended reals, valid when every entry is a real number. -/
theorem fold_ereal {n h : ℕ} (a : Fin n → EReal) (V : Fin n → Fin h → EReal) (b L : Fin h → EReal)
    (ha : ∀ j, IsReal (a j)) (hV : ∀ j k, IsReal (V j k)) (hb : ∀ k, IsReal (b k))
    (hL : ∀ k, IsReal (L k)) :
    ∑ k : Fin h, (∑ j : Fin n, a j * V j k + b k) * L k
      = ∑ j : Fin n, a j * (∑ k : Fin h, V j k * L k) + ∑ k : Fin h, b k * L k := by
  choose ar har using ha
  choose Vr hVr using hV
  choose br hbr using hb
  choose Lr hLr using hL
  simp only [har, hVr, hbr, hLr, ← EReal.coe_mul, ← coe_sum, ← EReal.coe_add]
  exact congrArg _ (fold_real ar Vr br Lr)

theorem row_congr {α : Type} {m : ℕ} (F : Fin m → α) {a b : Fin m} (h : a.val = b.val) : F a = F b := by
  rw [Fin.ext h]

/-- The joined logits with the 384-wide sum cut into its three blocks of 128. -/
theorem joined_split (X1 X2 : Fin 10000 → Fin 128 → EReal) (adj : Fin 10000 → Fin 10000 → EReal)
    (W3 : Fin 128 → Fin 128 → EReal) (b3 : Fin 128 → EReal) (linW : Fin 384 → Fin 4 → EReal)
    (linb : Fin 4 → EReal) (i : Fin 10000) (c : Fin 4) :
    logitsJoined X1 X2 adj W3 b3 linW linb i c
      = ((mm X1 (lwBlock linW 0) i c + mm X2 (lwBlock linW 1) i c)
          + ∑ k : Fin 128, (mm adj (mm X2 W3) i k + b3 k) * lwBlock linW 2 k c) + linb c := by
  unfold logitsJoined
  rw [sum_384]
  refine congrArg₂ (· + ·) (congrArg₂ (· + ·) (congrArg₂ (· + ·) ?_ ?_) ?_) rfl
  · refine Finset.sum_congr rfl (fun q _ => ?_)
    rw [dif_pos (show (⟨q.val, by omega⟩ : Fin 384).val < 128 from q.isLt)]
    exact congrArg₂ (· * ·) (row_congr (X1 i) rfl)
      (row_congr (fun z => linW z c) (by show q.val = 128 * 0 + q.val; omega))
  · refine Finset.sum_congr rfl (fun q _ => ?_)
    have hq := q.isLt
    rw [dif_neg (show ¬ (⟨128 + q.val, by omega⟩ : Fin 384).val < 128 from by show ¬ (128 + q.val < 128); omega),
      dif_pos (show (⟨128 + q.val, by omega⟩ : Fin 384).val < 256 from by show 128 + q.val < 256; omega)]
    exact congrArg₂ (· * ·) (row_congr (X2 i) (by show 128 + q.val - 128 = q.val; omega))
      (row_congr (fun z => linW z c) (by show 128 + q.val = 128 * 1 + q.val; omega))
  · refine Finset.sum_congr rfl (fun q _ => ?_)
    have hq := q.isLt
    rw [dif_neg (show ¬ (⟨256 + q.val, by omega⟩ : Fin 384).val < 128 from by show ¬ (256 + q.val < 128); omega),
      dif_neg (show ¬ (⟨256 + q.val, by omega⟩ : Fin 384).val < 256 from by show ¬ (256 + q.val < 256); omega)]
    exact congrArg₂ (· * ·)
      (congrArg₂ (· + ·) (row_congr (mm adj (mm X2 W3) i) (by show 256 + q.val - 256 = q.val; omega))
        (row_congr b3 (by show 256 + q.val - 256 = q.val; omega)))
      (row_congr (fun z => linW z c) (by show 256 + q.val = 128 * 2 + q.val; omega))

/-- THE LAW: the folded logits are the joined logits when every entry is a real number. -/
theorem logits_eq (X1 X2 : Fin 10000 → Fin 128 → EReal) (adj : Fin 10000 → Fin 10000 → EReal)
    (W3 : Fin 128 → Fin 128 → EReal) (b3 : Fin 128 → EReal) (linW : Fin 384 → Fin 4 → EReal)
    (linb : Fin 4 → EReal)
    (hX1 : ∀ i j, IsReal (X1 i j)) (hX2 : ∀ i j, IsReal (X2 i j)) (hadj : ∀ i j, IsReal (adj i j))
    (hW3 : ∀ i j, IsReal (W3 i j)) (hb3 : ∀ j, IsReal (b3 j)) (hlinW : ∀ q c, IsReal (linW q c))
    (hlinb : ∀ c, IsReal (linb c)) (i : Fin 10000) (c : Fin 4) :
    logitsFolded X1 X2 adj W3 b3 linW linb i c = logitsJoined X1 X2 adj W3 b3 linW linb i c := by
  have hT : (∑ k : Fin 128, (mm adj (mm X2 W3) i k + b3 k) * lwBlock linW 2 k c)
      = mm adj (mm (mm X2 W3) (lwBlock linW 2)) i c + ∑ k : Fin 128, b3 k * lwBlock linW 2 k c :=
    fold_ereal (adj i) (mm X2 W3) b3 (fun k => lwBlock linW 2 k c) (hadj i) (mm_real hX2 hW3) hb3
      (fun k => hlinW _ c)
  rw [joined_split, hT]
  unfold logitsFolded
  refine congrArg₂ (· + ·) ?_ rfl
  rw [add_comm (mm adj (mm (mm X2 W3) (lwBlock linW 2)) i c), add_assoc]

theorem logitsJoined_real (X1 X2 : Fin 10000 → Fin 128 → EReal) (adj : Fin 10000 → Fin 10000 → EReal)
    (W3 : Fin 128 → Fin 128 → EReal) (b3 : Fin 128 → EReal) (linW : Fin 384 → Fin 4 → EReal)
    (linb : Fin 4 → EReal)
    (hX1 : ∀ i j, IsReal (X1 i j)) (hX2 : ∀ i j, IsReal (X2 i j)) (hadj : ∀ i j, IsReal (adj i j))
    (hW3 : ∀ i j, IsReal (W3 i j)) (hb3 : ∀ j, IsReal (b3 j)) (hlinW : ∀ q c, IsReal (linW q c))
    (hlinb : ∀ c, IsReal (linb c)) (i : Fin 10000) (c : Fin 4) :
    IsReal (logitsJoined X1 X2 adj W3 b3 linW linb i c) := by
  rw [joined_split]
  exact isReal_add
    (isReal_add
      (isReal_add (mm_real hX1 (fun _ c => hlinW _ c) i c) (mm_real hX2 (fun _ c => hlinW _ c) i c))
      (isReal_sum _ _ (fun k _ =>
        isReal_mul (isReal_add (mm_real hadj (mm_real hX2 hW3) i k) (hb3 k)) (hlinW _ c))))
    (hlinb c)

/-- The log-softmax of a real row with a real shift, in closed form: the shift cancels. -/
theorem lsm_coe (a : Fin 4 → ℝ) (μ : ℝ) (c : Fin 4) :
    lsm (fun c => (a c : EReal)) (μ : EReal) c
      = ((a c - Real.log (∑ c' : Fin 4, Real.exp (a c')) : ℝ) : EReal) := by
  have hpos : 0 < ∑ c' : Fin 4, Real.exp (a c' - μ) :=
    Finset.sum_pos (fun c' _ => Real.exp_pos _) Finset.univ_nonempty
  have hS0 : 0 < ∑ c' : Fin 4, Real.exp (a c') :=
    Finset.sum_pos (fun c' _ => Real.exp_pos _) Finset.univ_nonempty
  have hS : ∑ c' : Fin 4, Real.exp (a c' - μ) = Real.exp (-μ) * ∑ c' : Fin 4, Real.exp (a c') := by
    rw [Finset.mul_sum]
    refine Finset.sum_congr rfl (fun c' _ => ?_)
    rw [← Real.exp_add]
    exact congrArg Real.exp (by ring)
  have hlog : Real.log (∑ c' : Fin 4, Real.exp (a c' - μ))
      = -μ + Real.log (∑ c' : Fin 4, Real.exp (a c')) := by
    rw [hS, Real.log_mul (Real.exp_pos _).ne' hS0.ne', Real.log_exp]
  unfold lsm
  simp only [← EReal.coe_sub, Ideal.exp_coe, ← coe_sum]
  rw [Ideal.log_coe, if_neg (not_le.mpr hpos), ← EReal.coe_sub, hlog]
  exact congrArg Real.toEReal (by ring)

/-- The log-softmax does not depend on a finite shift. -/
theorem lsm_shift (l : Fin 4 → EReal) (hl : ∀ c, IsReal (l c)) {M M' : EReal} (hM : IsReal M)
    (hM' : IsReal M') (c : Fin 4) : lsm l M c = lsm l M' c := by
  choose a ha using hl
  obtain ⟨μ, rfl⟩ := hM
  obtain ⟨μ', rfl⟩ := hM'
  have hl : l = fun c => (a c : EReal) := funext ha
  subst hl
  rw [lsm_coe, lsm_coe]

/-- A sum over 128 lanes of a function masked to its first four lanes is the sum over those four. -/
theorem sum_lanes (f : Fin 128 → EReal) :
    (∑ q : Fin 128, if q.val < 4 then f q else 0) = ∑ c : Fin 4, f ⟨c.val, by omega⟩ := by
  refine (Fin.sum_univ_add (a := 4) (b := 124)
    (fun q : Fin (4 + 124) => if q.val < 4 then f q else 0)).trans ?_
  refine (congrArg₂ (· + ·) (Finset.sum_congr rfl (fun c _ => ?_))
    (Finset.sum_eq_zero (fun j _ => ?_))).trans (add_zero _)
  · exact (if_pos (show (Fin.castAdd 124 c).val < 4 from c.isLt)).trans (row_congr f rfl)
  · exact if_neg (by show ¬ (4 + j.val < 4); omega)

/-- A running maximum from the bottom over a nonempty finite family of reals is a real. -/
theorem foldmax_real_aux {ι : Type} (s : Finset ι) (hs : s.Nonempty) (f : ι → EReal)
    (hf : ∀ q, IsReal (f q)) : IsReal (s.fold max (⊥ : EReal) f) := by
  induction hs using Finset.Nonempty.cons_induction with
  | singleton a =>
    rw [Finset.fold_singleton, max_eq_left bot_le]
    exact hf a
  | cons a s ha hs ih =>
    rw [Finset.fold_cons]
    exact isReal_max (hf a) ih

/-- A maximum over finitely many reals, started from the bottom, is a real when there is at least one. -/
theorem foldmax_real {n : ℕ} (hn : 0 < n) (f : Fin n → EReal) (hf : ∀ q, IsReal (f q)) :
    IsReal (Finset.univ.fold max (⊥ : EReal) f) :=
  foldmax_real_aux Finset.univ ⟨⟨0, hn⟩, Finset.mem_univ _⟩ f hf

end Cert.Gcn

end
-- ==== Proof.KI.Pay8.lean ====
import proofs.«143550_g111669150054_cont_sun_m_211_32_alg».proof.Proof.Gen.KernelIdeal.Skeleton
import proofs.«143550_g111669150054_cont_sun_m_211_32_alg».proof.Proof.Spec
import proofs.«143550_g111669150054_cont_sun_m_211_32_alg».proof.Proof.Algebra
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

/-!
  The second kernel's output payload read at an index on the extended reals: row `p`, class `c` of the block it
  writes is the log-softmax of the row's first four lanes of logits, shifted by the maximum over the 128 lanes of
  the logits masked to their first four lanes (a large negative fill elsewhere).
-/

noncomputable section

namespace Cert.KernelIdeal.Hand

open Cert.KernelIdeal Cert.KernelIdeal.Gen Idealize.ShloMosaic ValueIdx Cert.Gcn

variable (a : FVec Ideal S400x10000 .bf16) (s16 : FVec Ideal S10000x128 .bf16) (b3 : FVec Ideal S1x128 .f32)
  (lw3 : FVec Ideal S128x128 .f32) (p12 : FVec Ideal S400x128 .f32) (lb : FVec Ideal S1x128 .f32)

/-- Lane `l` of row `p` of the logits, associated as the kernel adds them. -/
def laneLogit (p : Fin 400) (l : Fin 128) : EReal :=
  (((∑ j : Fin 10000, a (ix2 p j) * s16 (ix2 j l)) + p12 (ix2 p l))
      + ∑ k : Fin 128, b3 (ix2 (0 : Fin 1) k) * lw3 (ix2 k l))
    + lb (ix2 (0 : Fin 1) l)

/-- The shift the kernel subtracts in row `p`: the maximum over the 128 lanes, started from the bottom element, of
    the logits on the first four lanes and a large negative fill on the others. -/
def laneShift (p : Fin 400) : EReal :=
  (Finset.univ : Finset (Fin 128)).fold max ⊥
    (fun l => if l.val < 4 then laneLogit a s16 b3 lw3 p12 lb p l else Ideal.ofBits .f32 0xF149F2CA#32)

/-! ## The payload's stages -/

/-- The 128-lane logits of the block, as the kernel adds them. -/
def logitsV : FVec Ideal S400x128 .f32 :=
  addf (addf (addf (matmul dot_S400x10000_S10000x128_S400x128_1_0_0_1_n_n none
          (shapeCast S400x10000 a shapeCasts_S400x10000_S400x10000) s16 (constant S400x128 .f32 0x00000000#32)) p12)
      (broadcastTo S400x128
        (matmul dot_S1x128_S128x128_S1x128_1_0_0_1_n_n none
          (truncf .bf16 (shapeCast S1x128 b3 shapeCasts_S1x128_S1x128) bitsLt_bf16_f32)
          (truncf .bf16 (shapeCast S128x128 lw3 shapeCasts_S128x128_S128x128) bitsLt_bf16_f32)
          (constant S1x128 .f32 0x00000000#32))
        broadcasts_S1x128_S400x128))
    (broadcastTo S400x128 (shapeCast S1x128 lb shapeCasts_S1x128_S1x128) broadcasts_S1x128_S400x128)

/-- The mask of the first four lanes. -/
def maskV : IVec S400x128 1 := cmpi .slt (iota .tc S400x128 32 [1] iota_S400x128_d1_w32) (broadcast S400x128 4#32)

/-- The row maxima of the masked logits, one per row, spread over the lanes. -/
def shiftV : FVec Ideal S400x128 .f32 :=
  broadcastTo S400x128
    (shapeCast S400x1
      (multiReduction (F := Ideal) .maximumf [1] S400
        (select maskV (logitsV a s16 b3 lw3 p12 lb) (broadcast S400x128 (Scalar.ofBits (F := Ideal) .f32 0xF149F2CA#32)))
        0xFF800000#32 reduces_S400x128_S400 (.inl rfl) rfl)
      shapeCasts_S400_S400x1)
    broadcasts_S400x1_S400x128

/-- The logarithm of the row sums of the masked exponentials, spread over the lanes. -/
def lseV : FVec Ideal S400x128 .f32 :=
  broadcastTo S400x128
    (log (shapeCast S400x1
      (multiReduction (F := Ideal) .add [1] S400
        (select maskV (exp (subf (logitsV a s16 b3 lw3 p12 lb) (shiftV a s16 b3 lw3 p12 lb)))
          (broadcast S400x128 (Scalar.ofBits (F := Ideal) .f32 0x00000000#32)))
        0x00000000#32 reduces_S400x128_S400 (.inl rfl) rfl)
      shapeCasts_S400_S400x1))
    broadcasts_S400x1_S400x128

/-- The payload is the first four lanes of the logits less the shift less the logarithm of the sum. -/
theorem pay8_eq : k1_pay8 (F := Ideal) a s16 b3 lw3 p12 lb
    = extractStridedSlice S400x4 ![0, 0]
        (subf (subf (logitsV a s16 b3 lw3 p12 lb) (shiftV a s16 b3 lw3 p12 lb)) (lseV a s16 b3 lw3 p12 lb)) slices_S400x128_o0_0_S400x4 := rfl

/-! ## The two matrix products at an index -/

theorem big_l0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem big_l1 (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
theorem big_r0 (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
theorem big_r1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

theorem small_l0 (i : S1x128.Idx) (q : dot_S1x128_S128x128_S1x128_1_0_0_1_n_n.contr.Idx) : (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
theorem small_l1 (i : S1x128.Idx) (q : dot_S1x128_S128x128_S1x128_1_0_0_1_n_n.contr.Idx) : (dot_S1x128_S128x128_S1x128_1_0_0_1_n_n.lhsIdx i q 1).val = (q ⟨0, by decide⟩).val :=
  dot_S1x128_S128x128_S1x128_1_0_0_1_n_n.lhsIdx_val_of_single rfl i q
theorem small_r0 (i : S1x128.Idx) (q : dot_S1x128_S128x128_S1x128_1_0_0_1_n_n.contr.Idx) : (dot_S1x128_S128x128_S1x128_1_0_0_1_n_n.rhsIdx i q 0).val = (q ⟨0, by decide⟩).val :=
  dot_S1x128_S128x128_S1x128_1_0_0_1_n_n.rhsIdx_val_of_single rfl i q
theorem small_r1 (i : S1x128.Idx) (q : dot_S1x128_S128x128_S1x128_1_0_0_1_n_n.contr.Idx) : (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl

/-- The block's product with the scratch, into zeros: the plain sum over the 10000 contracted positions. -/
theorem big_mm_at (p : Fin 400) (l : Fin 128) :
    matmul dot_S400x10000_S10000x128_S400x128_1_0_0_1_n_n none (shapeCast S400x10000 a shapeCasts_S400x10000_S400x10000) s16
        (constant S400x128 .f32 0x00000000#32) (ix2 p l)
      = ∑ j : Fin 10000, a (ix2 p j) * s16 (ix2 j l) := by
  rw [shapeCast_self]
  refine (Ideal.matmul_constant_zero_apply _ none _ _ _).trans ?_
  rw [← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p l) ((ValueIdx.contrEquiv1 dot_S400x10000_S10000x128_S400x128_1_0_0_1_n_n 10000 rfl rfl).symm k) = ix2 p k :=
    funext fun x => Fin.ext (by
      match x with
      | ⟨0, _⟩ => exact big_l0 _ _
      | ⟨1, _⟩ => exact (big_l1 _ _).trans hk)
  have er : dot_S400x10000_S10000x128_S400x128_1_0_0_1_n_n.rhsIdx (ix2 p l) ((ValueIdx.contrEquiv1 dot_S400x10000_S10000x128_S400x128_1_0_0_1_n_n 10000 rfl rfl).symm k) = ix2 k l :=
    funext fun x => Fin.ext (by
      match x with
      | ⟨0, _⟩ => exact (big_r0 _ _).trans hk
      | ⟨1, _⟩ => exact big_r1 _ _)
  rw [el, er]

/-- The bias row times the weight block, into zeros: the plain sum over the 128 contracted positions (the
    narrowing to 16 bits is the identity on the extended reals). -/
theorem small_mm_at (u : Fin 1) (l : Fin 128) :
    matmul dot_S1x128_S128x128_S1x128_1_0_0_1_n_n none
        (truncf .bf16 (shapeCast S1x128 b3 shapeCasts_S1x128_S1x128) bitsLt_bf16_f32)
        (truncf .bf16 (shapeCast S128x128 lw3 shapeCasts_S128x128_S128x128) bitsLt_bf16_f32)
        (constant S1x128 .f32 0x00000000#32) (ix2 u l)
      = ∑ k : Fin 128, b3 (ix2 (0 : Fin 1) k) * lw3 (ix2 k l) := by
  rw [shapeCast_self, shapeCast_self]
  refine (Ideal.matmul_constant_zero_apply _ none _ _ _).trans ?_
  rw [← Equiv.sum_comp (ValueIdx.contrEquiv1 dot_S1x128_S128x128_S1x128_1_0_0_1_n_n 128 rfl rfl).symm]
  refine Finset.sum_congr rfl fun k _ => ?_
  have hk := ValueIdx.contrEquiv1_symm_val dot_S1x128_S128x128_S1x128_1_0_0_1_n_n 128 rfl rfl k
  have el : dot_S1x128_S128x128_S1x128_1_0_0_1_n_n.lhsIdx (ix2 u l) ((ValueIdx.contrEquiv1 dot_S1x128_S128x128_S1x128_1_0_0_1_n_n 128 rfl rfl).symm k) = ix2 (0 : Fin 1) k :=
    funext fun x => Fin.ext (by
      match x with
      | ⟨0, _⟩ => exact (small_l0 _ _).trans (by show u.val = 0; omega)
      | ⟨1, _⟩ => exact (small_l1 _ _).trans hk)
  have er : dot_S1x128_S128x128_S1x128_1_0_0_1_n_n.rhsIdx (ix2 u l) ((ValueIdx.contrEquiv1 dot_S1x128_S128x128_S1x128_1_0_0_1_n_n 128 rfl rfl).symm k) = ix2 k l :=
    funext fun x => Fin.ext (by
      match x with
      | ⟨0, _⟩ => exact (small_r0 _ _).trans hk
      | ⟨1, _⟩ => exact small_r1 _ _)
  rw [el, er]
  rfl

/-- The logits at row `p`, lane `l`. -/
theorem logitsV_at (p : Fin 400) (l : Fin 128) : logitsV a s16 b3 lw3 p12 lb (ix2 p l) = laneLogit a s16 b3 lw3 p12 lb p l := by
  unfold logitsV laneLogit
  rw [addf_apply, addf_apply, addf_apply, big_mm_at, broadcastTo_1b_ab_apply, broadcastTo_1b_ab_apply, small_mm_at,
    shapeCast_self]

/-! ## The mask, the shift, the sum -/

theorem slt_four : ∀ l : Fin 128, IntOp.cmpi .slt (BitVec.ofNat 32 l.val) 4#32 = if l.val < 4 then 1#1 else 0#1 := by
  decide

/-- The mask is 1 on the first four lanes and 0 on the others. -/
theorem maskV_at (p : Fin 400) (l : Fin 128) : maskV (ix2 p l) = if l.val < 4 then 1#1 else 0#1 := by
  unfold maskV
  show IntOp.cmpi .slt (iota .tc S400x128 32 [1] iota_S400x128_d1_w32 (ix2 p l)) 4#32 = _
  rw [iota_single_apply]
  exact slt_four l

/-- A selection under the mask: the first operand on the first four lanes, the second on the others. -/
theorem select_maskV_at (x y : FVec Ideal S400x128 .f32) (p : Fin 400) (l : Fin 128) :
    select maskV x y (ix2 p l) = if l.val < 4 then x (ix2 p l) else y (ix2 p l) := by
  rw [select_apply, maskV_at]
  split
  · exact select_one _ _
  · exact select_zero _ _

/-- A column of row values spread over the lanes reads the row's value. -/
theorem spread_at (v : FVec Ideal S400 .f32) (p : Fin 400) (l : Fin 128) :
    broadcastTo S400x128 (shapeCast S400x1 v shapeCasts_S400_S400x1) broadcasts_S400x1_S400x128 (ix2 p l) = v (ix1 p) := by
  refine (broadcastTo_apply _ broadcasts_S400x1_S400x128 (ix2 p l) (ix2 p (0 : Fin 1)) fun ax => ?_).trans ?_
  · match ax with
    | ⟨0, _⟩ => rfl
    | ⟨1, _⟩ => rfl
  · refine shapeCast_apply v shapeCasts_S400_S400x1 (ix2 p (0 : Fin 1)) (ix1 p) ?_
    rw [Shape.rowMajor_val_one, Shape.rowMajor_val_two]
    show p.val = p.val * 1 + 0
    omega

/-- The shift at row `p`, any lane. -/
theorem shiftV_at (p : Fin 400) (l : Fin 128) : shiftV a s16 b3 lw3 p12 lb (ix2 p l) = laneShift a s16 b3 lw3 p12 lb p := by
  unfold shiftV laneShift
  rw [spread_at]
  refine (Ideal.multiReduction_maximumf_single _ _ reduces_S400x128_S400 _ _ _).trans ?_
  rw [Ideal.ofBits_def, show Ideal.ofBits .f32 0xFF800000#32 = (⊥ : EReal) by simp [Ideal.ofBits, Ideal.ieee]]
  show (Finset.univ : Finset (Fin 128)).fold max ⊥ _ = _
  refine Finset.fold_congr fun k _ => ?_
  show select maskV _ _ (reduces_S400x128_S400.lift (ix1 p) k) = _
  rw [show reduces_S400x128_S400.lift (ix1 p) k = ix2 p k from
        funext fun x => Fin.ext (by match x with | ⟨0, _⟩ => rfl | ⟨1, _⟩ => rfl),
    select_maskV_at, logitsV_at]
  rfl

/-- The large negative fill of the masked lanes is a real number. -/
theorem fill_real : IsReal (Ideal.ofBits .f32 0xF149F2CA#32) := by
  show IsReal (Ideal.ieee 8 23 (0xF149F2CA#32 : BitVec 32))
  unfold Ideal.ieee
  dsimp only
  rw [if_neg (by decide), if_neg (by decide)]
  exact ⟨_, rfl⟩

theorem laneShift_real (p : Fin 400)
    (h : ∀ c : Fin 4, IsReal (laneLogit a s16 b3 lw3 p12 lb p ⟨c.val, by omega⟩)) :
    IsReal (laneShift a s16 b3 lw3 p12 lb p) := by
  unfold laneShift
  refine foldmax_real (by decide) _ fun l => ?_
  split
  · next hl => exact (row_congr (laneLogit a s16 b3 lw3 p12 lb p) (a := ⟨(⟨l.val, hl⟩ : Fin 4).val, by omega⟩) (b := l) rfl) ▸ h ⟨l.val, hl⟩
  · exact fill_real

/-- The masked exponentials' row sum, its logarithm spread over the lanes. -/
theorem lseV_at (p : Fin 400) (l : Fin 128) :
    lseV a s16 b3 lw3 p12 lb (ix2 p l)
      = Ideal.log (∑ c' : Fin 4, Ideal.exp (laneLogit a s16 b3 lw3 p12 lb p ⟨c'.val, by omega⟩ - laneShift a s16 b3 lw3 p12 lb p)) := by
  unfold lseV
  refine (broadcastTo_apply _ broadcasts_S400x1_S400x128 (ix2 p l) (ix2 p (0 : Fin 1)) fun ax => ?_).trans ?_
  · match ax with
    | ⟨0, _⟩ => rfl
    | ⟨1, _⟩ => rfl
  show Ideal.log (shapeCast S400x1 _ shapeCasts_S400_S400x1 (ix2 p (0 : Fin 1))) = _
  refine congrArg Ideal.log ?_
  refine (shapeCast_apply _ shapeCasts_S400_S400x1 (ix2 p (0 : Fin 1)) (ix1 p) ?_).trans ?_
  · rw [Shape.rowMajor_val_one, Shape.rowMajor_val_two]
    show p.val = p.val * 1 + 0
    omega
  refine (Ideal.multiReduction_add_single _ _ reduces_S400x128_S400 _ _ _).trans ?_
  refine Eq.trans ?_ (sum_lanes fun q => Ideal.exp (laneLogit a s16 b3 lw3 p12 lb p q - laneShift a s16 b3 lw3 p12 lb p))
  show ∑ k : Fin 128, _ = _
  refine Finset.sum_congr rfl fun k _ => ?_
  rw [show reduces_S400x128_S400.lift (ix1 p) k = ix2 p k from
        funext fun x => Fin.ext (by match x with | ⟨0, _⟩ => rfl | ⟨1, _⟩ => rfl),
    select_maskV_at]
  split
  · show Ideal.exp (logitsV a s16 b3 lw3 p12 lb (ix2 p k) - shiftV a s16 b3 lw3 p12 lb (ix2 p k)) = _
    rw [logitsV_at, shiftV_at]
  · show Ideal.ofBits .f32 0x00000000#32 = 0
    exact Ideal.ofBits_zero_f32

/-- The payload at row `p`, class `c`. -/
theorem pay8_apply (p : Fin 400) (c : Fin 4) :
    k1_pay8 (F := Ideal) a s16 b3 lw3 p12 lb (ix2 p c)
      = lsm (fun c' : Fin 4 => laneLogit a s16 b3 lw3 p12 lb p ⟨c'.val, by omega⟩)
          (laneShift a s16 b3 lw3 p12 lb p) c := by
  rw [pay8_eq]
  refine (extractStridedSlice_apply _ _ slices_S400x128_o0_0_S400x4 (ix2 p c) (ix2 p (⟨c.val, by omega⟩ : Fin 128)) fun ax => ?_).trans ?_
  · match ax with
    | ⟨0, _⟩ => show p.val = 0 + p.val; omega
    | ⟨1, _⟩ => show c.val = 0 + c.val; omega
  rw [subf_apply, subf_apply, logitsV_at, shiftV_at, lseV_at]
  rfl

end Cert.KernelIdeal.Hand

end
-- ==== Proof.Finite.lean ====
import proofs.«143550_g111669150054_cont_sun_m_211_32_alg».proof.Defs
import proofs.«143550_g111669150054_cont_sun_m_211_32_alg».proof.Proof.Gen.Pre_finite_inputs
import proofs.«143550_g111669150054_cont_sun_m_211_32_alg».proof.Proof.Gen.KernelIdeal
import proofs.«143550_g111669150054_cont_sun_m_211_32_alg».proof.Proof.Spec
import Idealize.ShloMosaic.Lib.ReduceAll
import Idealize.ShloMosaic.PureOps.Ideal.Laws

/-!
  From the precondition to the algebra's hypothesis: the precondition says that each of the ten argument arrays
  has |x| < +∞ at every entry (an elementwise comparison, reduced by `and` over every axis, and the conjunction
  of the ten results); on the extended reals an entry with |x| < +∞ is a real number.
-/

noncomputable section

namespace Cert.Gcn.Fin

open Cert.KernelIdeal Idealize.ShloMosaic Idealize.ShloMosaic.TcCoe Idealize.SL.Sem ValueIdx Cert.Gcn

instance : Subsingleton (⟨0, ![]⟩ : Shape).Idx := ⟨fun a b => funext fun d => d.elim0⟩

/-- An extended real whose absolute value `max x (-x)` is below +∞ is a real number. -/
theorem real_of_abs_lt_top (x : EReal)
    (hx : FloatOps.cmpf (F := Ideal) (φ := .f32) .olt (FloatOps.hostAbsf x) (FloatOps.ofBits .f32 0x7F800000#32) = 1#1) :
    IsReal x := by
  have htop : Ideal.ofBits .f32 0x7F800000#32 = (⊤ : EReal) := by simp [Ideal.ofBits, Ideal.ieee]
  have h1 : max x (-x) < ⊤ := by
    rw [Ideal.cmpf_def, Ideal.hostAbsf_def, Ideal.absf_def, Ideal.ofBits_def, htop] at hx
    by_contra hn
    have h0 : Ideal.cmp .olt (max x (-x)) ⊤ = 0#1 := by
      show BitVec.ofBool (decide (max x (-x) < ⊤)) = 0#1
      rw [decide_eq_false hn]; rfl
    rw [h0] at hx
    exact absurd hx (by decide)
  induction x using EReal.rec with
  | bot => simp at h1
  | coe r => exact ⟨r, rfl⟩
  | top => simp at h1

/-- A rank-2 array whose "every |x| < +∞" reduction is 1 holds real numbers. -/
theorem real2 {a b : ℕ} (x : FVec Ideal ⟨2, ![a, b]⟩ .f32)
    (hb : (⟨0, ![]⟩ : Shape).BroadcastsInDim ⟨2, ![a, b]⟩ (![] : Fin 0 → Fin 2))
    (hr : (⟨2, ![a, b]⟩ : Shape).ReducesTo [0, 1] ⟨0, ![]⟩) (hu : 0 < (⟨0, ![]⟩ : Shape).numel) (j : (⟨0, ![]⟩ : Shape).Idx)
    (e : Host.reduce IntOp.andi
          (cmpf .olt (Host.absf x) (broadcastInDim ⟨2, ![a, b]⟩ ![] hb (constant ⟨0, ![]⟩ .f32 0x7F800000#32)))
          (constantI ⟨0, ![]⟩ 1 1#1) hr hu j = 1#1) :
    ∀ i j, IsReal (cur2 x i j) :=
  fun i k => real_of_abs_lt_top _ (Host.reduce_andi_all _ _ hr hu j e (ix2 i k))

/-- A rank-1 array whose "every |x| < +∞" reduction is 1 holds real numbers. -/
theorem real1 {a : ℕ} (x : FVec Ideal ⟨1, ![a]⟩ .f32)
    (hb : (⟨0, ![]⟩ : Shape).BroadcastsInDim ⟨1, ![a]⟩ (![] : Fin 0 → Fin 1))
    (hr : (⟨1, ![a]⟩ : Shape).ReducesTo [0] ⟨0, ![]⟩) (hu : 0 < (⟨0, ![]⟩ : Shape).numel) (j : (⟨0, ![]⟩ : Shape).Idx)
    (e : Host.reduce IntOp.andi
          (cmpf .olt (Host.absf x) (broadcastInDim ⟨1, ![a]⟩ ![] hb (constant ⟨0, ![]⟩ .f32 0x7F800000#32)))
          (constantI ⟨0, ![]⟩ 1 1#1) hr hu j = 1#1) :
    ∀ i, IsReal (cur1 x i) :=
  fun i => real_of_abs_lt_top _ (Host.reduce_andi_all _ _ hr hu j e (ix1 i))

/-- Under the precondition every entry of every argument array is a real number. -/
theorem args_real (m : (ℓ : Loc nD τ sig) → Buf (Elt Ideal) ℓ)
    (h : Cert.Pre_KernelIdeal (hPre_finite_inputs := Cert.Pre_finite_inputs.Gen.facts) m) (d : Dev nD) :
    (∀ i j, IsReal (cur2 (m ((d.tc : Thread nD τ).loc main_arg0)) i j)) ∧ (∀ i j, IsReal (cur2 (m ((d.tc : Thread nD τ).loc main_arg1)) i j))
    ∧ (∀ i j, IsReal (cur2 (m ((d.tc : Thread nD τ).loc main_arg2)) i j)) ∧ (∀ j, IsReal (cur1 (m ((d.tc : Thread nD τ).loc main_arg3)) j))
    ∧ (∀ i j, IsReal (cur2 (m ((d.tc : Thread nD τ).loc main_arg4)) i j)) ∧ (∀ j, IsReal (cur1 (m ((d.tc : Thread nD τ).loc main_arg5)) j))
    ∧ (∀ i j, IsReal (cur2 (m ((d.tc : Thread nD τ).loc main_arg6)) i j)) ∧ (∀ j, IsReal (cur1 (m ((d.tc : Thread nD τ).loc main_arg7)) j))
    ∧ (∀ q c, IsReal (cur2 (m ((d.tc : Thread nD τ).loc main_arg8)) q c)) ∧ (∀ c, IsReal (cur1 (m ((d.tc : Thread nD τ).loc main_arg9)) c)) := by
  have h0 := congrFun (h d) ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨⟨p0, p1⟩, p2⟩, p3⟩, p4⟩, p5⟩, p6⟩, p7⟩, p8⟩, p9⟩ := h0
  exact ⟨real2 _ _ _ _ _ p0, real2 _ _ _ _ _ p1, real2 _ _ _ _ _ p2, real1 _ _ _ _ _ p3, real2 _ _ _ _ _ p4,
    real1 _ _ _ _ _ p5, real2 _ _ _ _ _ p6, real1 _ _ _ _ _ p7, real2 _ _ _ _ _ p8, real1 _ _ _ _ _ p9⟩

end Cert.Gcn.Fin

end
-- ==== Proof.KI.Bridge.lean ====
/-
  The idealized kernel's result, index by index, is the reference's formula of the argument arrays.

  Row r, class c of the result is the log-softmax of row r's four logits, computed with the kernel's shift (the lane
  maximum of the masked row). The logits the kernel adds up are the folded form: adj · ((x2 · W3) · LW3) +
  (x1 · LW1 + x2 · LW2) + b3 · LW3 + linb, read on lane c < 4 where the padded weight blocks are the row blocks of
  the head's weight matrix. With every argument entry a real number (the precondition) the folded form is the
  joined form the reference computes, every logit is a real number, so both shifts are real numbers and the
  log-softmax does not depend on which one is subtracted.
-/
import proofs.«143550_g111669150054_cont_sun_m_211_32_alg».proof.Proof.Gen.KernelIdeal.Launch
import proofs.«143550_g111669150054_cont_sun_m_211_32_alg».proof.Proof.Gen.KernelIdeal.Skeleton
import proofs.«143550_g111669150054_cont_sun_m_211_32_alg».proof.Proof.Gen.KernelIdeal.Points
import proofs.«143550_g111669150054_cont_sun_m_211_32_alg».proof.Proof.KI.Bridge0
import proofs.«143550_g111669150054_cont_sun_m_211_32_alg».proof.Proof.KI.Value1
import proofs.«143550_g111669150054_cont_sun_m_211_32_alg».proof.Proof.KI.Pay8
import proofs.«143550_g111669150054_cont_sun_m_211_32_alg».proof.Proof.KI.Run
import proofs.«143550_g111669150054_cont_sun_m_211_32_alg».proof.Proof.Algebra
import proofs.«143550_g111669150054_cont_sun_m_211_32_alg».proof.Proof.Finite
import proofs.«143550_g111669150054_cont_sun_m_211_32_alg».proof.Proof.RefValue
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Gcn ValueIdx

variable (m : (ℓ : Loc nD τ sig) → Buf (Elt Ideal) ℓ) (c : Dev nD)

/-- The two hidden layers, from the argument arrays. -/
abbrev kX1 : Fin 10000 → Fin 128 → EReal := Cert.Gcn.x1 (kX m c) (kAdj m c) (kW1 m c) (kB1 m c)
abbrev kX2 : Fin 10000 → Fin 128 → EReal := Cert.Gcn.x2 (kX m c) (kAdj m c) (kW1 m c) (kB1 m c) (kW2 m c) (kB2 m c)

/-! ## The second region's entry arrays, by name -/

theorem r_a16 : rA16 (E1 m) c = kAdj m c := funext fun i => funext fun k => e1_v11_2 m c i k
theorem r_s2 : rS2 (E1 m) c = mm (kX1 m c) (kW2 m c) := funext fun i => funext fun j => e1_v11_1 m c i j
theorem r_x1 : rX1 (E1 m) c = kX1 m c := funext fun i => funext fun j => e1_v11_0 m c i j
theorem r_b2 : rB2 (E1 m) c = kB2 m c := e1_v9 m c
theorem r_w3 : rW3 (E1 m) c = kW3 m c := e1_arg6 m c
theorem r_b3 : rB3 (E1 m) c = kB3 m c := e1_v10 m c
theorem r_x2 : rX2 (E1 m) c = kX2 m c := by
  show conv (rA16 (E1 m) c) (rS2 (E1 m) c) (rB2 (E1 m) c) = _
  rw [r_a16, r_s2, r_b2]; rfl

/-- On a lane below four the padded weight blocks are the head's row blocks, and the padded bias the head's bias. -/
theorem lw1_lane (q : Fin 128) (c' : Fin 4) (h : c'.val < 128) : rLW1 (E1 m) c q ⟨c'.val, h⟩ = lwBlock (kLinW m c) 0 q c' :=
  (e1_v1 m c q ⟨c'.val, h⟩).trans (dif_pos c'.isLt)
theorem lw2_lane (q : Fin 128) (c' : Fin 4) (h : c'.val < 128) : rLW2 (E1 m) c q ⟨c'.val, h⟩ = lwBlock (kLinW m c) 1 q c' :=
  (e1_v3 m c q ⟨c'.val, h⟩).trans (dif_pos c'.isLt)
theorem lw3_lane (q : Fin 128) (c' : Fin 4) (h : c'.val < 128) : rLW3 (E1 m) c q ⟨c'.val, h⟩ = lwBlock (kLinW m c) 2 q c' :=
  (e1_v5 m c q ⟨c'.val, h⟩).trans (dif_pos c'.isLt)
theorem lb_lane (c' : Fin 4) (h : c'.val < 128) : rLB (E1 m) c ⟨c'.val, h⟩ = kLinB m c c' :=
  (e1_v7 m c ⟨c'.val, h⟩).trans (dif_pos c'.isLt)

/-- Row r's logit on lane c' < 4, as the kernel adds it up, is the folded form. -/
theorem lane_logit (r : Fin 10000) (c' : Fin 4) (h : c'.val < 128) :
    laneLogit (iblk1 (E1 m) c 0 (pt2 r)) (S16 (E1 m) c) (iblk1 (E1 m) c 8 (pt2 r)) (iblk1 (E1 m) c 7 (pt2 r)) (slabOf (grid1.coords (pt2 r)) (condR_pt2 r) (P12full (E1 m) c)) (iblk1 (E1 m) c 9 (pt2 r)) (rowIn r) ⟨c'.val, h⟩
      = logitsFolded (kX1 m c) (kX2 m c) (kAdj m c) (kW3 m c) (kB3 m c) (kLinW m c) (kLinB m c) r c' := by
  unfold laneLogit
  simp only [blk1_0_at, S16_at, T3full_at, slab_at, P12full_at, blk1_8_at, blk1_7_at, blk1_9_at]
  rw [r_a16, r_x2, r_w3, r_x1, r_b3]
  unfold logitsFolded mm
  simp only [lw1_lane m c, lw2_lane m c, lw3_lane m c, lb_lane m c]

/-- THE RESULT: what the idealized kernel leaves in the result array, at row r and class cls. -/
theorem kernel_result (hpre : Cert.Pre_KernelIdeal (hPre_finite_inputs := Cert.Pre_finite_inputs.Gen.facts) m) (r : Fin 10000) (cls : Fin 4) :
    X1 (F := Ideal) m c main_v12 (ix2 r cls)
      = lsm (logitsJoined (kX1 m c) (kX2 m c) (kAdj m c) (kW3 m c) (kB3 m c) (kLinW m c) (kLinB m c) r) (Cert.Gcn.Ref.rowShift (logitsJoined (kX1 m c) (kX2 m c) (kAdj m c) (kW3 m c) (kB3 m c) (kLinW m c) (kLinB m c) r)) cls := by
  obtain ⟨hx, hadj, hw1, hb1, hw2, hb2, hw3, hb3, hlw, hlb⟩ := Cert.Gcn.Fin.args_real m hpre c
  have hX1 : ∀ i j, IsReal (kX1 m c i j) := x1_real hx hadj hw1 hb1
  have hX2 : ∀ i j, IsReal (kX2 m c i j) := x2_real hx hadj hw1 hb1 hw2 hb2
  have hfold : (fun c' : Fin 4 => laneLogit (iblk1 (E1 m) c 0 (pt2 r)) (S16 (E1 m) c) (iblk1 (E1 m) c 8 (pt2 r)) (iblk1 (E1 m) c 7 (pt2 r)) (slabOf (grid1.coords (pt2 r)) (condR_pt2 r) (P12full (E1 m) c)) (iblk1 (E1 m) c 9 (pt2 r)) (rowIn r) ⟨c'.val, by omega⟩)
      = logitsJoined (kX1 m c) (kX2 m c) (kAdj m c) (kW3 m c) (kB3 m c) (kLinW m c) (kLinB m c) r :=
    funext fun c' => (lane_logit m c r c' (by omega)).trans (logits_eq _ _ _ _ _ _ _ hX1 hX2 hadj hw3 hb3 hlw hlb r c')
  have hreal : ∀ c', IsReal (logitsJoined (kX1 m c) (kX2 m c) (kAdj m c) (kW3 m c) (kB3 m c) (kLinW m c) (kLinB m c) r c') :=
    fun c' => logitsJoined_real _ _ _ _ _ _ _ hX1 hX2 hadj hw3 hb3 hlw hlb r c'
  have hshift : IsReal (laneShift (iblk1 (E1 m) c 0 (pt2 r)) (S16 (E1 m) c) (iblk1 (E1 m) c 8 (pt2 r)) (iblk1 (E1 m) c 7 (pt2 r)) (slabOf (grid1.coords (pt2 r)) (condR_pt2 r) (P12full (E1 m) c)) (iblk1 (E1 m) c 9 (pt2 r)) (rowIn r)) :=
    laneShift_real _ _ _ _ _ _ (rowIn r) fun c' => by rw [congrFun hfold c']; exact hreal c'
  have hX : X1 (F := Ideal) m c main_v12 = (dat1 (E1 m) c).arrAt 10 cfg1.N := X1_arr m c 10
  rw [hX, out_array (E1 m) c r cls (condR_pt2 r), pay8_apply, hfold]
  exact lsm_shift _ hreal hshift (Cert.Gcn.Ref.rowShift_real _ hreal) cls

end Cert.KernelIdeal.Hand

end
-- ==== Proof.lean ====
/-
  The certificate's five claims.

  The kernel is a three-layer graph convolution with a linear head and a log-softmax, in two pipelined calls. The
  first call (25 grid points) keeps `x · W1` in a scratch array and stores, block by block, the first hidden layer
  `x1 = max (adj · (x · W1) + b1) 0`, the product `x1 · W2` and a narrowed copy of `adj`. The second call makes two
  passes over the 25 row blocks: the first fills two scratch arrays with `((x2 · W3) · LW3)` and `x1 · LW1 + x2 · LW2`
  (`x2 = max (adj · (x1 · W2) + b2) 0`, LW1–LW3 the three row blocks of the head's weights padded to 128 lanes), the
  second adds `adj · ((x2 · W3) · LW3)`, the folded biases, and stores the masked log-softmax of the four live lanes.

  Frames: each call's proof data names what every staging buffer holds after the body at every point, the region
  invariant carries the scratch arrays, and the program's frame follows from the two regions' records. The reference's
  frame is its run with the result dropped. The idealization rewrote nothing, so `preserves` is `True`. Algebraic:
  the kernel's result array, read index by index, is the folded form of the logits under a log-softmax whose shift is
  the masked lane maximum; under the precondition every entry is a real number, the folded form equals the reference's
  joined form (distributivity and reassociation of finite real sums), and the log-softmax does not depend on a finite
  shift; the reference's result is the joined form under its own row maximum.
-/
import proofs.«143550_g111669150054_cont_sun_m_211_32_alg».proof.Defs
import proofs.«143550_g111669150054_cont_sun_m_211_32_alg».proof.Proof.Gen.Kernel
import proofs.«143550_g111669150054_cont_sun_m_211_32_alg».proof.Proof.Gen.KernelIdeal
import proofs.«143550_g111669150054_cont_sun_m_211_32_alg».proof.Proof.Gen.ReferenceIdeal
import proofs.«143550_g111669150054_cont_sun_m_211_32_alg».proof.Proof.Gen.Pre_finite_inputs
import proofs.«143550_g111669150054_cont_sun_m_211_32_alg».proof.Proof.RefRun
import proofs.«143550_g111669150054_cont_sun_m_211_32_alg».proof.Proof.RefRead
import proofs.«143550_g111669150054_cont_sun_m_211_32_alg».proof.Proof.RefValue
import proofs.«143550_g111669150054_cont_sun_m_211_32_alg».proof.Proof.K.Frame
import proofs.«143550_g111669150054_cont_sun_m_211_32_alg».proof.Proof.KI.Frame
import proofs.«143550_g111669150054_cont_sun_m_211_32_alg».proof.Proof.KI.Run
import proofs.«143550_g111669150054_cont_sun_m_211_32_alg».proof.Proof.KI.Bridge
import Idealize.ShloMosaic.Adequacy
import Idealize.ShloMosaic.Init

noncomputable section

namespace Cert.Proof

open Idealize.ShloMosaic Idealize.ShloMosaic.TcCoe Idealize.SL.Sem

theorem frame_K : Cert.frame_Kernel (hKernel := Cert.Kernel.Gen.facts) (hPre_finite_inputs := Cert.Pre_finite_inputs.Gen.facts) :=
  fun m ρ _ => Cert.Kernel.Hand.frame m ρ

theorem frame_KI : Cert.frame_KernelIdeal (hKernelIdeal := Cert.KernelIdeal.Gen.facts) (hPre_finite_inputs := Cert.Pre_finite_inputs.Gen.facts) :=
  fun m ρ _ => Cert.KernelIdeal.Hand.frame m ρ

theorem frame_R : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end, from memories agreeing on the arguments, with the same result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.X1 (F := Ideal) m c Cert.KernelIdeal.main_v12, Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  funext idx
  obtain ⟨i, cls, rfl⟩ : ∃ (i : Fin 10000) (cls : Fin 4), idx = ValueIdx.ix2 i cls := ⟨idx 0, idx 1, ValueIdx.eq_ix2 idx⟩
  refine (Cert.Gcn.Ref.result_eq m' c i cls).trans ?_
  refine Eq.trans ?_ (Cert.KernelIdeal.Hand.kernel_result m c hpre i cls).symm
  obtain ⟨h0, h1, h2, h3, h4, h5, h6, h7, h8, h9⟩ := hagree c
  simp only [Cert.Gcn.Ref.aX, Cert.Gcn.Ref.aAdj, Cert.Gcn.Ref.aW1, Cert.Gcn.Ref.aB1, Cert.Gcn.Ref.aW2, Cert.Gcn.Ref.aB2, Cert.Gcn.Ref.aW3,
    Cert.Gcn.Ref.aB3, Cert.Gcn.Ref.aLinW, Cert.Gcn.Ref.aLinB, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_K, frame_KI, frame_R, trivial, algebraic⟩

end Cert.Proof

end
